-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S4 : Shape := ⟨1, ![4]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S64x128 .f32) (main_arg5 : FVec F S64 .f32) (main_arg6 : FVec F S4 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S10000x128 .f32) (main_arg1 : FVec F S10000x10000 .f32) (main_arg2 : FVec F S128x128 .f32) (main_arg3 : FVec F S128 .f32) (main_arg4 : FVec F S64x128 .f32) (main_arg5 : FVec F S64 .f32) (main_arg6 : FVec F S4 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S4 : Shape := ⟨1, ![4]⟩
abbrev S1x128 : Shape := ⟨2, ![1, 128]⟩
abbrev S10000x64 : Shape := ⟨2, ![10000, 64]⟩
abbrev S1000x128 : Shape := ⟨2, ![1000, 128]⟩
abbrev S1000x64 : Shape := ⟨2, ![1000, 64]⟩
abbrev S400x10000 : Shape := ⟨2, ![400, 10000]⟩
abbrev S400x64 : Shape := ⟨2, ![400, 64]⟩
abbrev S1 : Shape := ⟨1, ![1]⟩
abbrev S_ : Shape := ⟨0, ![]⟩
abbrev S3 : Shape := ⟨1, ![3]⟩
abbrev S3x1 : Shape := ⟨2, ![3, 1]⟩
abbrev S3x64 : Shape := ⟨2, ![3, 64]⟩
abbrev S1x64 : Shape := ⟨2, ![1, 64]⟩
abbrev S400 : Shape := ⟨1, ![400]⟩
abbrev S400x1 : Shape := ⟨2, ![400, 1]⟩

abbrev nBuf : Space → Nat
  | .hbm => 30
  | .vmem => 23
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S4, .f32⟩
  | .hbm, ⟨7, _⟩ => ⟨S1x128, .f32⟩
  | .hbm, ⟨8, _⟩ => ⟨S10000x64, .f32⟩
  | .hbm, ⟨9, _⟩ => ⟨S10000x64, .f32⟩
  | .hbm, ⟨10, _⟩ => ⟨S1, .f32⟩
  | .hbm, ⟨11, _⟩ => ⟨S_, .f32⟩
  | .hbm, ⟨12, _⟩ => ⟨S1, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S1, .f32⟩
  | .hbm, ⟨25, _⟩ => ⟨S3, .f32⟩
  | .hbm, ⟨26, _⟩ => ⟨S3x1, .f32⟩
  | .hbm, ⟨27, _⟩ => ⟨S3x64, .f32⟩
  | .hbm, ⟨28, _⟩ => ⟨S1x64, .f32⟩
  | .hbm, ⟨29, _⟩ => ⟨S10000x64, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S64x128, .f32⟩
  | .local _ .vmem, ⟨5, _⟩ => ⟨S1000x64, .f32⟩
  | .local _ .vmem, ⟨6, _⟩ => ⟨S1000x64, .f32⟩
  | .local _ .vmem, ⟨7, _⟩ => ⟨S400x10000, .f32⟩
  | .local _ .vmem, ⟨8, _⟩ => ⟨S400x10000, .f32⟩
  | .local _ .vmem, ⟨9, _⟩ => ⟨S10000x64, .f32⟩
  | .local _ .vmem, ⟨10, _⟩ => ⟨S400x64, .f32⟩
  | .local _ .vmem, ⟨11, _⟩ => ⟨S400x64, .f32⟩
  | .local _ .vmem, ⟨12, _⟩ => ⟨S400x10000, .f32⟩
  | .local _ .vmem, ⟨13, _⟩ => ⟨S400x10000, .f32⟩
  | .local _ .vmem, ⟨14, _⟩ => ⟨S10000x64, .f32⟩
  | .local _ .vmem, ⟨15, _⟩ => ⟨S400x64, .f32⟩
  | .local _ .vmem, ⟨16, _⟩ => ⟨S400x64, .f32⟩
  | .local _ .vmem, ⟨17, _⟩ => ⟨S400x64, .f32⟩
  | .local _ .vmem, ⟨18, _⟩ => ⟨S400x64, .f32⟩
  | .local _ .vmem, ⟨19, _⟩ => ⟨S3x64, .f32⟩
  | .local _ .vmem, ⟨20, _⟩ => ⟨S1x64, .f32⟩
  | .local _ .vmem, ⟨21, _⟩ => ⟨S400x64, .f32⟩
  | .local _ .vmem, ⟨22, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem5_0 : DmaSem sig := 20
abbrev cc2_sem6_0 : DmaSem sig := 21
abbrev cc2_sem6_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S3x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S400x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S64x128_S64x128_0_0 : ∀ a, (![0, 0] : Fin 2 → Nat) a + S64x128.size a ≤ S64x128.size a
  h_S64x128 : 0 < S64x128.numel
  inb_S1000x64_S1000x64_0_0 : ∀ a, (![0, 0] : Fin 2 → Nat) a + S1000x64.size a ≤ S1000x64.size a
  h_S1000x64 : 0 < S1000x64.numel
  inb_S400x10000_S400x10000_0_0 : ∀ a, (![0, 0] : Fin 2 → Nat) a + S400x10000.size a ≤ S400x10000.size a
  h_S400x10000 : 0 < S400x10000.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x64_S400x64_0_0 : ∀ a, (![0, 0] : Fin 2 → Nat) a + S400x64.size a ≤ S400x64.size a
  h_S400x64 : 0 < S400x64.numel
  slices_S4_S1_0 : S4.Slices ![0] S1
  shapeCasts_S1_S_ : S1.ShapeCasts S_
  slices_S4_S1_3 : S4.Slices ![3] S1
  slices_S4_S1_1 : S4.Slices ![1] S1
  slices_S4_S1_2 : S4.Slices ![2] S1
  bcast_S_S1 : S_.BroadcastsInDim S1 (![] : Fin 0 → Fin S1.rank)
  concatenates_S1_S1_S1_S3_d0 : Shape.Concatenates [S1, S1, S1] S3 0
  shapeCasts_S3_S3x1 : S3.ShapeCasts S3x1
  bcast_S3x1_S3x64_0_1 : S3x1.BroadcastsInDim S3x64 (![0, 1] : Fin 2 → Fin S3x64.rank)
  shapeCasts_S64_S1x64 : S64.ShapeCasts S1x64
  inb_S3x64_S1x64_0_0 : ∀ a, (![0, 0] : Fin 2 → Nat) a + S1x64.size a ≤ S3x64.size a
  h_S1x64 : 0 < S1x64.numel
  shapeCasts_S1x64_S1x64 : S1x64.ShapeCasts S1x64
  shapeCasts_S400x64_S400x64 : S400x64.ShapeCasts S400x64
  broadcasts_S1x64_S400x64 : S1x64.Broadcasts S400x64
  inb_S3x64_S1x64_1_0 : ∀ a, (![1, 0] : Fin 2 → Nat) a + S1x64.size a ≤ S3x64.size a
  inb_S3x64_S1x64_2_0 : ∀ a, (![2, 0] : Fin 2 → Nat) a + S1x64.size a ≤ S3x64.size a
  inb_S1x64_S1x64_0_0 : ∀ a, (![0, 0] : Fin 2 → Nat) a + S1x64.size a ≤ S1x64.size a
  reduces_S400x64_S400 : S400x64.Reduces [1] S400
  shapeCasts_S400_S400x1 : S400.ShapeCasts S400x1
  broadcasts_S400x1_S400x64 : S400x1.Broadcasts S400x64
  dot_S1000x128_S128x128_S1000x128_1_1_0_0_n_n_wf : DotDims.WF S1000x128 S128x128 S1000x128 [1] [1] [0] [0] [] []
  dot_S1000x128_S64x128_S1000x64_1_1_0_0_n_n_wf : DotDims.WF S1000x128 S64x128 S1000x64 [1] [1] [0] [0] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x64.size a ≤ S10000x64.size a
  hwx0_4 : ∀ i : grid0.Coords, EltTy.bits .f32 = 32 ∨ (Rect.block (s := S10000x64) S1000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x64.size a ≤ S10000x64.size a
  hwx1_2 : ∀ i : grid1.Coords, EltTy.bits .f32 = 32 ∨ (Rect.block (s := S10000x64) S400x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x64.size a ≤ S10000x64.size a
  hwx2_2 : ∀ i : grid2.Coords, EltTy.bits .f32 = 32 ∨ (Rect.block (s := S10000x64) S400x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S10000x64.size a
  hwx2_3 : ∀ i : grid2.Coords, EltTy.bits .f32 = 32 ∨ (Rect.block (s := S10000x64) S400x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x64.size a ≤ S3x64.size a
  hwx2_4 : ∀ i : grid2.Coords, EltTy.bits .f32 = 32 ∨ (Rect.block (s := S3x64) S3x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S400x64.size a ≤ S10000x64.size a
  hwx2_6 : ∀ i : grid2.Coords, EltTy.bits .f32 = 32 ∨ (Rect.block (s := S10000x64) S400x64.size (cc2_transform_6 i) (hinb2_6 i)).WholeWords (EltTy.packing .f32)

variable [Facts₀]

def dot_S1000x128_S128x128_S1000x128_1_1_0_0_n_n : DotDims S1000x128 S128x128 S1000x128 where
  lhsContracting := [1]
  rhsContracting := [1]
  lhsNonContracting := [0]
  rhsNonContracting := [0]
  lhsBatch := []
  rhsBatch := []
  wf := dot_S1000x128_S128x128_S1000x128_1_1_0_0_n_n_wf
def dot_S1000x128_S64x128_S1000x64_1_1_0_0_n_n : DotDims S1000x128 S64x128 S1000x64 where
  lhsContracting := [1]
  rhsContracting := [1]
  lhsNonContracting := [0]
  rhsNonContracting := [0]
  lhsBatch := []
  rhsBatch := []
  wf := dot_S1000x128_S64x128_S1000x64_1_1_0_0_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S400x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S400x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S400x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v20) S3x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S400x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S4 : Shape := ⟨1, ![4]⟩
abbrev S1x128 : Shape := ⟨2, ![1, 128]⟩
abbrev S_ : Shape := ⟨0, ![]⟩
abbrev S1 : Shape := ⟨1, ![1]⟩
abbrev S128x64 : Shape := ⟨2, ![128, 64]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 65
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S4, .f32⟩
  | .hbm, ⟨7, _⟩ => ⟨S128x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S1, .f32⟩
  | .hbm, ⟨16, _⟩ => ⟨S_, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S1, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S1, .f32⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S_, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S1, .f32⟩
  | .hbm, ⟨41, _⟩ => ⟨S_, .f32⟩
  | .hbm, ⟨42, _⟩ => ⟨S10000x128, .f32⟩
  | .hbm, ⟨43, _⟩ => ⟨S10000x128, .f32⟩
  | .hbm, ⟨44, _⟩ => ⟨S10000x128, .f32⟩
  | .hbm, ⟨45, _⟩ => ⟨S128x64, .f32⟩
  | .hbm, ⟨46, _⟩ => ⟨S10000x64, .f32⟩
  | .hbm, ⟨47, _⟩ => ⟨S1x64, .f32⟩
  | .hbm, ⟨48, _⟩ => ⟨S10000x64, .f32⟩
  | .hbm, ⟨49, _⟩ => ⟨S10000x64, .f32⟩
  | .hbm, ⟨50, _⟩ => ⟨S_, .f32⟩
  | .hbm, ⟨51, _⟩ => ⟨S10000, .f32⟩
  | .hbm, ⟨52, _⟩ => ⟨S_, .f32⟩
  | .hbm, ⟨53, _⟩ => ⟨S10000, .f32⟩
  | .hbm, ⟨54, _⟩ => ⟨S10000, .f32⟩
  | .hbm, ⟨55, _⟩ => ⟨S10000x1, .f32⟩
  | .hbm, ⟨56, _⟩ => ⟨S10000x64, .f32⟩
  | .hbm, ⟨57, _⟩ => ⟨S10000x64, .f32⟩
  | .hbm, ⟨58, _⟩ => ⟨S10000x64, .f32⟩
  | .hbm, ⟨59, _⟩ => ⟨S_, .f32⟩
  | .hbm, ⟨60, _⟩ => ⟨S10000, .f32⟩
  | .hbm, ⟨61, _⟩ => ⟨S10000x1, .f32⟩
  | .hbm, ⟨62, _⟩ => ⟨S10000x1, .f32⟩
  | .hbm, ⟨63, _⟩ => ⟨S10000x64, .f32⟩
  | .hbm, ⟨64, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call1_cst : Ref sig .tc := ⟨.hbm, 50, rfl⟩
abbrev main_call1_v0 : Ref sig .tc := ⟨.hbm, 51, rfl⟩
abbrev main_call1_cst_0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_cst_1 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_v39 : Ref sig .tc := ⟨.hbm, 64, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  transposes_S64x128_S128x64_1_0 : S64x128.Transposes [1, 0] S128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.KBody0.lean ====
/-
  The first kernel (the input projection) at one grid point.

  Its grid has ten points; point t works on rows 1000·t … 1000·t + 999 of x. The body loads the block of x, all of W1,
  the bias row and all of W2, and stores one value into the whole output block: relu (x_blk · W1ᵀ + b1) · W2ᵀ. So the
  output block after the body is that one stored value, whatever the block held before, and each input block is left
  as it was found. The statements are made for any contents `V` of the arrays at the kernel's entry.
-/
import proofs.«106063_g16123307229541_cont_7to1_487_14_alg».proof.Proof.Gen.Kernel.Launch
import proofs.«106063_g16123307229541_cont_7to1_487_14_alg».proof.Proof.Gen.Kernel.Skeleton
import proofs.«106063_g16123307229541_cont_7to1_487_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes through: each the whole of its buffer. -/
abbrev r0_x : Rect S1000x128 := Rect.unit (s := S1000x128) ![0, 0] S1000x128.size inb_S1000x128_S1000x128_0_0
abbrev r0_w1 : Rect S128x128 := Rect.unit (s := S128x128) ![0, 0] S128x128.size inb_S128x128_S128x128_0_0
abbrev r0_b1 : Rect S1x128 := Rect.unit (s := S1x128) ![0, 0] S1x128.size inb_S1x128_S1x128_0_0
abbrev r0_w2 : Rect S64x128 := Rect.unit (s := S64x128) ![0, 0] S64x128.size inb_S64x128_S64x128_0_0
abbrev r0_o : Rect S1000x64 := Rect.unit (s := S1000x64) ![0, 0] S1000x64.size inb_S1000x64_S1000x64_0_0

/-- The output block after the body: its one store, of the projected hidden rows of the block. -/
def out0_4 (x0 : Vec F S1000x128 .f32) (x1 : Vec F S128x128 .f32) (x2 : Vec F S1x128 .f32) (x3 : Vec F S64x128 .f32) : Vec F S1000x64 .f32 :=
  View.canon [⟨r0_o, k0_pay1 (View.ld x0 r0_x) (View.ld x1 r0_w1) (View.ld x2 r0_b1) (View.ld x3 r0_w2)⟩]

/-- The one store covers the whole block. -/
theorem cover0_4 (p0 : Vec F S1000x64 .f32) (y : S1000x64.Idx) :
    ∃ pc ∈ ([⟨r0_o, p0⟩] : List (View.Piece (Elt F) S1000x64 .f32)), y ∈ pc.1.set :=
  View.cover_of_tiled [⟨r0_o, p0⟩] S1000x64.size (by rfl) y

set_option maxHeartbeats 1000000 in
/-- The body on whole staging buffers, the inputs' holding `x0 … x3` and the output's anything, runs to the end
    leaving the inputs as they were and the output at `out0_4` of them. -/
theorem sound_kernel0 (c : Dev nD) (E : Set ℕ) (i : grid0.Coords) (arg1 : Memref sig .tc .vmem S1000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S64x128 .f32) (harg4 : arg4.IsWhole) (arg5 : Memref sig .tc .vmem S1000x64 .f32) (harg5 : arg5.IsWhole)
    (x0 : Vec F S1000x128 .f32) (x1 : Vec F S128x128 .f32) (x2 : Vec F S1x128 .f32) (x3 : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__proj_body i arg1 harg1 arg2 harg2 arg3 harg3 arg4 harg4 arg5 harg5) K := by
  simp only [cc0__proj_body_eq_skeleton]; unfold cc0__proj_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of the first kernel on core `c`: the arrays as the kernel finds them; after the body at point `t`
    each input's buffer at its block and the output's at `out0_4` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the first kernel, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  The second kernel (the first sweep over L) at one grid point.

  Its grid has twenty-five points; point t works on rows 400·t … 400·t + 399 of L. The body loads the 400-row stripe of
  L and the whole projected array s0, and stores their product into the whole output block. So the output block after
  the body is that one stored value and each input block is left as it was found. The statements are made for any
  contents `V` of the arrays at the kernel's entry.
-/
import proofs.«106063_g16123307229541_cont_7to1_487_14_alg».proof.Proof.Gen.Kernel.Launch
import proofs.«106063_g16123307229541_cont_7to1_487_14_alg».proof.Proof.Gen.Kernel.Skeleton
import proofs.«106063_g16123307229541_cont_7to1_487_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes through: each the whole of its buffer. -/
abbrev r1_l : Rect S400x10000 := Rect.unit (s := S400x10000) ![0, 0] S400x10000.size inb_S400x10000_S400x10000_0_0
abbrev r1_s : Rect S10000x64 := Rect.unit (s := S10000x64) ![0, 0] S10000x64.size inb_S10000x64_S10000x64_0_0
abbrev r1_o : Rect S400x64 := Rect.unit (s := S400x64) ![0, 0] S400x64.size inb_S400x64_S400x64_0_0

/-- The output block after the body: its one store, the stripe of L times s0. -/
def out1_2 (x0 : Vec F S400x10000 .f32) (x1 : Vec F S10000x64 .f32) : Vec F S400x64 .f32 :=
  View.canon [⟨r1_o, k1_pay1 (View.ld x0 r1_l) (View.ld x1 r1_s)⟩]

/-- The one store covers the whole block. -/
theorem cover1_2 (p0 : Vec F S400x64 .f32) (y : S400x64.Idx) :
    ∃ pc ∈ ([⟨r1_o, p0⟩] : List (View.Piece (Elt F) S400x64 .f32)), y ∈ pc.1.set :=
  View.cover_of_tiled [⟨r1_o, p0⟩] S400x64.size (by rfl) y

set_option maxHeartbeats 1000000 in
/-- The body on whole staging buffers, the inputs' holding `x0`, `x1` and the output's anything, runs to the end
    leaving the inputs as they were and the output at `out1_2` of them. -/
theorem sound_kernel1 (c : Dev nD) (E : Set ℕ) (i : grid1.Coords) (arg1 : Memref sig .tc .vmem S400x10000 .f32) (harg1 : arg1.IsWhole) (arg2 : Memref sig .tc .vmem S10000x64 .f32) (harg2 : arg2.IsWhole) (arg3 : Memref sig .tc .vmem S400x64 .f32) (harg3 : arg3.IsWhole)
    (x0 : Vec F S400x10000 .f32) (x1 : Vec F S10000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__pass1_body i arg1 harg1 arg2 harg2 arg3 harg3) K := by
  simp only [cc1__pass1_body_eq_skeleton]; unfold cc1__pass1_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second kernel on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second kernel, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2.lean ====
/-
  The third kernel (the second sweep over L, the filter combination and the row-wise log-softmax) at one grid point.

  Its grid has twenty-five points; point t works on rows 400·t … 400·t + 399. The body loads the stripe of L, the whole
  of s1, the 400-row blocks of s0 and of s1, the three coefficient rows and the bias row, and stores one value into the
  whole output block. So the output block after the body is that one stored value and each input block is left as it was
  found. The array s1 reaches the kernel through two windows (whole, and by 400-row blocks); both only read it, and each
  holds half of the array's share.
-/
import proofs.«106063_g16123307229541_cont_7to1_487_14_alg».proof.Proof.Gen.Kernel.Launch
import proofs.«106063_g16123307229541_cont_7to1_487_14_alg».proof.Proof.Gen.Kernel.Skeleton
import proofs.«106063_g16123307229541_cont_7to1_487_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the kernel finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes through: the whole of a buffer, or one row of the coefficient buffer. -/
abbrev r2_l : Rect S400x10000 := Rect.unit (s := S400x10000) ![0, 0] S400x10000.size inb_S400x10000_S400x10000_0_0
abbrev r2_s : Rect S10000x64 := Rect.unit (s := S10000x64) ![0, 0] S10000x64.size inb_S10000x64_S10000x64_0_0
abbrev r2_b : Rect S400x64 := Rect.unit (s := S400x64) ![0, 0] S400x64.size inb_S400x64_S400x64_0_0
abbrev r2_t0 : Rect S3x64 := Rect.unit (s := S3x64) ![0, 0] S1x64.size inb_S3x64_S1x64_0_0
abbrev r2_t1 : Rect S3x64 := Rect.unit (s := S3x64) ![1, 0] S1x64.size inb_S3x64_S1x64_1_0
abbrev r2_t2 : Rect S3x64 := Rect.unit (s := S3x64) ![2, 0] S1x64.size inb_S3x64_S1x64_2_0
abbrev r2_c : Rect S1x64 := Rect.unit (s := S1x64) ![0, 0] S1x64.size inb_S1x64_S1x64_0_0

/-- The output block after the body: its one store, the log-softmax rows of the block. -/
def out2_6 (x0 : Vec F S400x10000 .f32) (x1 : Vec F S10000x64 .f32) (x2 : Vec F S400x64 .f32) (x3 : Vec F S400x64 .f32) (x4 : Vec F S3x64 .f32) (x5 : Vec F S1x64 .f32) : Vec F S400x64 .f32 :=
  View.canon [⟨r2_b, k2_pay1 (View.ld x0 r2_l) (View.ld x1 r2_s) (View.ld x4 r2_t0) (View.ld x2 r2_b) (View.ld x4 r2_t1) (View.ld x3 r2_b) (View.ld x4 r2_t2) (View.ld x5 r2_c)⟩]

/-- The one store covers the whole block. -/
theorem cover2_6 (p0 : Vec F S400x64 .f32) (y : S400x64.Idx) :
    ∃ pc ∈ ([⟨r2_b, p0⟩] : List (View.Piece (Elt F) S400x64 .f32)), y ∈ pc.1.set :=
  View.cover_of_tiled [⟨r2_b, p0⟩] S400x64.size (by rfl) y

set_option maxHeartbeats 2000000 in
/-- The body on whole staging buffers, the inputs' holding `x0 … x5` and the output's anything, runs to the end
    leaving the inputs as they were and the output at `out2_6` of them. -/
theorem sound_kernel2 (c : Dev nD) (E : Set ℕ) (i : grid2.Coords) (arg1 : Memref sig .tc .vmem S400x10000 .f32) (harg1 : arg1.IsWhole) (arg2 : Memref sig .tc .vmem S10000x64 .f32) (harg2 : arg2.IsWhole) (arg3 : Memref sig .tc .vmem S400x64 .f32) (harg3 : arg3.IsWhole) (arg4 : Memref sig .tc .vmem S400x64 .f32) (harg4 : arg4.IsWhole) (arg5 : Memref sig .tc .vmem S3x64 .f32) (harg5 : arg5.IsWhole) (arg6 : Memref sig .tc .vmem S1x64 .f32) (harg6 : arg6.IsWhole) (arg7 : Memref sig .tc .vmem S400x64 .f32) (harg7 : arg7.IsWhole)
    (x0 : Vec F S400x10000 .f32) (x1 : Vec F S10000x64 .f32) (x2 : Vec F S400x64 .f32) (x3 : Vec F S400x64 .f32) (x4 : Vec F S3x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__pass2_body i arg1 harg1 arg2 harg2 arg3 harg3 arg4 harg4 arg5 harg5 arg6 harg6 arg7 harg7) K := by
  simp only [cc2__pass2_body_eq_skeleton]; unfold cc2__pass2_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The share each input window holds its array at: the two windows on s1 a half each, the others the whole. -/
def q2 : Fin cfg2.W → PosShare TreeShare
  | ⟨1, _⟩ => fullShare.left
  | ⟨3, _⟩ => fullShare.right
  | _ => fullShare

/-- The proof data of the third kernel on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q := q2
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the third kernel, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KShared2.lean ====
/-
  The third kernel's arrays among the core's buffers.

  The kernel reads the array s1 through two windows. At its entry the buffer behind s1, held whole, is dealt to the two
  windows a half share each (both halves at the same contents); the other arrays go to their one window whole. At its
  exit the two halves still hold the contents they were given — input windows are never written — and are joined back
  into the whole buffer; the output array comes back at what the kernel's write-backs left.
-/
import proofs.«106063_g16123307229541_cont_7to1_487_14_alg».proof.Proof.KBody2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The whole share is the composite of its two halves. -/
theorem full_halves : fullShare ∈ fullShare.left ·? fullShare.right := PosShare.mem_left_op_right fullShare

/-- The six buffers behind the kernel's seven windows, one by one. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_arg1) ↦{fullShare} W main_arg1) ∗ (((c : Thread nD τ).loc main_v2) ↦{fullShare} W main_v2)
          ∗ (((c : Thread nD τ).loc main_v1) ↦{fullShare} W main_v1) ∗ (((c : Thread nD τ).loc main_v20) ↦{fullShare} W main_v20)
          ∗ (((c : Thread nD τ).loc main_v21) ↦{fullShare} W main_v21) ∗ (((c : Thread nD τ).loc main_v22) ↦{fullShare} W main_v22)) := by
  unfold Pipeline.arrBufs
  exact Idealize.SL.BI.bigSep_eq_bigSepL_of_eq [main_arg1, main_v2, main_v1, main_v20, main_v21, main_v22] (by decide) (by decide) _

/-- The kernel's arrays at contents `G`, window by window, each at its share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_arg1) ↦{fullShare} G 0) ∗ (((c : Thread nD τ).loc main_v2) ↦{fullShare.left} G 1)
          ∗ (((c : Thread nD τ).loc main_v1) ↦{fullShare} G 2) ∗ (((c : Thread nD τ).loc main_v2) ↦{fullShare.right} G 3)
          ∗ (((c : Thread nD τ).loc main_v20) ↦{fullShare} G 4) ∗ (((c : Thread nD τ).loc main_v21) ↦{fullShare} G 5)
          ∗ (((c : Thread nD τ).loc main_v22) ↦{fullShare} G 6)) := by
  unfold Dat.arrays
  rw [bigSep_W2]
  rw [(arr_whole2 0).set_eq_univ, (arr_whole2 1).set_eq_univ, (arr_whole2 2).set_eq_univ,
    (arr_whole2 4).set_eq_univ, (arr_whole2 5).set_eq_univ, (arr_whole2 6).set_eq_univ]
  rfl

/-- ENTRY. Every unscoped buffer of the core held at `W c` gives the kernel's arrays at their entry contents — the
    buffer behind s1 dealt in two halves — beside the buffers that are no window's array. -/
theorem entry2 (W : Dev nD → Valuation τ sig (Elt F)) (c : Dev nD) :
    (StableHlo.held (c : Thread nD τ) (Pipeline.ucRefs τ sig) (W c) : sProp 𝕄)
      ⊢ iprop((dat2 (fun c b => W c b) c).arrays ((dat2 (fun c b => W c b) c).arrAt · 0)
          ∗ Pipeline.unscopedRest (Ix := Unit) (Name := ℕ) (U := UR sig nD τ) (Lvl := ℕ) spec2 c (fun b => W c b)) := by
  rw [← Pipeline.unscopedBufs_held (Ix := Unit) (Name := ℕ) (U := UR sig nD τ) (Lvl := ℕ) c (W c),
    show (unscopedBufs c (fun b => W c b) : sProp 𝕄)
        = iprop(Pipeline.arrBufs spec2 c (fun b => W c b) ∗ Pipeline.unscopedRest spec2 c (fun b => W c b)) from
      Pipeline.PerCore.unscopedBufs_split₀ (fun _ : Dev nD => cfgs) 2 c winFacts₀2.arr_unscoped (fun b => W c b),
    arrBufs2_eq, arrays2_eq]
  iintro ⟨⟨H0, H1, H2, H4, H5, H6⟩, Hrest⟩
  ihave H1' := ((pointsTo_share full_halves).1) $$ H1
  icases H1' with ⟨H1a, H1b⟩
  isplitr [Hrest]
  swap; · iexact Hrest
  isplitl [H0]; · iexact H0
  isplitl [H1a]; · iexact H1a
  isplitl [H2]; · iexact H2
  isplitl [H1b]; · iexact H1b
  isplitl [H4]; · iexact H4
  isplitl [H5]; · iexact H5
  iexact H6

/-- An input window's array ends as it was found. -/
theorem arrAt2_in (c : Dev nD) (w : Fin cfg2.W) (hw : (cfg2.win w).isOut = false) (n : Nat) :
    (dat2 V c).arrAt w n = V c (Pipeline.arrRef spec2 w) :=
  ((dat2 V c).arrAt_in w hw n).trans (A_eq2 V c w)

/-- EXIT. The kernel's arrays at their final contents and the buffers that are no window's array give back every
    unscoped buffer of the core, at any valuation `W'` that has the output array at what the write-backs left and
    agrees with the entry contents elsewhere: the two halves of s1's buffer, still at the contents they were dealt,
    are joined. -/
theorem exit2 (W : Dev nD → Valuation τ sig (Elt F)) (c : Dev nD) (W' : Valuation τ sig (Elt F))
    (hout : W' (Proc.devRef .tc main_v22) = (dat2 (fun c b => W c b) c).arrAt 6 cfg2.N)
    (hrest : ∀ b : Ref sig .tc, b ≠ main_v22 → W' (Proc.devRef .tc b) = W c (Proc.devRef .tc b)) :
    iprop((dat2 (fun c b => W c b) c).arrays ((dat2 (fun c b => W c b) c).arrAt · cfg2.N)
        ∗ Pipeline.unscopedRest (Ix := Unit) (Name := ℕ) (U := UR sig nD τ) (Lvl := ℕ) spec2 c (fun b => W c b))
      ⊢ (StableHlo.held (c : Thread nD τ) (Pipeline.ucRefs τ sig) W' : sProp 𝕄) := by
  rw [← Pipeline.unscopedBufs_held (Ix := Unit) (Name := ℕ) (U := UR sig nD τ) (Lvl := ℕ) c W',
    show (unscopedBufs c (fun b => W' b) : sProp 𝕄)
        = iprop(Pipeline.arrBufs spec2 c (fun b => W' b) ∗ Pipeline.unscopedRest spec2 c (fun b => W' b)) from
      Pipeline.PerCore.unscopedBufs_split₀ (fun _ : Dev nD => cfgs) 2 c winFacts₀2.arr_unscoped (fun b => W' b),
    arrBufs2_eq, arrays2_eq]
  have hR : (Pipeline.unscopedRest (Ix := Unit) (Name := ℕ) (U := UR sig nD τ) (Lvl := ℕ) spec2 c (fun b => W' b) : sProp 𝕄)
      = Pipeline.unscopedRest spec2 c (fun b => W c b) := by
    unfold Pipeline.unscopedRest
    exact bigSep_congr fun b hb => by
      dsimp only
      rw [hrest b (fun e => (Finset.mem_sdiff.mp hb).2 (Finset.mem_image.mpr ⟨6, Finset.mem_univ _, e.symm⟩))]
  rw [hR, arrAt2_in _ c 0 rfl, arrAt2_in _ c 1 rfl, arrAt2_in _ c 2 rfl, arrAt2_in _ c 3 rfl, arrAt2_in _ c 4 rfl,
    arrAt2_in _ c 5 rfl, hrest main_arg1 (by decide), hrest main_v2 (by decide), hrest main_v1 (by decide),
    hrest main_v20 (by decide), hrest main_v21 (by decide), hout]
  iintro ⟨⟨H0, H1a, H2, H1b, H4, H5, H6⟩, Hrest⟩
  ihave H1 := ((pointsTo_share full_halves).2) $$ [H1a H1b]
  · isplitl [H1a]; · iexact H1a
    iexact H1b
  isplitr [Hrest]
  swap; · iexact Hrest
  isplitl [H0]; · iexact H0
  isplitl [H1]; · iexact H1
  isplitl [H2]; · iexact H2
  isplitl [H4]; · iexact H4
  isplitl [H5]; · iexact H5
  iexact H6

end Cert.Kernel.Hand

end
-- ==== Proof.KRun.lean ====
/-
  The whole program: the host operations and the three kernels, in order, from the launch to the return.

  Between two items of @main the core holds every unscoped buffer at a known valuation: the launch contents; then the
  bias row reshaped; then the first kernel's output array at what its write-backs leave; then the second kernel's;
  then the coefficient array and the second bias row built by the host; then the third kernel's output. Each kernel
  takes its windows' arrays out of that valuation at its entry and puts them back at its exit (the third one dealing
  the array it reads twice in two halves). Nothing is owed to another core and no kernel has a semaphore of its own.
  The run ends with every unscoped buffer at the last valuation, from which the arguments and the result are read.
-/
import proofs.«106063_g16123307229541_cont_7to1_487_14_alg».proof.Proof.KBody0
import proofs.«106063_g16123307229541_cont_7to1_487_14_alg».proof.Proof.KBody1
import proofs.«106063_g16123307229541_cont_7to1_487_14_alg».proof.Proof.KShared2
import proofs.«106063_g16123307229541_cont_7to1_487_14_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents between the items of @main -/

/-- Core `c`'s buffers at launch. -/
abbrev W0 : Dev nD → Valuation τ sig (Elt F) := fun c b => m ((c : Dev nD), b)
/-- After the first host stretch (the bias row). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- After the first kernel: its arrays at what the pipeline leaves, every other buffer as before. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- After the second kernel. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)
/-- After the second host stretch (the coefficient array and the second bias row). -/
abbrev W4 : Dev nD → Valuation τ sig (Elt F) := fun c => StableHlo.after hostOps2 (W3 m c)
abbrev E4 : (c : Dev nD) → (b : Ref sig .tc) → Buf (Elt F) ((c : Thread nD τ).loc b) := fun c b => W4 m c b
/-- After the third kernel: its output array at what the pipeline leaves, every other buffer as before. -/
def W5 (c : Dev nD) : Valuation τ sig (Elt F) :=
  Function.update (W4 m c) (Proc.devRef .tc main_v22) ((dat2 (E4 m) c).arrAt 6 cfg2.N)
theorem W5_out (c : Dev nD) : W5 m c (Proc.devRef .tc main_v22) = (dat2 (E4 m) c).arrAt 6 cfg2.N := by
  unfold W5; exact Function.update_self ..
theorem W5_of_ne (c : Dev nD) (b : Ref sig .tc) (hb : b ≠ main_v22) :
    W5 m c (Proc.devRef .tc b) = W4 m c (Proc.devRef .tc b) := by
  unfold W5; exact Function.update_of_ne (StableHlo.devRef_ne_of_ne hb) ..

/-! ## The arguments end as launched -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W4_of (c : Dev nD) (r : Ref sig .tc) (h : r ∉ hostOps2_W) : W4 m c (Proc.devRef .tc r) = W3 m c (Proc.devRef .tc r) :=
  StableHlo.after_of_writes_sub hostOps2 _ hostOps2_writes h

/-- An input window's array of the first kernel ends as it was found. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (E1 m) c).arrAt_in w hw _).trans (A_eq0 (E1 m) c w))
/-- An input window's array of the second kernel ends as it was found. -/
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (E2 m) c).arrAt_in w hw _).trans (A_eq1 (E2 m) c w))

theorem W5_main_arg0 (c : Dev nD) : W5 m c (Proc.devRef .tc main_arg0) = m ((c : Thread nD τ).loc main_arg0) :=
  (W5_of_ne m c main_arg0 (by decide)).trans <| (W4_of m c main_arg0 (by decide)).trans <|
    (W3_of_ne m c main_arg0 (by decide)).trans <| (W2_in m c 0 rfl).trans <| (W1_of m c main_arg0 (by decide)).trans rfl
theorem W5_main_arg1 (c : Dev nD) : W5 m c (Proc.devRef .tc main_arg1) = m ((c : Thread nD τ).loc main_arg1) :=
  (W5_of_ne m c main_arg1 (by decide)).trans <| (W4_of m c main_arg1 (by decide)).trans <|
    (W3_in m c 0 rfl).trans <| (W2_of_ne m c main_arg1 (by decide)).trans <| (W1_of m c main_arg1 (by decide)).trans rfl
theorem W5_main_arg2 (c : Dev nD) : W5 m c (Proc.devRef .tc main_arg2) = m ((c : Thread nD τ).loc main_arg2) :=
  (W5_of_ne m c main_arg2 (by decide)).trans <| (W4_of m c main_arg2 (by decide)).trans <|
    (W3_of_ne m c main_arg2 (by decide)).trans <| (W2_in m c 1 rfl).trans <| (W1_of m c main_arg2 (by decide)).trans rfl
theorem W5_main_arg3 (c : Dev nD) : W5 m c (Proc.devRef .tc main_arg3) = m ((c : Thread nD τ).loc main_arg3) :=
  (W5_of_ne m c main_arg3 (by decide)).trans <| (W4_of m c main_arg3 (by decide)).trans <|
    (W3_of_ne m c main_arg3 (by decide)).trans <| (W2_of_ne m c main_arg3 (by decide)).trans <| (W1_of m c main_arg3 (by decide)).trans rfl
theorem W5_main_arg4 (c : Dev nD) : W5 m c (Proc.devRef .tc main_arg4) = m ((c : Thread nD τ).loc main_arg4) :=
  (W5_of_ne m c main_arg4 (by decide)).trans <| (W4_of m c main_arg4 (by decide)).trans <|
    (W3_of_ne m c main_arg4 (by decide)).trans <| (W2_in m c 3 rfl).trans <| (W1_of m c main_arg4 (by decide)).trans rfl
theorem W5_main_arg5 (c : Dev nD) : W5 m c (Proc.devRef .tc main_arg5) = m ((c : Thread nD τ).loc main_arg5) :=
  (W5_of_ne m c main_arg5 (by decide)).trans <| (W4_of m c main_arg5 (by decide)).trans <|
    (W3_of_ne m c main_arg5 (by decide)).trans <| (W2_of_ne m c main_arg5 (by decide)).trans <| (W1_of m c main_arg5 (by decide)).trans rfl
theorem W5_main_arg6 (c : Dev nD) : W5 m c (Proc.devRef .tc main_arg6) = m ((c : Thread nD τ).loc main_arg6) :=
  (W5_of_ne m c main_arg6 (by decide)).trans <| (W4_of m c main_arg6 (by decide)).trans <|
    (W3_of_ne m c main_arg6 (by decide)).trans <| (W2_of_ne m c main_arg6 (by decide)).trans <| (W1_of m c main_arg6 (by decide)).trans rfl

/-! ## The proof data family and the thread state -/

/-- Every pipeline's proof data, each at its kernel's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
  | ⟨2, _⟩ => fun c => dat2 (E4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A host stretch as a segment over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The kernels as segments -/

set_option backward.isDefEq.respectTransparency.types false in
/-- The first kernel: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third kernel: entered from every unscoped buffer at `W4`, left at `W5`; two of its windows share an array. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    iintro ⟨⟨Hub, Hp, HO⟩, -, -⟩
    ihave H := (entry2 (W4 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (W4 m) c (W5 m c) (W5_out m c) (fun b hb => W5_of_ne m c b hb)
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's five items in order. -/
abbrev items : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m) ]
/-- @main is the run of the segments. -/
theorem main_run (c : Dev nD) : main (F := F) c = Pipeline.Seg.run (items m) := (main_chain c).trans (by chain_rfl)

set_option backward.isDefEq.respectTransparency.types false in
/-- THE RUN. From any memory with zero counters every weakly fair execution of @main terminates, nothing faulting,
    and every final state holds each unscoped buffer of each core at the last valuation `W5`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME of the program, at any float instance: every weakly fair execution terminates, nothing faulting, and the
    seven argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (run_all m ρ)

/-- The run with the result named: the result array ends at the last valuation's contents, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v22) = W5 m c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v22 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (run_all m ρ)

end Cert.Kernel.Hand

end
-- ==== Proof.Body0.lean ====
/-
  The first kernel (the input projection) at one grid point.

  Its grid has ten points; point t works on rows 1000·t … 1000·t + 999 of x. The body loads the block of x, all of W1,
  the bias row and all of W2, and stores one value into the whole output block: relu (x_blk · W1ᵀ + b1) · W2ᵀ. So the
  output block after the body is that one stored value, whatever the block held before, and each input block is left
  as it was found. The statements are made for any contents `V` of the arrays at the kernel's entry.
-/
import proofs.«106063_g16123307229541_cont_7to1_487_14_alg».proof.Proof.Gen.KernelIdeal.Launch
import proofs.«106063_g16123307229541_cont_7to1_487_14_alg».proof.Proof.Gen.KernelIdeal.Skeleton
import proofs.«106063_g16123307229541_cont_7to1_487_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes through: each the whole of its buffer. -/
abbrev r0_x : Rect S1000x128 := Rect.unit (s := S1000x128) ![0, 0] S1000x128.size inb_S1000x128_S1000x128_0_0
abbrev r0_w1 : Rect S128x128 := Rect.unit (s := S128x128) ![0, 0] S128x128.size inb_S128x128_S128x128_0_0
abbrev r0_b1 : Rect S1x128 := Rect.unit (s := S1x128) ![0, 0] S1x128.size inb_S1x128_S1x128_0_0
abbrev r0_w2 : Rect S64x128 := Rect.unit (s := S64x128) ![0, 0] S64x128.size inb_S64x128_S64x128_0_0
abbrev r0_o : Rect S1000x64 := Rect.unit (s := S1000x64) ![0, 0] S1000x64.size inb_S1000x64_S1000x64_0_0

/-- The output block after the body: its one store, of the projected hidden rows of the block. -/
def out0_4 (x0 : Vec F S1000x128 .f32) (x1 : Vec F S128x128 .f32) (x2 : Vec F S1x128 .f32) (x3 : Vec F S64x128 .f32) : Vec F S1000x64 .f32 :=
  View.canon [⟨r0_o, k0_pay1 (View.ld x0 r0_x) (View.ld x1 r0_w1) (View.ld x2 r0_b1) (View.ld x3 r0_w2)⟩]

/-- The one store covers the whole block. -/
theorem cover0_4 (p0 : Vec F S1000x64 .f32) (y : S1000x64.Idx) :
    ∃ pc ∈ ([⟨r0_o, p0⟩] : List (View.Piece (Elt F) S1000x64 .f32)), y ∈ pc.1.set :=
  View.cover_of_tiled [⟨r0_o, p0⟩] S1000x64.size (by rfl) y

set_option maxHeartbeats 1000000 in
/-- The body on whole staging buffers, the inputs' holding `x0 … x3` and the output's anything, runs to the end
    leaving the inputs as they were and the output at `out0_4` of them. -/
theorem sound_kernel0 (c : Dev nD) (E : Set ℕ) (i : grid0.Coords) (arg1 : Memref sig .tc .vmem S1000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S64x128 .f32) (harg4 : arg4.IsWhole) (arg5 : Memref sig .tc .vmem S1000x64 .f32) (harg5 : arg5.IsWhole)
    (x0 : Vec F S1000x128 .f32) (x1 : Vec F S128x128 .f32) (x2 : Vec F S1x128 .f32) (x3 : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__proj_body i arg1 harg1 arg2 harg2 arg3 harg3 arg4 harg4 arg5 harg5) K := by
  simp only [cc0__proj_body_eq_skeleton]; unfold cc0__proj_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of the first kernel on core `c`: the arrays as the kernel finds them; after the body at point `t`
    each input's buffer at its block and the output's at `out0_4` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the first kernel, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
/-
  The second kernel (the first sweep over L) at one grid point.

  Its grid has twenty-five points; point t works on rows 400·t … 400·t + 399 of L. The body loads the 400-row stripe of
  L and the whole projected array s0, and stores their product into the whole output block. So the output block after
  the body is that one stored value and each input block is left as it was found. The statements are made for any
  contents `V` of the arrays at the kernel's entry.
-/
import proofs.«106063_g16123307229541_cont_7to1_487_14_alg».proof.Proof.Gen.KernelIdeal.Launch
import proofs.«106063_g16123307229541_cont_7to1_487_14_alg».proof.Proof.Gen.KernelIdeal.Skeleton
import proofs.«106063_g16123307229541_cont_7to1_487_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes through: each the whole of its buffer. -/
abbrev r1_l : Rect S400x10000 := Rect.unit (s := S400x10000) ![0, 0] S400x10000.size inb_S400x10000_S400x10000_0_0
abbrev r1_s : Rect S10000x64 := Rect.unit (s := S10000x64) ![0, 0] S10000x64.size inb_S10000x64_S10000x64_0_0
abbrev r1_o : Rect S400x64 := Rect.unit (s := S400x64) ![0, 0] S400x64.size inb_S400x64_S400x64_0_0

/-- The output block after the body: its one store, the stripe of L times s0. -/
def out1_2 (x0 : Vec F S400x10000 .f32) (x1 : Vec F S10000x64 .f32) : Vec F S400x64 .f32 :=
  View.canon [⟨r1_o, k1_pay1 (View.ld x0 r1_l) (View.ld x1 r1_s)⟩]

/-- The one store covers the whole block. -/
theorem cover1_2 (p0 : Vec F S400x64 .f32) (y : S400x64.Idx) :
    ∃ pc ∈ ([⟨r1_o, p0⟩] : List (View.Piece (Elt F) S400x64 .f32)), y ∈ pc.1.set :=
  View.cover_of_tiled [⟨r1_o, p0⟩] S400x64.size (by rfl) y

set_option maxHeartbeats 1000000 in
/-- The body on whole staging buffers, the inputs' holding `x0`, `x1` and the output's anything, runs to the end
    leaving the inputs as they were and the output at `out1_2` of them. -/
theorem sound_kernel1 (c : Dev nD) (E : Set ℕ) (i : grid1.Coords) (arg1 : Memref sig .tc .vmem S400x10000 .f32) (harg1 : arg1.IsWhole) (arg2 : Memref sig .tc .vmem S10000x64 .f32) (harg2 : arg2.IsWhole) (arg3 : Memref sig .tc .vmem S400x64 .f32) (harg3 : arg3.IsWhole)
    (x0 : Vec F S400x10000 .f32) (x1 : Vec F S10000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__pass1_body i arg1 harg1 arg2 harg2 arg3 harg3) K := by
  simp only [cc1__pass1_body_eq_skeleton]; unfold cc1__pass1_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second kernel on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second kernel, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Body2.lean ====
/-
  The third kernel (the second sweep over L, the filter combination and the row-wise log-softmax) at one grid point.

  Its grid has twenty-five points; point t works on rows 400·t … 400·t + 399. The body loads the stripe of L, the whole
  of s1, the 400-row blocks of s0 and of s1, the three coefficient rows and the bias row, and stores one value into the
  whole output block. So the output block after the body is that one stored value and each input block is left as it was
  found. The array s1 reaches the kernel through two windows (whole, and by 400-row blocks); both only read it, and each
  holds half of the array's share.
-/
import proofs.«106063_g16123307229541_cont_7to1_487_14_alg».proof.Proof.Gen.KernelIdeal.Launch
import proofs.«106063_g16123307229541_cont_7to1_487_14_alg».proof.Proof.Gen.KernelIdeal.Skeleton
import proofs.«106063_g16123307229541_cont_7to1_487_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the kernel finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes through: the whole of a buffer, or one row of the coefficient buffer. -/
abbrev r2_l : Rect S400x10000 := Rect.unit (s := S400x10000) ![0, 0] S400x10000.size inb_S400x10000_S400x10000_0_0
abbrev r2_s : Rect S10000x64 := Rect.unit (s := S10000x64) ![0, 0] S10000x64.size inb_S10000x64_S10000x64_0_0
abbrev r2_b : Rect S400x64 := Rect.unit (s := S400x64) ![0, 0] S400x64.size inb_S400x64_S400x64_0_0
abbrev r2_t0 : Rect S3x64 := Rect.unit (s := S3x64) ![0, 0] S1x64.size inb_S3x64_S1x64_0_0
abbrev r2_t1 : Rect S3x64 := Rect.unit (s := S3x64) ![1, 0] S1x64.size inb_S3x64_S1x64_1_0
abbrev r2_t2 : Rect S3x64 := Rect.unit (s := S3x64) ![2, 0] S1x64.size inb_S3x64_S1x64_2_0
abbrev r2_c : Rect S1x64 := Rect.unit (s := S1x64) ![0, 0] S1x64.size inb_S1x64_S1x64_0_0

/-- The output block after the body: its one store, the log-softmax rows of the block. -/
def out2_6 (x0 : Vec F S400x10000 .f32) (x1 : Vec F S10000x64 .f32) (x2 : Vec F S400x64 .f32) (x3 : Vec F S400x64 .f32) (x4 : Vec F S3x64 .f32) (x5 : Vec F S1x64 .f32) : Vec F S400x64 .f32 :=
  View.canon [⟨r2_b, k2_pay1 (View.ld x0 r2_l) (View.ld x1 r2_s) (View.ld x4 r2_t0) (View.ld x2 r2_b) (View.ld x4 r2_t1) (View.ld x3 r2_b) (View.ld x4 r2_t2) (View.ld x5 r2_c)⟩]

/-- The one store covers the whole block. -/
theorem cover2_6 (p0 : Vec F S400x64 .f32) (y : S400x64.Idx) :
    ∃ pc ∈ ([⟨r2_b, p0⟩] : List (View.Piece (Elt F) S400x64 .f32)), y ∈ pc.1.set :=
  View.cover_of_tiled [⟨r2_b, p0⟩] S400x64.size (by rfl) y

set_option maxHeartbeats 2000000 in
/-- The body on whole staging buffers, the inputs' holding `x0 … x5` and the output's anything, runs to the end
    leaving the inputs as they were and the output at `out2_6` of them. -/
theorem sound_kernel2 (c : Dev nD) (E : Set ℕ) (i : grid2.Coords) (arg1 : Memref sig .tc .vmem S400x10000 .f32) (harg1 : arg1.IsWhole) (arg2 : Memref sig .tc .vmem S10000x64 .f32) (harg2 : arg2.IsWhole) (arg3 : Memref sig .tc .vmem S400x64 .f32) (harg3 : arg3.IsWhole) (arg4 : Memref sig .tc .vmem S400x64 .f32) (harg4 : arg4.IsWhole) (arg5 : Memref sig .tc .vmem S3x64 .f32) (harg5 : arg5.IsWhole) (arg6 : Memref sig .tc .vmem S1x64 .f32) (harg6 : arg6.IsWhole) (arg7 : Memref sig .tc .vmem S400x64 .f32) (harg7 : arg7.IsWhole)
    (x0 : Vec F S400x10000 .f32) (x1 : Vec F S10000x64 .f32) (x2 : Vec F S400x64 .f32) (x3 : Vec F S400x64 .f32) (x4 : Vec F S3x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__pass2_body i arg1 harg1 arg2 harg2 arg3 harg3 arg4 harg4 arg5 harg5 arg6 harg6 arg7 harg7) K := by
  simp only [cc2__pass2_body_eq_skeleton]; unfold cc2__pass2_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The share each input window holds its array at: the two windows on s1 a half each, the others the whole. -/
def q2 : Fin cfg2.W → PosShare TreeShare
  | ⟨1, _⟩ => fullShare.left
  | ⟨3, _⟩ => fullShare.right
  | _ => fullShare

/-- The proof data of the third kernel on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q := q2
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the third kernel, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Shared2.lean ====
/-
  The third kernel's arrays among the core's buffers.

  The kernel reads the array s1 through two windows. At its entry the buffer behind s1, held whole, is dealt to the two
  windows a half share each (both halves at the same contents); the other arrays go to their one window whole. At its
  exit the two halves still hold the contents they were given — input windows are never written — and are joined back
  into the whole buffer; the output array comes back at what the kernel's write-backs left.
-/
import proofs.«106063_g16123307229541_cont_7to1_487_14_alg».proof.Proof.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The whole share is the composite of its two halves. -/
theorem full_halves : fullShare ∈ fullShare.left ·? fullShare.right := PosShare.mem_left_op_right fullShare

/-- The six buffers behind the kernel's seven windows, one by one. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_arg1) ↦{fullShare} W main_arg1) ∗ (((c : Thread nD τ).loc main_v2) ↦{fullShare} W main_v2)
          ∗ (((c : Thread nD τ).loc main_v1) ↦{fullShare} W main_v1) ∗ (((c : Thread nD τ).loc main_v20) ↦{fullShare} W main_v20)
          ∗ (((c : Thread nD τ).loc main_v21) ↦{fullShare} W main_v21) ∗ (((c : Thread nD τ).loc main_v22) ↦{fullShare} W main_v22)) := by
  unfold Pipeline.arrBufs
  exact Idealize.SL.BI.bigSep_eq_bigSepL_of_eq [main_arg1, main_v2, main_v1, main_v20, main_v21, main_v22] (by decide) (by decide) _

/-- The kernel's arrays at contents `G`, window by window, each at its share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_arg1) ↦{fullShare} G 0) ∗ (((c : Thread nD τ).loc main_v2) ↦{fullShare.left} G 1)
          ∗ (((c : Thread nD τ).loc main_v1) ↦{fullShare} G 2) ∗ (((c : Thread nD τ).loc main_v2) ↦{fullShare.right} G 3)
          ∗ (((c : Thread nD τ).loc main_v20) ↦{fullShare} G 4) ∗ (((c : Thread nD τ).loc main_v21) ↦{fullShare} G 5)
          ∗ (((c : Thread nD τ).loc main_v22) ↦{fullShare} G 6)) := by
  unfold Dat.arrays
  rw [bigSep_W2]
  rw [(arr_whole2 0).set_eq_univ, (arr_whole2 1).set_eq_univ, (arr_whole2 2).set_eq_univ,
    (arr_whole2 4).set_eq_univ, (arr_whole2 5).set_eq_univ, (arr_whole2 6).set_eq_univ]
  rfl

/-- ENTRY. Every unscoped buffer of the core held at `W c` gives the kernel's arrays at their entry contents — the
    buffer behind s1 dealt in two halves — beside the buffers that are no window's array. -/
theorem entry2 (W : Dev nD → Valuation τ sig (Elt F)) (c : Dev nD) :
    (StableHlo.held (c : Thread nD τ) (Pipeline.ucRefs τ sig) (W c) : sProp 𝕄)
      ⊢ iprop((dat2 (fun c b => W c b) c).arrays ((dat2 (fun c b => W c b) c).arrAt · 0)
          ∗ Pipeline.unscopedRest (Ix := Unit) (Name := ℕ) (U := UR sig nD τ) (Lvl := ℕ) spec2 c (fun b => W c b)) := by
  rw [← Pipeline.unscopedBufs_held (Ix := Unit) (Name := ℕ) (U := UR sig nD τ) (Lvl := ℕ) c (W c),
    show (unscopedBufs c (fun b => W c b) : sProp 𝕄)
        = iprop(Pipeline.arrBufs spec2 c (fun b => W c b) ∗ Pipeline.unscopedRest spec2 c (fun b => W c b)) from
      Pipeline.PerCore.unscopedBufs_split₀ (fun _ : Dev nD => cfgs) 2 c winFacts₀2.arr_unscoped (fun b => W c b),
    arrBufs2_eq, arrays2_eq]
  iintro ⟨⟨H0, H1, H2, H4, H5, H6⟩, Hrest⟩
  ihave H1' := ((pointsTo_share full_halves).1) $$ H1
  icases H1' with ⟨H1a, H1b⟩
  isplitr [Hrest]
  swap; · iexact Hrest
  isplitl [H0]; · iexact H0
  isplitl [H1a]; · iexact H1a
  isplitl [H2]; · iexact H2
  isplitl [H1b]; · iexact H1b
  isplitl [H4]; · iexact H4
  isplitl [H5]; · iexact H5
  iexact H6

/-- An input window's array ends as it was found. -/
theorem arrAt2_in (c : Dev nD) (w : Fin cfg2.W) (hw : (cfg2.win w).isOut = false) (n : Nat) :
    (dat2 V c).arrAt w n = V c (Pipeline.arrRef spec2 w) :=
  ((dat2 V c).arrAt_in w hw n).trans (A_eq2 V c w)

/-- EXIT. The kernel's arrays at their final contents and the buffers that are no window's array give back every
    unscoped buffer of the core, at any valuation `W'` that has the output array at what the write-backs left and
    agrees with the entry contents elsewhere: the two halves of s1's buffer, still at the contents they were dealt,
    are joined. -/
theorem exit2 (W : Dev nD → Valuation τ sig (Elt F)) (c : Dev nD) (W' : Valuation τ sig (Elt F))
    (hout : W' (Proc.devRef .tc main_v22) = (dat2 (fun c b => W c b) c).arrAt 6 cfg2.N)
    (hrest : ∀ b : Ref sig .tc, b ≠ main_v22 → W' (Proc.devRef .tc b) = W c (Proc.devRef .tc b)) :
    iprop((dat2 (fun c b => W c b) c).arrays ((dat2 (fun c b => W c b) c).arrAt · cfg2.N)
        ∗ Pipeline.unscopedRest (Ix := Unit) (Name := ℕ) (U := UR sig nD τ) (Lvl := ℕ) spec2 c (fun b => W c b))
      ⊢ (StableHlo.held (c : Thread nD τ) (Pipeline.ucRefs τ sig) W' : sProp 𝕄) := by
  rw [← Pipeline.unscopedBufs_held (Ix := Unit) (Name := ℕ) (U := UR sig nD τ) (Lvl := ℕ) c W',
    show (unscopedBufs c (fun b => W' b) : sProp 𝕄)
        = iprop(Pipeline.arrBufs spec2 c (fun b => W' b) ∗ Pipeline.unscopedRest spec2 c (fun b => W' b)) from
      Pipeline.PerCore.unscopedBufs_split₀ (fun _ : Dev nD => cfgs) 2 c winFacts₀2.arr_unscoped (fun b => W' b),
    arrBufs2_eq, arrays2_eq]
  have hR : (Pipeline.unscopedRest (Ix := Unit) (Name := ℕ) (U := UR sig nD τ) (Lvl := ℕ) spec2 c (fun b => W' b) : sProp 𝕄)
      = Pipeline.unscopedRest spec2 c (fun b => W c b) := by
    unfold Pipeline.unscopedRest
    exact bigSep_congr fun b hb => by
      dsimp only
      rw [hrest b (fun e => (Finset.mem_sdiff.mp hb).2 (Finset.mem_image.mpr ⟨6, Finset.mem_univ _, e.symm⟩))]
  rw [hR, arrAt2_in _ c 0 rfl, arrAt2_in _ c 1 rfl, arrAt2_in _ c 2 rfl, arrAt2_in _ c 3 rfl, arrAt2_in _ c 4 rfl,
    arrAt2_in _ c 5 rfl, hrest main_arg1 (by decide), hrest main_v2 (by decide), hrest main_v1 (by decide),
    hrest main_v20 (by decide), hrest main_v21 (by decide), hout]
  iintro ⟨⟨H0, H1a, H2, H1b, H4, H5, H6⟩, Hrest⟩
  ihave H1 := ((pointsTo_share full_halves).2) $$ [H1a H1b]
  · isplitl [H1a]; · iexact H1a
    iexact H1b
  isplitr [Hrest]
  swap; · iexact Hrest
  isplitl [H0]; · iexact H0
  isplitl [H1]; · iexact H1
  isplitl [H2]; · iexact H2
  isplitl [H4]; · iexact H4
  isplitl [H5]; · iexact H5
  iexact H6

end Cert.KernelIdeal.Hand

end
-- ==== Proof.Run.lean ====
/-
  The whole program: the host operations and the three kernels, in order, from the launch to the return.

  Between two items of @main the core holds every unscoped buffer at a known valuation: the launch contents; then the
  bias row reshaped; then the first kernel's output array at what its write-backs leave; then the second kernel's;
  then the coefficient array and the second bias row built by the host; then the third kernel's output. Each kernel
  takes its windows' arrays out of that valuation at its entry and puts them back at its exit (the third one dealing
  the array it reads twice in two halves). Nothing is owed to another core and no kernel has a semaphore of its own.
  The run ends with every unscoped buffer at the last valuation, from which the arguments and the result are read.
-/
import proofs.«106063_g16123307229541_cont_7to1_487_14_alg».proof.Proof.Body0
import proofs.«106063_g16123307229541_cont_7to1_487_14_alg».proof.Proof.Body1
import proofs.«106063_g16123307229541_cont_7to1_487_14_alg».proof.Proof.Shared2
import proofs.«106063_g16123307229541_cont_7to1_487_14_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents between the items of @main -/

/-- Core `c`'s buffers at launch. -/
abbrev W0 : Dev nD → Valuation τ sig (Elt F) := fun c b => m ((c : Dev nD), b)
/-- After the first host stretch (the bias row). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- After the first kernel: its arrays at what the pipeline leaves, every other buffer as before. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- After the second kernel. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)
/-- After the second host stretch (the coefficient array and the second bias row). -/
abbrev W4 : Dev nD → Valuation τ sig (Elt F) := fun c => StableHlo.after hostOps2 (W3 m c)
abbrev E4 : (c : Dev nD) → (b : Ref sig .tc) → Buf (Elt F) ((c : Thread nD τ).loc b) := fun c b => W4 m c b
/-- After the third kernel: its output array at what the pipeline leaves, every other buffer as before. -/
def W5 (c : Dev nD) : Valuation τ sig (Elt F) :=
  Function.update (W4 m c) (Proc.devRef .tc main_v22) ((dat2 (E4 m) c).arrAt 6 cfg2.N)
theorem W5_out (c : Dev nD) : W5 m c (Proc.devRef .tc main_v22) = (dat2 (E4 m) c).arrAt 6 cfg2.N := by
  unfold W5; exact Function.update_self ..
theorem W5_of_ne (c : Dev nD) (b : Ref sig .tc) (hb : b ≠ main_v22) :
    W5 m c (Proc.devRef .tc b) = W4 m c (Proc.devRef .tc b) := by
  unfold W5; exact Function.update_of_ne (StableHlo.devRef_ne_of_ne hb) ..

/-! ## The arguments end as launched -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W4_of (c : Dev nD) (r : Ref sig .tc) (h : r ∉ hostOps2_W) : W4 m c (Proc.devRef .tc r) = W3 m c (Proc.devRef .tc r) :=
  StableHlo.after_of_writes_sub hostOps2 _ hostOps2_writes h

/-- An input window's array of the first kernel ends as it was found. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (E1 m) c).arrAt_in w hw _).trans (A_eq0 (E1 m) c w))
/-- An input window's array of the second kernel ends as it was found. -/
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (E2 m) c).arrAt_in w hw _).trans (A_eq1 (E2 m) c w))

theorem W5_main_arg0 (c : Dev nD) : W5 m c (Proc.devRef .tc main_arg0) = m ((c : Thread nD τ).loc main_arg0) :=
  (W5_of_ne m c main_arg0 (by decide)).trans <| (W4_of m c main_arg0 (by decide)).trans <|
    (W3_of_ne m c main_arg0 (by decide)).trans <| (W2_in m c 0 rfl).trans <| (W1_of m c main_arg0 (by decide)).trans rfl
theorem W5_main_arg1 (c : Dev nD) : W5 m c (Proc.devRef .tc main_arg1) = m ((c : Thread nD τ).loc main_arg1) :=
  (W5_of_ne m c main_arg1 (by decide)).trans <| (W4_of m c main_arg1 (by decide)).trans <|
    (W3_in m c 0 rfl).trans <| (W2_of_ne m c main_arg1 (by decide)).trans <| (W1_of m c main_arg1 (by decide)).trans rfl
theorem W5_main_arg2 (c : Dev nD) : W5 m c (Proc.devRef .tc main_arg2) = m ((c : Thread nD τ).loc main_arg2) :=
  (W5_of_ne m c main_arg2 (by decide)).trans <| (W4_of m c main_arg2 (by decide)).trans <|
    (W3_of_ne m c main_arg2 (by decide)).trans <| (W2_in m c 1 rfl).trans <| (W1_of m c main_arg2 (by decide)).trans rfl
theorem W5_main_arg3 (c : Dev nD) : W5 m c (Proc.devRef .tc main_arg3) = m ((c : Thread nD τ).loc main_arg3) :=
  (W5_of_ne m c main_arg3 (by decide)).trans <| (W4_of m c main_arg3 (by decide)).trans <|
    (W3_of_ne m c main_arg3 (by decide)).trans <| (W2_of_ne m c main_arg3 (by decide)).trans <| (W1_of m c main_arg3 (by decide)).trans rfl
theorem W5_main_arg4 (c : Dev nD) : W5 m c (Proc.devRef .tc main_arg4) = m ((c : Thread nD τ).loc main_arg4) :=
  (W5_of_ne m c main_arg4 (by decide)).trans <| (W4_of m c main_arg4 (by decide)).trans <|
    (W3_of_ne m c main_arg4 (by decide)).trans <| (W2_in m c 3 rfl).trans <| (W1_of m c main_arg4 (by decide)).trans rfl
theorem W5_main_arg5 (c : Dev nD) : W5 m c (Proc.devRef .tc main_arg5) = m ((c : Thread nD τ).loc main_arg5) :=
  (W5_of_ne m c main_arg5 (by decide)).trans <| (W4_of m c main_arg5 (by decide)).trans <|
    (W3_of_ne m c main_arg5 (by decide)).trans <| (W2_of_ne m c main_arg5 (by decide)).trans <| (W1_of m c main_arg5 (by decide)).trans rfl
theorem W5_main_arg6 (c : Dev nD) : W5 m c (Proc.devRef .tc main_arg6) = m ((c : Thread nD τ).loc main_arg6) :=
  (W5_of_ne m c main_arg6 (by decide)).trans <| (W4_of m c main_arg6 (by decide)).trans <|
    (W3_of_ne m c main_arg6 (by decide)).trans <| (W2_of_ne m c main_arg6 (by decide)).trans <| (W1_of m c main_arg6 (by decide)).trans rfl

/-! ## The proof data family and the thread state -/

/-- Every pipeline's proof data, each at its kernel's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
  | ⟨2, _⟩ => fun c => dat2 (E4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A host stretch as a segment over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The kernels as segments -/

set_option backward.isDefEq.respectTransparency.types false in
/-- The first kernel: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third kernel: entered from every unscoped buffer at `W4`, left at `W5`; two of its windows share an array. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    iintro ⟨⟨Hub, Hp, HO⟩, -, -⟩
    ihave H := (entry2 (W4 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (W4 m) c (W5 m c) (W5_out m c) (fun b hb => W5_of_ne m c b hb)
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's five items in order. -/
abbrev items : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m) ]
/-- @main is the run of the segments. -/
theorem main_run (c : Dev nD) : main (F := F) c = Pipeline.Seg.run (items m) := (main_chain c).trans (by chain_rfl)

set_option backward.isDefEq.respectTransparency.types false in
/-- THE RUN. From any memory with zero counters every weakly fair execution of @main terminates, nothing faulting,
    and every final state holds each unscoped buffer of each core at the last valuation `W5`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME of the program, at any float instance: every weakly fair execution terminates, nothing faulting, and the
    seven argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (run_all m ρ)

/-- The run with the result named: the result array ends at the last valuation's contents, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v22) = W5 m c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v22 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (run_all m ρ)

end Cert.KernelIdeal.Hand

end
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.HostVals.lean ====
/-
  What the program's two host stretches write, read at an index.

  The first stretch stands the bias vector b1 (128 entries) up as a 1 × 128 row: entry (0, k) of the row is entry k
  of the vector. The second stretch does the same for b2 (64 entries, a 1 × 64 row) and builds from the four filter
  coefficients th a 3 × 64 table whose rows are constant along the columns:
      row 0 holds th 0 − th 3,    row 1 holds th 1 + th 2,    row 2 holds th 3.
  Each row's value is made as a scalar (a one-element slice of th read as a rank-0 array, two of them subtracted or
  added), spread to a one-element vector, the three vectors laid end to end, the resulting 3-vector stood up as a
  3 × 1 column, and the column spread over 64 columns. Reading that chain at an index (p, q), outermost operation
  first, goes back through the column (p, 0), the 3-vector's entry p, the p-th piece's entry 0, the scalar, and at
  last the entries of th.

  All statements are for arbitrary buffer contents at the start of the stretch, over the extended reals.
-/
import proofs.«106063_g16123307229541_cont_7to1_487_14_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout
import proofs.«106063_g16123307229541_cont_7to1_487_14_alg».proof.Proof.LibRowSpread
import proofs.«106063_g16123307229541_cont_7to1_487_14_alg».proof.Proof.LibRowOps

noncomputable section

namespace Cert.KernelIdeal.HostVals

open Cert.KernelIdeal Cert.KernelIdeal.Gen Idealize.ShloMosaic Idealize.ShloMosaic.ValueIdx Idealize.ShloMosaic.StableHlo

/-! ## Small layout operations read at an index -/

section Layout
variable {α : Type}

/-- A one-element slice of a vector at offset o reads the vector's entry o. -/
theorem sliceOne_apply {n : Nat} (o : Nat) (ho : o < n) (x : (⟨1, ![n]⟩ : Shape).Idx → α)
    (h : (⟨1, ![n]⟩ : Shape).Slices ![o] (⟨1, ![1]⟩ : Shape)) :
    extractStridedSlice (⟨1, ![1]⟩ : Shape) ![o] x h (ix1 (0 : Fin 1)) = x (ix1 (⟨o, ho⟩ : Fin n)) := by
  refine extractStridedSlice_apply ![o] x h (ix1 (0 : Fin 1)) (ix1 (⟨o, ho⟩ : Fin n)) fun a => ?_
  match a with
  | ⟨0, _⟩ => rfl

/-- A one-element vector read as a scalar is its entry 0. -/
theorem toScalar_apply (x : (⟨1, ![1]⟩ : Shape).Idx → α) (h : (⟨1, ![1]⟩ : Shape).ShapeCasts (⟨0, ![]⟩ : Shape)) :
    shapeCast (⟨0, ![]⟩ : Shape) x h ix0 = x (ix1 (0 : Fin 1)) := by
  refine shapeCast_apply x h ix0 (ix1 (0 : Fin 1)) ?_
  have h1 := ((⟨1, ![1]⟩ : Shape).rowMajor (ix1 (0 : Fin 1))).isLt
  have h0 := ((⟨0, ![]⟩ : Shape).rowMajor ix0).isLt
  have e1 : (⟨1, ![1]⟩ : Shape).numel = 1 := by decide
  have e0 : (⟨0, ![]⟩ : Shape).numel = 1 := by decide
  omega

end Layout

section Pieces
variable {α : Type}

/-- Three one-element vectors laid end to end: entry 0 of the result is the first piece's entry. -/
theorem cat3_apply_0 (x0 x1 x2 : (⟨1, ![1]⟩ : Shape).Idx → α)
    (h : Shape.Concatenates [(⟨1, ![1]⟩ : Shape), ⟨1, ![1]⟩, ⟨1, ![1]⟩] (⟨1, ![3]⟩ : Shape) 0) :
    concatenate (⟨1, ![3]⟩ : Shape) 0 [⟨⟨1, ![1]⟩, x0⟩, ⟨⟨1, ![1]⟩, x1⟩, ⟨⟨1, ![1]⟩, x2⟩] h (ix1 (0 : Fin 3))
      = x0 (ix1 (0 : Fin 1)) :=
  concatenate_apply_piece (t := (⟨1, ![3]⟩ : Shape)) 0 [⟨⟨1, ![1]⟩, x0⟩, ⟨⟨1, ![1]⟩, x1⟩, ⟨⟨1, ![1]⟩, x2⟩] h (ix1 (0 : Fin 3))
    0 (show 0 < 3 by decide) ⟨1, ![1]⟩ x0 rfl rfl 0 rfl
    (ix1 (0 : Fin 1)) (fun b hb => absurd (Subsingleton.elim _ _) hb) rfl

/-- Entry 1 of the result is the second piece's entry. -/
theorem cat3_apply_1 (x0 x1 x2 : (⟨1, ![1]⟩ : Shape).Idx → α)
    (h : Shape.Concatenates [(⟨1, ![1]⟩ : Shape), ⟨1, ![1]⟩, ⟨1, ![1]⟩] (⟨1, ![3]⟩ : Shape) 0) :
    concatenate (⟨1, ![3]⟩ : Shape) 0 [⟨⟨1, ![1]⟩, x0⟩, ⟨⟨1, ![1]⟩, x1⟩, ⟨⟨1, ![1]⟩, x2⟩] h (ix1 (1 : Fin 3))
      = x1 (ix1 (0 : Fin 1)) :=
  concatenate_apply_piece (t := (⟨1, ![3]⟩ : Shape)) 0 [⟨⟨1, ![1]⟩, x0⟩, ⟨⟨1, ![1]⟩, x1⟩, ⟨⟨1, ![1]⟩, x2⟩] h (ix1 (1 : Fin 3))
    1 (show 1 < 3 by decide) ⟨1, ![1]⟩ x1 rfl rfl 1 rfl
    (ix1 (0 : Fin 1)) (fun b hb => absurd (Subsingleton.elim _ _) hb) rfl

/-- Entry 2 of the result is the third piece's entry. -/
theorem cat3_apply_2 (x0 x1 x2 : (⟨1, ![1]⟩ : Shape).Idx → α)
    (h : Shape.Concatenates [(⟨1, ![1]⟩ : Shape), ⟨1, ![1]⟩, ⟨1, ![1]⟩] (⟨1, ![3]⟩ : Shape) 0) :
    concatenate (⟨1, ![3]⟩ : Shape) 0 [⟨⟨1, ![1]⟩, x0⟩, ⟨⟨1, ![1]⟩, x1⟩, ⟨⟨1, ![1]⟩, x2⟩] h (ix1 (2 : Fin 3))
      = x2 (ix1 (0 : Fin 1)) :=
  concatenate_apply_piece (t := (⟨1, ![3]⟩ : Shape)) 0 [⟨⟨1, ![1]⟩, x0⟩, ⟨⟨1, ![1]⟩, x1⟩, ⟨⟨1, ![1]⟩, x2⟩] h (ix1 (2 : Fin 3))
    2 (show 2 < 3 by decide) ⟨1, ![1]⟩ x2 rfl rfl 2 rfl
    (ix1 (0 : Fin 1)) (fun b hb => absurd (Subsingleton.elim _ _) hb) rfl

end Pieces

/-! ## The rows of the two bias vectors -/

/-- After the first host stretch the 1 × 128 row holds the bias vector b1: entry (0, k) is b1's entry k. -/
theorem after0_v0 (V : Valuation τ sig (Elt Ideal)) (k : Fin 128) :
    (StableHlo.after (hostOps0 (F := Ideal)) V (Proc.devRef .tc main_v0) : S1x128.Idx → EReal) (ix2 (0 : Fin 1) k)
      = (V (Proc.devRef .tc main_arg3) : S128.Idx → EReal) (ix1 k) := by
  have e : (StableHlo.after (hostOps0 (F := Ideal)) V (Proc.devRef .tc main_v0) : S1x128.Idx → EReal)
      = shapeCast S1x128 (V (Proc.devRef .tc main_arg3) : S128.Idx → EReal) Gen.shapeCasts_S128_S1x128 := by
    dsimp only [hostOps0]; after_results; rfl
  exact (congrFun e _).trans (shapeCast_a_1a_apply _ _ (0 : Fin 1) k)

/-- After the second host stretch the 1 × 64 row holds the bias vector b2: entry (0, q) is b2's entry q. -/
theorem after2_v21 (V : Valuation τ sig (Elt Ideal)) (q : Fin 64) :
    (StableHlo.after (hostOps2 (F := Ideal)) V (Proc.devRef .tc main_v21) : S1x64.Idx → EReal) (ix2 (0 : Fin 1) q)
      = (V (Proc.devRef .tc main_arg5) : S64.Idx → EReal) (ix1 q) := by
  have e : (StableHlo.after (hostOps2 (F := Ideal)) V (Proc.devRef .tc main_v21) : S1x64.Idx → EReal)
      = shapeCast S1x64 (V (Proc.devRef .tc main_arg5) : S64.Idx → EReal) Gen.shapeCasts_S64_S1x64 := by
    dsimp only [hostOps2]; after_results_simp; rfl
  exact (congrFun e _).trans (shapeCast_a_1a_apply _ _ (0 : Fin 1) q)

/-! ## The table of coefficient combinations -/

/-- The 3 × 64 table after the second host stretch, as one term over the coefficient vector th: the column of the
    three scalars th 0 − th 3, th 1 + th 2, th 3, spread over 64 columns. -/
theorem after2_v20_term (V : Valuation τ sig (Elt Ideal)) :
    (StableHlo.after (hostOps2 (F := Ideal)) V (Proc.devRef .tc main_v20) : S3x64.Idx → EReal)
      = broadcastInDim S3x64 ![0, 1] Gen.bcast_S3x1_S3x64_0_1
          (shapeCast S3x1
            (concatenate S3 0
              [⟨S1, broadcastInDim S1 ![] Gen.bcast_S_S1
                  (subf (F := Ideal) (φ := .f32)
                    (shapeCast S_ (extractStridedSlice S1 ![0] (V (Proc.devRef .tc main_arg6) : S4.Idx → EReal) Gen.slices_S4_S1_0) Gen.shapeCasts_S1_S_)
                    (shapeCast S_ (extractStridedSlice S1 ![3] (V (Proc.devRef .tc main_arg6) : S4.Idx → EReal) Gen.slices_S4_S1_3) Gen.shapeCasts_S1_S_))⟩,
               ⟨S1, broadcastInDim S1 ![] Gen.bcast_S_S1
                  (addf (F := Ideal) (φ := .f32)
                    (shapeCast S_ (extractStridedSlice S1 ![1] (V (Proc.devRef .tc main_arg6) : S4.Idx → EReal) Gen.slices_S4_S1_1) Gen.shapeCasts_S1_S_)
                    (shapeCast S_ (extractStridedSlice S1 ![2] (V (Proc.devRef .tc main_arg6) : S4.Idx → EReal) Gen.slices_S4_S1_2) Gen.shapeCasts_S1_S_))⟩,
               ⟨S1, broadcastInDim S1 ![] Gen.bcast_S_S1
                  (shapeCast S_ (extractStridedSlice S1 ![3] (V (Proc.devRef .tc main_arg6) : S4.Idx → EReal) Gen.slices_S4_S1_3) Gen.shapeCasts_S1_S_)⟩]
              Gen.concatenates_S1_S1_S1_S3_d0)
            Gen.shapeCasts_S3_S3x1) := by
  dsimp only [hostOps2]; after_results_simp; rfl

/-- A coefficient taken out of th as a scalar: the one-element slice at offset o, read as a rank-0 array, is th's
    entry o. -/
theorem coeff_apply (th : S4.Idx → EReal) (o : Nat) (ho : o < 4) (hs : S4.Slices ![o] S1) (hc : S1.ShapeCasts S_) :
    shapeCast S_ (extractStridedSlice S1 ![o] th hs) hc ix0 = th (ix1 (⟨o, ho⟩ : Fin 4)) :=
  (toScalar_apply _ hc).trans (sliceOne_apply o ho th hs)

/-- Row 0 of the table is th 0 − th 3 in every column. -/
theorem after2_v20_0 (V : Valuation τ sig (Elt Ideal)) (q : Fin 64) :
    (StableHlo.after (hostOps2 (F := Ideal)) V (Proc.devRef .tc main_v20) : S3x64.Idx → EReal) (ix2 (0 : Fin 3) q)
      = HSub.hSub (α := EReal) (β := EReal) (γ := EReal)
          ((V (Proc.devRef .tc main_arg6) : S4.Idx → EReal) (ix1 (0 : Fin 4)))
          ((V (Proc.devRef .tc main_arg6) : S4.Idx → EReal) (ix1 (3 : Fin 4))) := by
  refine (congrFun (after2_v20_term V) _).trans ?_
  refine (RowOps.colInDim2_apply _ _ (0 : Fin 3) q).trans ?_
  refine (RowOps.colCast_apply _ _ (0 : Fin 3)).trans ?_
  refine (cat3_apply_0 _ _ _ _).trans ?_
  refine (RowSpread.scalarInDim_apply _ _ _).trans ?_
  refine (subf_apply _ _ ix0).trans ?_
  exact congrArg₂ (fun x y : EReal => x - y) (coeff_apply _ 0 (by decide) _ _) (coeff_apply _ 3 (by decide) _ _)

/-- Row 1 of the table is th 1 + th 2 in every column. -/
theorem after2_v20_1 (V : Valuation τ sig (Elt Ideal)) (q : Fin 64) :
    (StableHlo.after (hostOps2 (F := Ideal)) V (Proc.devRef .tc main_v20) : S3x64.Idx → EReal) (ix2 (1 : Fin 3) q)
      = HAdd.hAdd (α := EReal) (β := EReal) (γ := EReal)
          ((V (Proc.devRef .tc main_arg6) : S4.Idx → EReal) (ix1 (1 : Fin 4)))
          ((V (Proc.devRef .tc main_arg6) : S4.Idx → EReal) (ix1 (2 : Fin 4))) := by
  refine (congrFun (after2_v20_term V) _).trans ?_
  refine (RowOps.colInDim2_apply _ _ (1 : Fin 3) q).trans ?_
  refine (RowOps.colCast_apply _ _ (1 : Fin 3)).trans ?_
  refine (cat3_apply_1 _ _ _ _).trans ?_
  refine (RowSpread.scalarInDim_apply _ _ _).trans ?_
  refine (addf_apply _ _ ix0).trans ?_
  exact congrArg₂ (fun x y : EReal => x + y) (coeff_apply _ 1 (by decide) _ _) (coeff_apply _ 2 (by decide) _ _)

/-- Row 2 of the table is th 3 in every column. -/
theorem after2_v20_2 (V : Valuation τ sig (Elt Ideal)) (q : Fin 64) :
    (StableHlo.after (hostOps2 (F := Ideal)) V (Proc.devRef .tc main_v20) : S3x64.Idx → EReal) (ix2 (2 : Fin 3) q)
      = (V (Proc.devRef .tc main_arg6) : S4.Idx → EReal) (ix1 (3 : Fin 4)) := by
  refine (congrFun (after2_v20_term V) _).trans ?_
  refine (RowOps.colInDim2_apply _ _ (2 : Fin 3) q).trans ?_
  refine (RowOps.colCast_apply _ _ (2 : Fin 3)).trans ?_
  refine (cat3_apply_2 _ _ _ _).trans ?_
  refine (RowSpread.scalarInDim_apply _ _ _).trans ?_
  exact coeff_apply _ 3 (by decide) _ _

end Cert.KernelIdeal.HostVals

end
-- ==== Proof.LibRealSums.lean ====
/-
  Real numbers inside the extended reals: finite sums, closure of "is a real number" under the
  arithmetic a normalisation layer uses, and the identity between the two forms of a variance.

  An extended real is "a real" when it is the image of some real number. Sums, differences, products, maxima,
  finite sums, quotients by a nonzero real and reciprocal square roots of positive reals keep that property,
  and on such values every operation is the image of the operation on real numbers. The variance law

      (∑ z²)/c − ((∑ z)/c)²  =  (∑ (z − (∑ z)/c)²)/c          (c the number of terms)

  holds for real numbers; its right-hand side is a mean of squares, so it is nonnegative and clamping the
  left-hand side at zero changes nothing. Carried to the extended reals it holds for columns of real entries.
-/
import Idealize.ShloMosaic.PureOps.Ideal
import Mathlib.Tactic

noncomputable section

namespace Cert.RealSums

open Idealize.ShloMosaic

/-- A finite sum of real numbers, taken in the extended reals, is the image of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals, is the image of the real maximum. -/
theorem coe_max (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

/-- The sum of two reals is a real. -/
theorem isReal_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

/-- The difference of two reals is a real. -/
theorem isReal_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

/-- The product of two reals is a real. -/
theorem isReal_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The larger of two reals is a real. -/
theorem isReal_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- Zero is a real. -/
theorem isReal_zero : ∃ r : ℝ, (0 : EReal) = (r : EReal) := ⟨0, EReal.coe_zero.symm⟩

/-- A finite sum of reals is a real. -/
theorem isReal_sum {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [← coe_finset_sum]; exact Finset.sum_congr rfl (fun i _ => hg i)⟩

/-- The quotient of a real by a nonzero real is a real: the product with the reciprocal. -/
theorem div_coe_coe (r : ℝ) {c : ℝ} (hc : c ≠ 0) : Ideal.div (r : EReal) (c : EReal) = ((r / c : ℝ) : EReal) := by
  rw [Ideal.div_coe hc, ← EReal.coe_mul, mul_one_div]

/-- The quotient of a real by a nonzero real is a real. -/
theorem isReal_div {a : EReal} {c : ℝ} (ha : ∃ r : ℝ, a = (r : EReal)) (hc : c ≠ 0) :
    ∃ r : ℝ, Ideal.div a (c : EReal) = (r : EReal) := by
  obtain ⟨r, rfl⟩ := ha; exact ⟨r / c, div_coe_coe r hc⟩

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is a real. -/
theorem isReal_rsqrt {a : EReal} (ha : ∃ r : ℝ, 0 < r ∧ a = (r : EReal)) : ∃ s : ℝ, Ideal.rsqrt a = (s : EReal) := by
  obtain ⟨r, hr, rfl⟩ := ha; exact ⟨(Real.sqrt r)⁻¹, rsqrt_coe_pos hr⟩

/-- The variance law on real numbers: with `c` the number of terms, the mean of the squares minus the square of
    the mean is the mean of the squared deviations from the mean. -/
theorem real_var_law {ι : Type*} [Fintype ι] (z : ι → ℝ) (c : ℝ) (hc : (Fintype.card ι : ℝ) = c) (hc0 : c ≠ 0) :
    (∑ i, z i * z i) / c - (∑ i, z i) / c * ((∑ i, z i) / c)
      = (∑ i, (z i - (∑ i, z i) / c) * (z i - (∑ i, z i) / c)) / c := by
  set μ : ℝ := (∑ i, z i) / c with hμ
  have hs : ∑ i, z i = c * μ := by rw [hμ]; field_simp
  have hdev : ∑ i, (z i - μ) * (z i - μ) = ∑ i, z i * z i - 2 * μ * ∑ i, z i + c * (μ * μ) := by
    have h : ∀ i, (z i - μ) * (z i - μ) = z i * z i - 2 * μ * z i + μ * μ := fun i => by ring
    simp only [h, Finset.sum_add_distrib, Finset.sum_sub_distrib, ← Finset.mul_sum, Finset.sum_const,
      Finset.card_univ, nsmul_eq_mul, hc]
    ring
  rw [hdev, hs]
  field_simp
  ring

/-- The mean of the squared deviations of real numbers is nonnegative (`c` positive). -/
theorem real_var_nonneg {ι : Type*} [Fintype ι] (z : ι → ℝ) (m c : ℝ) (hc : 0 < c) :
    0 ≤ (∑ i, (z i - m) * (z i - m)) / c :=
  div_nonneg (Finset.sum_nonneg (fun i _ => mul_self_nonneg (z i - m))) hc.le

/-- The variance law on the extended reals, for real entries: the mean of the squares minus the square of the
    mean, clamped at zero, is the mean of the squared deviations from the mean. `c` is the number of terms. -/
theorem var_law {ι : Type*} [Fintype ι] (z : ι → EReal) (hz : ∀ i, ∃ r : ℝ, z i = (r : EReal))
    (c : ℝ) (hc : (Fintype.card ι : ℝ) = c) (hpos : 0 < c) :
    max (Ideal.div (∑ i, z i * z i) (c : EReal)
          - Ideal.div (∑ i, z i) (c : EReal) * Ideal.div (∑ i, z i) (c : EReal)) 0
      = Ideal.div (∑ i, (z i - Ideal.div (∑ i, z i) (c : EReal)) * (z i - Ideal.div (∑ i, z i) (c : EReal)))
          (c : EReal) := by
  choose w hw using hz
  obtain rfl : z = fun i => (w i : EReal) := funext hw
  have hc0 : c ≠ 0 := hpos.ne'
  simp only [← EReal.coe_mul, coe_finset_sum, div_coe_coe _ hc0, ← EReal.coe_sub]
  rw [← EReal.coe_zero, coe_max, real_var_law w c hc hc0, max_eq_left (real_var_nonneg w _ c hpos)]

/-- The mean of the squared deviations of real entries is a nonnegative real. -/
theorem var_isReal_nonneg {ι : Type*} [Fintype ι] (z : ι → EReal) (hz : ∀ i, ∃ r : ℝ, z i = (r : EReal))
    (c : ℝ) (hpos : 0 < c) :
    ∃ v : ℝ, 0 ≤ v ∧
      Ideal.div (∑ i, (z i - Ideal.div (∑ i, z i) (c : EReal)) * (z i - Ideal.div (∑ i, z i) (c : EReal)))
          (c : EReal) = (v : EReal) := by
  choose w hw using hz
  obtain rfl : z = fun i => (w i : EReal) := funext hw
  have hc0 : c ≠ 0 := hpos.ne'
  simp only [← EReal.coe_mul, coe_finset_sum, div_coe_coe _ hc0, ← EReal.coe_sub]
  exact ⟨_, real_var_nonneg w _ c hpos, rfl⟩

/-- Regrouping a sum by tiles. The index range `T * B` is cut into `T` tiles of `B` consecutive terms; a second
    family `g` over `T * R` indices (`T` groups of `R`) carries, at the first index of group `t`, the sum of
    tile `t`, and zero elsewhere. Then `g` and `f` have the same total: addition on the extended reals is
    commutative and associative, so no finiteness is needed. -/
theorem sum_tilePartials_of (T B R : ℕ) (hR : 0 < R) (f : Fin (T * B) → EReal) (g : Fin (T * R) → EReal)
    (hb : ∀ (r : Fin (T * R)) (p : Fin B), B * (r.val / R) + p.val < T * B)
    (hg : ∀ r : Fin (T * R), g r
      = if r.val % R = 0 then ∑ p : Fin B, f ⟨B * (r.val / R) + p.val, hb r p⟩ else 0) :
    ∑ r, g r = ∑ i, f i := by
  classical
  rw [← (finProdFinEquiv : Fin T × Fin R ≃ Fin (T * R)).sum_comp g,
    ← (finProdFinEquiv : Fin T × Fin B ≃ Fin (T * B)).sum_comp f, Fintype.sum_prod_type, Fintype.sum_prod_type]
  refine Finset.sum_congr rfl (fun t _ => ?_)
  rw [Finset.sum_eq_single (⟨0, hR⟩ : Fin R)]
  · rw [hg]
    have h0 : (finProdFinEquiv (t, (⟨0, hR⟩ : Fin R))).val = R * t := by
      rw [finProdFinEquiv_apply_val]; simp
    rw [if_pos (by rw [h0]; exact Nat.mul_mod_right R t)]
    refine Finset.sum_congr rfl (fun p _ => ?_)
    congr 1
    apply Fin.ext
    simp only [finProdFinEquiv_apply_val]
    rw [Nat.zero_add, Nat.mul_div_cancel_left _ hR, Nat.add_comm]
  · intro k _ hk
    rw [hg, if_neg]
    simp only [finProdFinEquiv_apply_val]
    rw [Nat.add_mul_mod_self_left, Nat.mod_eq_of_lt k.isLt]
    intro h
    exact hk (Fin.ext h)
  · intro h
    exact absurd (Finset.mem_univ _) h

/-- The regrouping for 100000 terms in 20 tiles of 5000, the partial sums sitting at every eighth of 160 indices. -/
theorem sum_tilePartials (f : Fin 100000 → EReal) (g : Fin 160 → EReal)
    (hg : ∀ r : Fin 160, g r = if r.val % 8 = 0 then ∑ p : Fin 5000, f ⟨5000 * (r.val / 8) + p.val, by have := r.isLt; have := p.isLt; omega⟩ else 0) :
    ∑ r, g r = ∑ i, f i :=
  sum_tilePartials_of 20 5000 8 (by norm_num) f g (fun r p => by have := r.isLt; have := p.isLt; omega) hg

end Cert.RealSums

end
-- ==== Proof.LibMatProd.lean ====
/-
  Matrices over the extended reals: the product, relu, strips of rows, and associativity for real entries.

  A matrix is a function of a rank-2 index. For A (a×k) and B (k×b) the product `mm A B` has entry (i, j) equal to
  the sum over l of A (i, l) · B (l, j); `relu A` replaces every entry by its maximum with 0.

  STRIPS. Row p of a product A · B depends only on row p of A, and relu acts entry by entry. So if `a` is the strip
  of `A` that starts at row o (row p of `a` is row o + p of `A`), then `mm a B` is the strip of `mm A B` that starts
  at row o, and `relu a` the strip of `relu A`. This is what lets a computation carried out strip by strip be read
  as rows of one whole-array formula.

  ASSOCIATIVITY. (A · X) · W = A · (X · W) moves a factor across a sum and exchanges two sums. On the extended reals
  the first step fails at the infinities, so the law is stated for matrices all of whose entries are real numbers,
  and proved by carrying both sides to the reals (a finite sum of real coercions is the coercion of the real sum:
  LibRealSums.lean, which this file imports).
-/
import Idealize.ShloMosaic.Lib.ValueIdx
import Idealize.ShloMosaic.PureOps.Ideal
import proofs.«106063_g16123307229541_cont_7to1_487_14_alg».proof.Proof.LibRealSums

noncomputable section

open scoped BigOperators

namespace Cert.MatProd

open Idealize.ShloMosaic Idealize.ShloMosaic.ValueIdx

/-- An a×b matrix over the extended reals: a function of the rank-2 index. -/
abbrev Mat (a b : Nat) : Type := (⟨2, ![a, b]⟩ : Shape).Idx → EReal

/-- Every entry is a real number. -/
def IsReal {a b : Nat} (A : Mat a b) : Prop := ∀ i, ∃ r : ℝ, A i = (r : EReal)

/-- The matrix product: entry (i, j) is the sum over l of A (i, l) · B (l, j). -/
def mm {a k b : Nat} (A : Mat a k) (B : Mat k b) : Mat a b :=
  fun i => ∑ l : Fin k, A (ix2 (i 0) l) * B (ix2 l (i 1))

/-- Every entry replaced by its maximum with zero. -/
def relu {a b : Nat} (A : Mat a b) : Mat a b := fun i => max (A i) 0

/-- The product at the index built from coordinates p and q. -/
theorem mm_apply {a k b : Nat} (A : Mat a k) (B : Mat k b) (p : Fin a) (q : Fin b) :
    mm A B (ix2 p q) = ∑ l : Fin k, A (ix2 p l) * B (ix2 l q) := rfl

/-- `a` is the strip of `A` that starts at row `o`: row p of `a` is row o + p of `A`. -/
def StripOf {m n k : Nat} (a : Mat m k) (A : Mat n k) (o : Nat) (ho : ∀ p : Fin m, o + p.val < n) : Prop :=
  ∀ (p : Fin m) (l : Fin k), a (ix2 p l) = A (ix2 ⟨o + p.val, ho p⟩ l)

/-- The product of a strip with B is the same strip of the product. -/
theorem StripOf.mm {m n k b : Nat} {a : Mat m k} {A : Mat n k} {o : Nat} {ho : ∀ p : Fin m, o + p.val < n}
    (h : StripOf a A o ho) (B : Mat k b) : StripOf (MatProd.mm a B) (MatProd.mm A B) o ho := fun p q => by
  rw [mm_apply, mm_apply]
  exact Finset.sum_congr rfl fun l _ => by rw [h p l]

/-- The relu of a strip is the same strip of the relu. -/
theorem StripOf.relu {m n k : Nat} {a : Mat m k} {A : Mat n k} {o : Nat} {ho : ∀ p : Fin m, o + p.val < n}
    (h : StripOf a A o ho) : StripOf (MatProd.relu a) (MatProd.relu A) o ho := fun p l => by
  show max (a (ix2 p l)) 0 = max (A (ix2 ⟨o + p.val, ho p⟩ l)) 0
  rw [h p l]

/-- Associativity of the matrix product for matrices of real entries: both sides are, in the reals, the double
    sum over (p, j) of A (i, p) · X (p, j) · W (j, q). -/
theorem mm_assoc {a k l b : Nat} (A : Mat a k) (X : Mat k l) (W : Mat l b)
    (hA : IsReal A) (hX : IsReal X) (hW : IsReal W) : mm (mm A X) W = mm A (mm X W) := by
  choose fA hfA using hA
  choose fX hfX using hX
  choose fW hfW using hW
  obtain rfl : A = fun i => (fA i : EReal) := funext hfA
  obtain rfl : X = fun i => (fX i : EReal) := funext hfX
  obtain rfl : W = fun i => (fW i : EReal) := funext hfW
  funext i
  simp only [mm, ← EReal.coe_mul, Cert.RealSums.coe_finset_sum]
  refine congrArg _ ?_
  simp only [Finset.sum_mul, Finset.mul_sum]
  rw [Finset.sum_comm]
  exact Finset.sum_congr rfl fun p _ => Finset.sum_congr rfl fun j _ => mul_assoc _ _ _

end Cert.MatProd

end
-- ==== Proof.Spec.lean ====
/-
  The two formulas of the degree-3 Chebyshev graph filter, as whole-array functions over the extended reals.

  Notation: x is the N×F feature matrix, L the N×N graph operator, W1 (H×F), b1 (H), W2 (C×H), b2 (C) the two
  dense layers, th the four filter coefficients. A matrix is a function of its rank-2 index (LibMatProd.lean);
  `tr` transposes, `addRow` adds a row vector to every row, `relu` clamps at zero, `mm` is the matrix product.

  Both programs start from the hidden layer  h = relu (x · W1ᵀ + b1).

  The projected form applies the output projection first:  s0 = h · W2ᵀ,  s1 = L · s0,  u = L · s1,  and
      y = ((th0 − th3) · s0 + (th1 + th2) · s1) + (2 · th3) · u + b2.
  The recurrence form runs the three-term recurrence on h itself:  T1 = L · h,  T2 = 2 · (L · h) − T1,
  T3 = 2 · (L · T2) − h,  poly = ((th0 · h + th1 · T1) + th2 · T2) + th3 · T3,  and  y = poly · W2ᵀ + b2.
  Each then takes the row-wise log-softmax of y, in two arrangements of the same real expression:
      y − (log Σ exp (y − m) + m)     and     (y − m) − log Σ exp (y − m),       m the row's maximum.
-/
import Idealize.ShloMosaic.Lib.ValueIdx
import Idealize.ShloMosaic.PureOps.Ideal
import proofs.«106063_g16123307229541_cont_7to1_487_14_alg».proof.Proof.LibMatProd

noncomputable section

open scoped BigOperators

namespace Cert.Cheb

open Idealize.ShloMosaic Idealize.ShloMosaic.ValueIdx Cert.MatProd

/-- A vector of n extended reals: a function of the rank-1 index. -/
abbrev Vc (n : Nat) : Type := (⟨1, ![n]⟩ : Shape).Idx → EReal

/-- The transpose. -/
def tr {a b : Nat} (A : Mat a b) : Mat b a := fun i => A (ix2 (i 1) (i 0))

/-- A row vector added to every row. -/
def addRow {a b : Nat} (A : Mat a b) (v : Vc b) : Mat a b := fun i => A i + v (ix1 (i 1))

/-- The f32 literal 2.0. -/
def two : EReal := Ideal.ofBits .f32 0x40000000#32

/-- The maximum of row p: the fold of max from −∞ over the row's entries. -/
def rowMax {a b : Nat} (Y : Mat a b) (p : Fin a) : EReal :=
  (Finset.univ : Finset (Fin b)).fold max ⊥ (fun j => Y (ix2 p j))

/-- log Σ_j exp (Y (p, j) − m_p), m_p the row's maximum. -/
def rowLse {a b : Nat} (Y : Mat a b) (p : Fin a) : EReal :=
  Ideal.log (∑ j : Fin b, Ideal.exp (Y (ix2 p j) - rowMax Y p))

/-- The log-softmax of every row, with the maximum added back to the logarithm before subtracting. -/
def lsmK {a b : Nat} (Y : Mat a b) : Mat a b := fun i => Y i - (rowLse Y (i 0) + rowMax Y (i 0))

/-- The log-softmax of every row, with the maximum subtracted first. -/
def lsmR {a b : Nat} (Y : Mat a b) : Mat a b := fun i => (Y i - rowMax Y (i 0)) - rowLse Y (i 0)

section
variable (x : Mat 10000 128) (L : Mat 10000 10000) (W1 : Mat 128 128) (b1 : Vc 128) (W2 : Mat 64 128) (b2 : Vc 64) (th : Vc 4)

/-- The hidden layer relu (x · W1ᵀ + b1). -/
def hid : Mat 10000 128 := relu (addRow (mm x (tr W1)) b1)

/-- The projected hidden layer h · W2ᵀ. -/
def s0 : Mat 10000 64 := mm (hid x W1 b1) (tr W2)

/-- One application of L to the projected hidden layer. -/
def s1 : Mat 10000 64 := mm L (s0 x W1 b1 W2)

/-- Two applications of L to the projected hidden layer. -/
def s2 : Mat 10000 64 := mm L (s1 x L W1 b1 W2)

/-- The logits in the projected form. -/
def yK : Mat 10000 64 := fun i =>
  (((th (ix1 0) - th (ix1 3)) * s0 x W1 b1 W2 i + (th (ix1 1) + th (ix1 2)) * s1 x L W1 b1 W2 i)
      + (two * th (ix1 3)) * s2 x L W1 b1 W2 i) + b2 (ix1 (i 1))

/-- The result in the projected form. -/
def outK : Mat 10000 64 := lsmK (yK x L W1 b1 W2 b2 th)

/-- T1 = L · h. -/
def t1 : Mat 10000 128 := mm L (hid x W1 b1)

/-- T2 = 2 · (L · h) − T1. -/
def t2 : Mat 10000 128 := fun i => two * t1 x L W1 b1 i - t1 x L W1 b1 i

/-- T3 = 2 · (L · T2) − h. -/
def t3 : Mat 10000 128 := fun i => two * mm L (t2 x L W1 b1) i - hid x W1 b1 i

/-- The filtered features ((th0 · h + th1 · T1) + th2 · T2) + th3 · T3. -/
def poly : Mat 10000 128 := fun i =>
  ((th (ix1 0) * hid x W1 b1 i + th (ix1 1) * t1 x L W1 b1 i) + th (ix1 2) * t2 x L W1 b1 i)
    + th (ix1 3) * t3 x L W1 b1 i

/-- The logits in the recurrence form. -/
def yR : Mat 10000 64 := addRow (mm (poly x L W1 b1 th) (tr W2)) b2

/-- The result in the recurrence form. -/
def outR : Mat 10000 64 := lsmR (yR x L W1 b1 W2 b2 th)

end

end Cert.Cheb

end
-- ==== Proof.LibTransDot.lean ====
/-
  A matrix product with the right operand transposed, read at an index, over the extended reals.

  For the dimension numbers of an M×K by N×K product (contract the left operand's second axis with the
  right operand's second axis; no batch axes: lhs · rhsᵀ) the entry (i, j) of the product is the sum over k of
  lhs (i, k) · rhs (j, k): stated once for a `tpu.matmul` accumulating into the zero splat and once for the
  host's `dot_general`, for any extents M, K, N. The contraction index of such a product has one axis of
  extent K, and the sum over it is re-indexed by that coordinate.
-/
import Idealize.ShloMosaic.Lib.ValueIdx
import Idealize.ShloMosaic.PureOps.Ideal.Laws

noncomputable section

open scoped BigOperators

namespace Idealize.ShloMosaic.TransDot

open Idealize.ShloMosaic Idealize.ShloMosaic.ValueIdx

variable {M K N : Nat}

/-- The left operand's row coordinate is the result's row coordinate. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_col (j : (⟨2, ![M, N]⟩ : Shape).Idx) (q : (DotDims.transposedRhs M K N).contr.Idx) :
    ((DotDims.transposedRhs M K N).lhsIdx j q 1).val = (q ⟨0, show 0 < (DotDims.transposedRhs M K N).contr.rank from Nat.one_pos⟩).val :=
  (DotDims.transposedRhs M K N).lhsIdx_val_of_single rfl j q

/-- The right operand's row coordinate is the result's column coordinate. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_col (j : (⟨2, ![M, N]⟩ : Shape).Idx) (q : (DotDims.transposedRhs M K N).contr.Idx) :
    ((DotDims.transposedRhs M K N).rhsIdx j q 1).val = (q ⟨0, show 0 < (DotDims.transposedRhs M K N).contr.rank from Nat.one_pos⟩).val :=
  (DotDims.transposedRhs M K N).rhsIdx_val_of_single rfl j q

/-- The sum over the contraction index is the sum over k of lhs (i, k) · rhs (j, k). -/
theorem sum_contr (lhs : (⟨2, ![M, K]⟩ : Shape).Idx → EReal) (rhs : (⟨2, ![N, K]⟩ : Shape).Idx → EReal)
    (i : Fin M) (j : Fin N) :
    (∑ q : (DotDims.transposedRhs M K N).contr.Idx,
        lhs ((DotDims.transposedRhs M K N).lhsIdx (ix2 i j) q) * rhs ((DotDims.transposedRhs M K N).rhsIdx (ix2 i j) q))
      = ∑ k : Fin K, lhs (ix2 i k) * rhs (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhs_row _ _
      | ⟨1, _⟩ => exact (lhs_col _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhs_row _ _
      | ⟨1, _⟩ => exact (rhs_col _ _).trans hk)
  rw [el, er]

/-- A `tpu.matmul` of these dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) :=
  (Ideal.matmul_constant_zero_apply (DotDims.transposedRhs M K N) prec lhs rhs (ix2 i j)).trans (sum_contr lhs rhs i j)

/-- The host's `dot_general` of these dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (i : Fin M) (j : Fin N) :
    FloatOps.dotGeneral (DotDims.transposedRhs M K N) prec sched lhs rhs (ix2 i j)
      = ∑ k : Fin K, lhs (ix2 i k) * rhs (ix2 j k) :=
  (Ideal.dotGeneral_apply (DotDims.transposedRhs M K N) prec sched lhs rhs (ix2 i j)).trans (sum_contr lhs rhs i j)

end Idealize.ShloMosaic.TransDot

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.Payloads.lean ====
/-
  The three kernel bodies' stored values, read at an index, over the extended reals.

  Body 0 maps a block x of 1000 rows to relu (x · W1ᵀ + b1) · W2ᵀ: both products contract the second axis of both
  operands, the bias is one row added to every row, and relu is the maximum with zero. Body 1 maps a block of 400 rows
  of L and the whole of s to their plain product. Body 2 forms the same product u, the logits
      y = (c0 · s0 + c1 · s1) + (2 · c2) · u + b2
  with c0, c1, c2, b2 rows spread over the 400 rows, and then the row-wise log-softmax y − (log Σ exp (y − m) + m),
  m the row's maximum.
-/
import proofs.«106063_g16123307229541_cont_7to1_487_14_alg».proof.Proof.Gen.KernelIdeal.Skeleton
import proofs.«106063_g16123307229541_cont_7to1_487_14_alg».proof.Proof.Spec
import proofs.«106063_g16123307229541_cont_7to1_487_14_alg».proof.Proof.LibTransDot
import proofs.«106063_g16123307229541_cont_7to1_487_14_alg».proof.Proof.LibPlainDot
import proofs.«106063_g16123307229541_cont_7to1_487_14_alg».proof.Proof.LibRowOps
import proofs.«106063_g16123307229541_cont_7to1_487_14_alg».proof.Proof.LibRowSpread
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Cheb

open Idealize.ShloMosaic Idealize.ShloMosaic.ValueIdx Cert.MatProd

/-- The log-softmax of a row depends on that row only. -/
theorem lsmK_row_congr {a a' b : Nat} (Y : Cert.MatProd.Mat a b) (Y' : Cert.MatProd.Mat a' b) (p : Fin a) (p' : Fin a')
    (h : ∀ j : Fin b, Y (ix2 p j) = Y' (ix2 p' j)) (q : Fin b) :
    Cert.Cheb.lsmK Y (ix2 p q) = Cert.Cheb.lsmK Y' (ix2 p' q) := by
  have hm : rowMax Y p = rowMax Y' p' := by
    unfold rowMax
    exact congrArg (fun f => (Finset.univ : Finset (Fin b)).fold max ⊥ f) (funext h)
  have hl : rowLse Y p = rowLse Y' p' := by
    unfold rowLse
    rw [hm]
    exact congrArg Ideal.log (Finset.sum_congr rfl fun j _ => by rw [h j])
  show Y (ix2 p q) - (rowLse Y p + rowMax Y p) = Y' (ix2 p' q) - (rowLse Y' p' + rowMax Y' p')
  rw [h q, hm, hl]

end Cert.Cheb

namespace Cert.KernelIdeal.Pay

open Cert.KernelIdeal Cert.KernelIdeal.Gen Idealize.ShloMosaic Idealize.ShloMosaic.ValueIdx

/-! ## Body 1: the plain product of a 400-row block of L with s -/

/-- The dimension numbers of the 400×10000 by 10000×64 product are the plain ones: the left operand's second axis
    against the right operand's first. -/
theorem dot1_eq : dot_S400x10000_S10000x64_S400x64_1_0_0_1_n_n = DotDims.plain 400 10000 64 := rfl

/-- Body 1's stored value at (p, q): the sum over r of L (p, r) · s (r, q). -/
theorem pay1_apply (v0 : Vec Ideal S400x10000 .f32) (v1 : Vec Ideal S10000x64 .f32) (p : Fin 400) (q : Fin 64) :
    k1_pay1 (F := Ideal) v0 v1 (ix2 p q) = ∑ r : Fin 10000, v0 (ix2 p r) * v1 (ix2 r q) := by
  unfold k1_pay1
  rw [shapeCast_self, dot1_eq]
  exact PlainDot.matmul_zero_apply none v0 v1 p q

/-! ## Body 0: relu (x · W1ᵀ + b1) · W2ᵀ on a 1000-row block -/

/-- The dimension numbers of the 1000×128 by 128×128 product are those of lhs · rhsᵀ: both second axes contracted. -/
theorem dot0a_eq : dot_S1000x128_S128x128_S1000x128_1_1_0_0_n_n = DotDims.transposedRhs 1000 128 128 := rfl

/-- The dimension numbers of the 1000×128 by 64×128 product are those of lhs · rhsᵀ: both second axes contracted. -/
theorem dot0b_eq : dot_S1000x128_S64x128_S1000x64_1_1_0_0_n_n = DotDims.transposedRhs 1000 128 64 := rfl

/-- Body 0's hidden layer at (p, k): relu of the row-by-row product plus the bias. -/
theorem hid0_apply (v0 : Vec Ideal S1000x128 .f32) (v1 : Vec Ideal S128x128 .f32) (v3 : Vec Ideal S1x128 .f32)
    (p : Fin 1000) (k : Fin 128) :
    maximumf (addf (matmul (φ₁ := .f32) (φ₂ := .f32) dot_S1000x128_S128x128_S1000x128_1_1_0_0_n_n none v0 v1 (constant (F := Ideal) S1000x128 .f32 0x00000000#32))
        (broadcastTo S1000x128 (shapeCast S1x128 v3 shapeCasts_S1x128_S1x128) broadcasts_S1x128_S1000x128))
      (broadcast S1000x128 (Scalar.ofBits (F := Ideal) .f32 0x00000000#32)) (ix2 p k)
      = max ((∑ j : Fin 128, v0 (ix2 p j) * v1 (ix2 k j)) + v3 (ix2 (0 : Fin 1) k)) 0 := by
  rw [maximumf_apply, addf_apply, broadcast_apply, shapeCast_self, dot0a_eq]
  rw [RowSpread.rowBcast_apply v3 broadcasts_S1x128_S1000x128 p k]
  rw [show matmul (φ₁ := .f32) (φ₂ := .f32) (DotDims.transposedRhs 1000 128 128) none v0 v1 (constant (F := Ideal) S1000x128 .f32 0x00000000#32) (ix2 p k)
      = ∑ j : Fin 128, v0 (ix2 p j) * v1 (ix2 k j) from TransDot.matmul_zero_apply none v0 v1 p k]
  rw [show (Scalar.ofBits (F := Ideal) .f32 0x00000000#32 : Ideal .f32) = 0 from Ideal.ofBits_zero_f32]

/-- Body 0's stored value at (p, q): the sum over k of relu (x · W1ᵀ + b1) (p, k) · W2 (q, k). -/
theorem pay0_apply (v0 : Vec Ideal S1000x128 .f32) (v1 : Vec Ideal S128x128 .f32) (v3 : Vec Ideal S1x128 .f32)
    (v9 : Vec Ideal S64x128 .f32) (p : Fin 1000) (q : Fin 64) :
    k0_pay1 (F := Ideal) v0 v1 v3 v9 (ix2 p q)
      = ∑ k : Fin 128, max ((∑ j : Fin 128, v0 (ix2 p j) * v1 (ix2 k j)) + v3 (ix2 (0 : Fin 1) k)) 0 * v9 (ix2 q k) := by
  unfold k0_pay1
  rw [dot0b_eq]
  refine (TransDot.matmul_zero_apply none _ v9 p q).trans ?_
  exact Finset.sum_congr rfl fun k _ => by rw [hid0_apply]

/-! ## Body 2: the logits of a 400-row block and their row-wise log-softmax -/

/-- The logits of one 400-row block, from the block's loads. -/
def logits2 (v0 : Vec Ideal S400x10000 .f32) (v1 : Vec Ideal S10000x64 .f32) (v4 : Vec Ideal S1x64 .f32) (v6 : Vec Ideal S400x64 .f32) (v10 : Vec Ideal S1x64 .f32) (v12 : Vec Ideal S400x64 .f32) (v17 : Vec Ideal S1x64 .f32) (v24 : Vec Ideal S1x64 .f32) : Cert.MatProd.Mat 400 64 :=
  fun i => ((v4 (ix2 (0 : Fin 1) (i 1)) * v6 i + v10 (ix2 (0 : Fin 1) (i 1)) * v12 i)
      + (Cert.Cheb.two * v17 (ix2 (0 : Fin 1) (i 1))) * (∑ r : Fin 10000, v0 (ix2 (i 0) r) * v1 (ix2 r (i 1)))) + v24 (ix2 (0 : Fin 1) (i 1))

/-- Body 2's logits as the body spells them: every coefficient row spread over the 400 rows, the product into the zero splat. -/
def yvec (v0 : Vec Ideal S400x10000 .f32) (v1 : Vec Ideal S10000x64 .f32) (v4 : Vec Ideal S1x64 .f32) (v6 : Vec Ideal S400x64 .f32) (v10 : Vec Ideal S1x64 .f32) (v12 : Vec Ideal S400x64 .f32) (v17 : Vec Ideal S1x64 .f32) (v24 : Vec Ideal S1x64 .f32) : FVec Ideal S400x64 .f32 :=
  addf (addf (addf (mulf (broadcastTo S400x64 (shapeCast S1x64 v4 shapeCasts_S1x64_S1x64) broadcasts_S1x64_S400x64) (shapeCast S400x64 v6 shapeCasts_S400x64_S400x64))
        (mulf (broadcastTo S400x64 (shapeCast S1x64 v10 shapeCasts_S1x64_S1x64) broadcasts_S1x64_S400x64) (shapeCast S400x64 v12 shapeCasts_S400x64_S400x64)))
      (mulf (broadcastTo S400x64 (mulf (broadcast S1x64 (Scalar.ofBits (F := Ideal) .f32 0x40000000#32)) (shapeCast S1x64 v17 shapeCasts_S1x64_S1x64)) broadcasts_S1x64_S400x64)
        (matmul (φ₁ := .f32) (φ₂ := .f32) dot_S400x10000_S10000x64_S400x64_1_0_0_1_n_n none v0 (shapeCast S10000x64 v1 shapeCasts_S10000x64_S10000x64) (constant (F := Ideal) S400x64 .f32 0x00000000#32))))
    (broadcastTo S400x64 (shapeCast S1x64 v24 shapeCasts_S1x64_S1x64) broadcasts_S1x64_S400x64)

/-- The row maxima of Y, taken from −∞, stood up as a column. -/
def colMax (Y : FVec Ideal S400x64 .f32) : FVec Ideal S400x1 .f32 :=
  shapeCast S400x1 (multiReduction (F := Ideal) (φ := .f32) .maximumf [1] S400 Y 0xFF800000#32 reduces_S400x64_S400 (.inl rfl) rfl) shapeCasts_S400_S400x1

/-- The sums over j of exp (Y (p, j) − m_p), taken from zero, stood up as a column. -/
def colSumExp (Y : FVec Ideal S400x64 .f32) : FVec Ideal S400x1 .f32 :=
  shapeCast S400x1 (multiReduction (F := Ideal) (φ := .f32) .add [1] S400 (exp (subf Y (broadcastTo S400x64 (colMax Y) broadcasts_S400x1_S400x64))) 0x00000000#32 reduces_S400x64_S400 (.inl rfl) rfl) shapeCasts_S400_S400x1

/-- The row-wise log-softmax as the body spells it: Y minus the column log Σ exp (Y − m) + m spread over the columns. -/
def lsmvec (Y : FVec Ideal S400x64 .f32) : FVec Ideal S400x64 .f32 :=
  subf Y (broadcastTo S400x64 (addf (log (colSumExp Y)) (colMax Y)) broadcasts_S400x1_S400x64)

/-- Body 2's stored value is the log-softmax of its logits, both as the body spells them. -/
theorem pay2_eq (v0 : Vec Ideal S400x10000 .f32) (v1 : Vec Ideal S10000x64 .f32) (v4 : Vec Ideal S1x64 .f32) (v6 : Vec Ideal S400x64 .f32) (v10 : Vec Ideal S1x64 .f32) (v12 : Vec Ideal S400x64 .f32) (v17 : Vec Ideal S1x64 .f32) (v24 : Vec Ideal S1x64 .f32) : k2_pay1 (F := Ideal) v0 v1 v4 v6 v10 v12 v17 v24 = lsmvec (yvec v0 v1 v4 v6 v10 v12 v17 v24) := rfl

/-- The −∞ word is the bottom of the extended reals. -/
theorem ofBits_neg_inf : Ideal.ofBits .f32 0xFF800000#32 = (⊥ : EReal) := by simp [Ideal.ofBits, Ideal.ieee]

/-- The column of row maxima reads the row's maximum at (p, 0). -/
theorem colMax_apply (Y : FVec Ideal S400x64 .f32) (p : Fin 400) : colMax Y (ix2 p (0 : Fin 1)) = Cert.Cheb.rowMax Y p := by
  unfold colMax
  refine (RowOps.colCast_apply _ shapeCasts_S400_S400x1 p).trans ?_
  refine (RowOps.rowMax_vector Y 0xFF800000#32 reduces_S400x64_S400 (.inl rfl) rfl p).trans ?_
  unfold Cert.Cheb.rowMax
  rw [ofBits_neg_inf]

/-- The column of exp-sums reads Σ_j exp (Y (p, j) − m_p) at (p, 0). -/
theorem colSumExp_apply (Y : FVec Ideal S400x64 .f32) (p : Fin 400) :
    colSumExp Y (ix2 p (0 : Fin 1)) = ∑ j : Fin 64, Ideal.exp (Y (ix2 p j) - Cert.Cheb.rowMax Y p) := by
  unfold colSumExp
  refine (RowOps.colCast_apply _ shapeCasts_S400_S400x1 p).trans ?_
  refine (RowOps.rowSum_vector _ 0x00000000#32 reduces_S400x64_S400 (.inl rfl) rfl p).trans ?_
  refine Finset.sum_congr rfl fun j _ => ?_
  show Ideal.exp (Y (ix2 p j) - broadcastTo S400x64 (colMax Y) broadcasts_S400x1_S400x64 (ix2 p j)) = _
  rw [RowOps.colBcast_apply (colMax Y) broadcasts_S400x1_S400x64 p j, colMax_apply]

/-- The body's log-softmax at (p, q) is the projected form's. -/
theorem lsmvec_apply (Y : FVec Ideal S400x64 .f32) (p : Fin 400) (q : Fin 64) :
    lsmvec Y (ix2 p q) = Cert.Cheb.lsmK Y (ix2 p q) := by
  unfold lsmvec
  rw [subf_apply, RowOps.colBcast_apply _ broadcasts_S400x1_S400x64 p q, addf_apply, colMax_apply]
  show Y (ix2 p q) - (Ideal.log (colSumExp Y (ix2 p (0 : Fin 1))) + Cert.Cheb.rowMax Y p) = _
  rw [colSumExp_apply]
  rfl

/-- The body's logits at (p, q). -/
theorem yvec_apply (v0 : Vec Ideal S400x10000 .f32) (v1 : Vec Ideal S10000x64 .f32) (v4 : Vec Ideal S1x64 .f32) (v6 : Vec Ideal S400x64 .f32) (v10 : Vec Ideal S1x64 .f32) (v12 : Vec Ideal S400x64 .f32) (v17 : Vec Ideal S1x64 .f32) (v24 : Vec Ideal S1x64 .f32) (p : Fin 400) (q : Fin 64) :
    yvec v0 v1 v4 v6 v10 v12 v17 v24 (ix2 p q) = logits2 v0 v1 v4 v6 v10 v12 v17 v24 (ix2 p q) := by
  unfold yvec
  simp only [addf_apply, mulf_apply, shapeCast_self, broadcast_apply, dot1_eq]
  rw [RowSpread.rowBcast_apply v4 broadcasts_S1x64_S400x64 p q, RowSpread.rowBcast_apply v10 broadcasts_S1x64_S400x64 p q,
    RowSpread.rowBcast_apply v24 broadcasts_S1x64_S400x64 p q, RowSpread.rowBcast_apply _ broadcasts_S1x64_S400x64 p q]
  rw [mulf_apply, broadcast_apply]
  rw [show matmul (φ₁ := .f32) (φ₂ := .f32) (DotDims.plain 400 10000 64) none v0 v1 (constant (F := Ideal) S400x64 .f32 0x00000000#32) (ix2 p q)
      = ∑ r : Fin 10000, v0 (ix2 p r) * v1 (ix2 r q) from PlainDot.matmul_zero_apply none v0 v1 p q]
  rfl

/-- Body 2's stored value at (p, q): the log-softmax of the block's logits. -/
theorem pay2_apply (v0 : Vec Ideal S400x10000 .f32) (v1 : Vec Ideal S10000x64 .f32) (v4 : Vec Ideal S1x64 .f32) (v6 : Vec Ideal S400x64 .f32) (v10 : Vec Ideal S1x64 .f32) (v12 : Vec Ideal S400x64 .f32) (v17 : Vec Ideal S1x64 .f32) (v24 : Vec Ideal S1x64 .f32) (p : Fin 400) (q : Fin 64) :
    k2_pay1 (F := Ideal) v0 v1 v4 v6 v10 v12 v17 v24 (ix2 p q) = Cert.Cheb.lsmK (logits2 v0 v1 v4 v6 v10 v12 v17 v24) (ix2 p q) := by
  rw [pay2_eq]
  refine (lsmvec_apply _ p q).trans ?_
  exact Cert.Cheb.lsmK_row_congr _ _ p p (fun j => yvec_apply v0 v1 v4 v6 v10 v12 v17 v24 p j) q

end Cert.KernelIdeal.Pay

end
-- ==== Proof.Final0.lean ====
/-
  The array the first kernel's output window ends holding, as one function of the four arrays the kernel reads.

  The grid has ten points. Point t reads rows 1000·t … 1000·t + 999 of x and the whole of W1, of the bias row and of W2,
  and writes rows 1000·t … 1000·t + 999 of the output: entry (p, q) of its block is
      Σ_k max (Σ_j x (1000·t + p, j) · W1 (k, j) + b (0, k)) 0 · W2 (q, k).
  An element of a block sits in its array, on each axis, at block index × block size + its coordinate inside the block;
  the block index of the x window and of the output window at point t is (t, 0), that of the three whole-array windows
  is (0, 0). So what point t writes back is block t of the one function G0 below of the four arrays, and since row r of
  the output lies in the block of point r / 1000, the blocks cover the array: the output array ends holding G0.
-/
import proofs.«106063_g16123307229541_cont_7to1_487_14_alg».proof.Proof.Body0
import proofs.«106063_g16123307229541_cont_7to1_487_14_alg».proof.Proof.Payloads
import proofs.«106063_g16123307229541_cont_7to1_487_14_alg».proof.Proof.Spec
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.ValueIdx Idealize.ShloMosaic.TcCoe
open Idealize.ShloMosaic.Pipeline (Dat)

/-- The projected hidden layer, from the four arrays the first kernel reads. -/
def G0 (x : Cert.MatProd.Mat 10000 128) (W1 : Cert.MatProd.Mat 128 128) (brow : Cert.MatProd.Mat 1 128)
    (W2 : Cert.MatProd.Mat 64 128) : Cert.MatProd.Mat 10000 64 :=
  fun i => ∑ k : Fin 128, max ((∑ j : Fin 128, x (ix2 (i 0) j) * W1 (ix2 k j)) + brow (ix2 (0 : Fin 1) k)) 0 * W2 (ix2 (i 1) k)

/-- G0 at the index built from coordinates r and q. -/
theorem G0_apply (x : Cert.MatProd.Mat 10000 128) (W1 : Cert.MatProd.Mat 128 128) (brow : Cert.MatProd.Mat 1 128)
    (W2 : Cert.MatProd.Mat 64 128) (r : Fin 10000) (q : Fin 64) :
    G0 x W1 brow W2 (ix2 r q)
      = ∑ k : Fin 128, max ((∑ j : Fin 128, x (ix2 r j) * W1 (ix2 k j)) + brow (ix2 (0 : Fin 1) k)) 0 * W2 (ix2 q k) := rfl

variable (V : (c : Dev nD) → (b : Ref sig .tc) → Buf (Elt Ideal) ((c : Thread nD τ).loc b))

/-- The zero offsets of a rectangle that is the whole of its buffer. -/
theorem zero_offsets0 : (![0, 0] : Fin 2 → Nat) = fun _ => 0 := funext fun a => by fin_cases a <;> rfl

/-- The block indices over the grid: the x window and the output window are at block (t, 0) at point t, the three
    whole-array windows at block (0, 0). -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A point of the grid is below ten. -/
theorem point_lt0 (t : Fin cfg0.N) : t.val < 10 := t.isLt.trans_eq N_0

/-- Row p of the x block at point t is row 1000·t + p of x. -/
theorem iblk0_x (c : Dev nD) (t : Fin cfg0.N) (p : Fin 1000) (j : Fin 128) (h : 1000 * t.val + p.val < 10000) :
    iblk0 V c 0 t (ix2 p j) = V c main_arg0 (ix2 ⟨1000 * t.val + p.val, h⟩ j) := by
  obtain ⟨e0, e1, -⟩ := block_index0 t
  have he : ((cfg0.win 0).blk t).view.emb (ix2 p j) = ix2 ⟨1000 * t.val + p.val, h⟩ j := by
    funext a; apply Fin.ext
    match a with
    | ⟨0, _⟩ => show win0_0.index t (0 : Fin 2) * 1000 + 1 * p.val = 1000 * t.val + p.val; rw [e0]; omega
    | ⟨1, _⟩ => show win0_0.index t (1 : Fin 2) * 128 + 1 * j.val = j.val; rw [e1]; omega
  show V c main_arg0 (((cfg0.win 0).blk t).view.emb (ix2 p j)) = _
  rw [he]

/-- The W1 block at every point is W1. -/
theorem iblk0_w1 (c : Dev nD) (t : Fin cfg0.N) (k : Fin 128) (j : Fin 128) :
    iblk0 V c 1 t (ix2 k j) = V c main_arg2 (ix2 k j) := by
  obtain ⟨-, -, e0, e1, -⟩ := block_index0 t
  have he : ((cfg0.win 1).blk t).view.emb (ix2 k j) = ix2 k j := by
    funext a; apply Fin.ext
    match a with
    | ⟨0, _⟩ => show win0_1.index t (0 : Fin 2) * 128 + 1 * k.val = k.val; rw [e0]; omega
    | ⟨1, _⟩ => show win0_1.index t (1 : Fin 2) * 128 + 1 * j.val = j.val; rw [e1]; omega
  show V c main_arg2 (((cfg0.win 1).blk t).view.emb (ix2 k j)) = _
  rw [he]

/-- The bias block at every point is the bias row. -/
theorem iblk0_b (c : Dev nD) (t : Fin cfg0.N) (k : Fin 128) :
    iblk0 V c 2 t (ix2 (0 : Fin 1) k) = V c main_v0 (ix2 (0 : Fin 1) k) := by
  obtain ⟨-, -, -, -, e0, e1, -⟩ := block_index0 t
  have he : ((cfg0.win 2).blk t).view.emb (ix2 (0 : Fin 1) k) = ix2 (0 : Fin 1) k := by
    funext a; apply Fin.ext
    match a with
    | ⟨0, _⟩ => show win0_2.index t (0 : Fin 2) * 1 + 1 * (0 : Fin 1).val = (0 : Fin 1).val; rw [e0]; omega
    | ⟨1, _⟩ => show win0_2.index t (1 : Fin 2) * 128 + 1 * k.val = k.val; rw [e1]; omega
  show V c main_v0 (((cfg0.win 2).blk t).view.emb (ix2 (0 : Fin 1) k)) = _
  rw [he]

/-- The W2 block at every point is W2. -/
theorem iblk0_w2 (c : Dev nD) (t : Fin cfg0.N) (q : Fin 64) (k : Fin 128) :
    iblk0 V c 3 t (ix2 q k) = V c main_arg4 (ix2 q k) := by
  obtain ⟨-, -, -, -, -, -, e0, e1, -⟩ := block_index0 t
  have he : ((cfg0.win 3).blk t).view.emb (ix2 q k) = ix2 q k := by
    funext a; apply Fin.ext
    match a with
    | ⟨0, _⟩ => show win0_3.index t (0 : Fin 2) * 64 + 1 * q.val = q.val; rw [e0]; omega
    | ⟨1, _⟩ => show win0_3.index t (1 : Fin 2) * 128 + 1 * k.val = k.val; rw [e1]; omega
  show V c main_arg4 (((cfg0.win 3).blk t).view.emb (ix2 q k)) = _
  rw [he]

/-- Entry (p, q) of the output block at point t sits at (1000·t + p, q) of the output array. -/
theorem emb0_out (t : Fin cfg0.N) (p : Fin 1000) (q : Fin 64) (h : 1000 * t.val + p.val < 10000) :
    ((cfg0.win 4).blk t).view.emb (ix2 p q) = ix2 ⟨1000 * t.val + p.val, h⟩ q := by
  obtain ⟨-, -, -, -, -, -, -, -, e0, e1⟩ := block_index0 t
  funext a; apply Fin.ext
  match a with
  | ⟨0, _⟩ => show win0_4.index t (0 : Fin 2) * 1000 + 1 * p.val = 1000 * t.val + p.val; rw [e0]; omega
  | ⟨1, _⟩ => show win0_4.index t (1 : Fin 2) * 64 + 1 * q.val = q.val; rw [e1]; omega

/-- What point t writes back is block t of G0 of the four arrays as the kernel finds them. -/
theorem flushed0_eq (c : Dev nD) (t : Fin cfg0.N) :
    (dat0 (F := Ideal) V c).flushed 4 t
      = ((cfg0.win 4).blk t).view.read (Elt Ideal) (G0 (V c main_arg0) (V c main_arg2) (V c main_v0) (V c main_arg4)) := by
  show (cfg0.win 4).cut (grid0.coords t) ((dat0 (F := Ideal) V c).after 4 t) = _
  rw [after0_4]
  unfold out0_4
  rw [View.canon_unit_zero zero_offsets0]
  simp only [View.ld_unit_zero (S := S1000x128) zero_offsets0, View.ld_unit_zero (S := S128x128) zero_offsets0,
    View.ld_unit_zero (S := S1x128) zero_offsets0, View.ld_unit_zero (S := S64x128) zero_offsets0]
  funext y
  obtain ⟨p, q, rfl⟩ : ∃ (p : Fin 1000) (q : Fin 64), y = ix2 p q := ⟨y 0, y 1, eq_ix2 y⟩
  have hp : 1000 * t.val + p.val < 10000 := by have := point_lt0 t; have := p.isLt; omega
  refine (Cert.KernelIdeal.Pay.pay0_apply (iblk0 V c 0 t) (iblk0 V c 1 t) (iblk0 V c 2 t) (iblk0 V c 3 t) p q).trans ?_
  show _ = G0 (V c main_arg0) (V c main_arg2) (V c main_v0) (V c main_arg4) (((cfg0.win 4).blk t).view.emb (ix2 p q))
  rw [emb0_out t p q hp]
  rw [G0_apply]
  refine Finset.sum_congr rfl fun k _ => ?_
  rw [iblk0_b V c t k, iblk0_w2 V c t q k]
  refine congrArg (fun s => max (s + _) 0 * _) ?_
  refine Finset.sum_congr rfl fun j _ => ?_
  rw [iblk0_x V c t p j hp, iblk0_w1 V c t k j]

/-- An index of the output array is in point t's block iff each coordinate is in the block's range on its axis. -/
theorem mem_blk0 (t : Fin cfg0.N) (i : S10000x64.Idx) :
    i ∈ ((cfg0.win 4).blk t).view.set
      ↔ ∀ a : Fin 2, win0_4.index t a * S1000x64.size a ≤ (i a).val
          ∧ (i a).val < win0_4.index t a * S1000x64.size a + S1000x64.size a := by
  show i ∈ ((View.whole main_v1).slice (win0_4.rect t)).set ↔ _
  rw [View.set_slice_whole, Rect.mem_set_unit]
  exact Iff.rfl

/-- Every index of the output array is in some flushing point's block: row r is in the block of point r / 1000. -/
theorem cover0 (i : S10000x64.Idx) :
    ∃ t : Fin cfg0.N, (cfg0.win 4).flush t = true ∧ i ∈ ((cfg0.win 4).blk t).view.set := by
  have hi0 : (i 0).val < 10000 := (i 0).isLt
  have hi1 : (i 1).val < 64 := (i 1).isLt
  obtain ⟨t, ht⟩ : ∃ t : Fin cfg0.N, t.val = (i 0).val / 1000 :=
    ⟨⟨(i 0).val / 1000, by rw [show cfg0.N = 10 from N_0]; omega⟩, rfl⟩
  obtain ⟨-, -, -, -, -, -, -, -, e0, e1⟩ := block_index0 t
  refine ⟨t, flush0_4 t, ?_⟩
  rw [mem_blk0]
  intro a
  match a with
  | ⟨0, _⟩ =>
    show win0_4.index t (0 : Fin 2) * 1000 ≤ (i 0).val ∧ (i 0).val < win0_4.index t (0 : Fin 2) * 1000 + 1000
    rw [e0, ht]; omega
  | ⟨1, _⟩ =>
    show win0_4.index t (1 : Fin 2) * 64 ≤ (i 1).val ∧ (i 1).val < win0_4.index t (1 : Fin 2) * 64 + 64
    rw [e1]; omega

/-- The output array of the first kernel ends holding G0 of the four arrays the kernel reads. -/
theorem final0 (c : Dev nD) :
    (dat0 (F := Ideal) V c).arrAt 4 cfg0.N = G0 (V c main_arg0) (V c main_arg2) (V c main_v0) (V c main_arg4) :=
  (dat0 (F := Ideal) V c).arrAt_eq_of_cover 4 (G0 (V c main_arg0) (V c main_arg2) (V c main_v0) (V c main_arg4))
    (fun t _ => flushed0_eq V c t) cover0

end Cert.KernelIdeal.Hand

end
-- ==== Proof.Final1.lean ====
/-
  The array the second kernel's output window ends holding.

  The kernel's grid has twenty-five points; point t reads rows 400·t … 400·t + 399 of L and the whole of s0, and writes
  back rows 400·t … 400·t + 399 of the output. Row p of the block it writes back is row 400·t + p of the product
  L · s0: entry (p, q) is the sum over r of L (400·t + p, r) · s0 (r, q). The twenty-five blocks tile the 10000 rows
  (row r lies in block r / 400), so after the run the output array is the product L · s0.
-/
import proofs.«106063_g16123307229541_cont_7to1_487_14_alg».proof.Proof.Body1
import proofs.«106063_g16123307229541_cont_7to1_487_14_alg».proof.Proof.Payloads
import proofs.«106063_g16123307229541_cont_7to1_487_14_alg».proof.Proof.Spec
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

/-- The zero offsets of a whole-buffer rectangle, as a constant function. -/
theorem zero_offsets1 : (![0, 0] : Fin 2 → Nat) = fun _ => 0 := funext fun a => by fin_cases a <;> rfl

/-- The block indices over the grid: point t takes block row t of L and of the output, column block 0 everywhere,
    and the one block of s0. -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the stripe of L at point t is row 400·t + p of L. -/
theorem lblk1_apply (c : Dev nD) (t : Fin cfg1.N) (p : Fin 400) (r : Fin 10000) (h : 400 * t.val + p.val < 10000) :
    iblk1 V c 0 t (ix2 p r) = V c main_arg1 (ix2 ⟨400 * t.val + p.val, h⟩ r) := by
  show V c main_arg1 (((cfg1.win 0).blk t).view.emb (ix2 p r)) = _
  refine congrArg (V c main_arg1) ?_
  obtain ⟨e0, e1, -⟩ := block_index1 t
  funext a; apply Fin.ext
  match a with
  | ⟨0, _⟩ => show win1_0.index t (0 : Fin 2) * 400 + 1 * p.val = 400 * t.val + p.val; omega
  | ⟨1, _⟩ => show win1_0.index t (1 : Fin 2) * 10000 + 1 * r.val = r.val; omega

/-- The block of s0 at any point is the whole of s0. -/
theorem sblk1_apply (c : Dev nD) (t : Fin cfg1.N) (r : Fin 10000) (q : Fin 64) :
    iblk1 V c 1 t (ix2 r q) = V c main_v1 (ix2 r q) := by
  show V c main_v1 (((cfg1.win 1).blk t).view.emb (ix2 r q)) = _
  refine congrArg (V c main_v1) ?_
  obtain ⟨-, -, e2, e3, -⟩ := block_index1 t
  funext a; apply Fin.ext
  match a with
  | ⟨0, _⟩ => show win1_1.index t (0 : Fin 2) * 10000 + 1 * r.val = r.val; omega
  | ⟨1, _⟩ => show win1_1.index t (1 : Fin 2) * 64 + 1 * q.val = q.val; omega

/-- Entry (p, q) of the output block at point t sits at (400·t + p, q) of the output array. -/
theorem oblk1_emb (t : Fin cfg1.N) (p : Fin 400) (q : Fin 64) (h : 400 * t.val + p.val < 10000) :
    ((cfg1.win 2).blk t).view.emb (ix2 p q) = ix2 ⟨400 * t.val + p.val, h⟩ q := by
  obtain ⟨-, -, -, -, e4, e5⟩ := block_index1 t
  funext a; apply Fin.ext
  match a with
  | ⟨0, _⟩ => show win1_2.index t (0 : Fin 2) * 400 + 1 * p.val = 400 * t.val + p.val; omega
  | ⟨1, _⟩ => show win1_2.index t (1 : Fin 2) * 64 + 1 * q.val = q.val; omega

/-- What point t writes back is block t of the product L · s0. -/
theorem flushed1_eq (c : Dev nD) (t : Fin cfg1.N) :
    (dat1 (F := Ideal) V c).flushed 2 t
      = ((cfg1.win 2).blk t).view.read (Elt Ideal) (Cert.MatProd.mm (V c main_arg1) (V c main_v1)) := by
  show (cfg1.win 2).cut (grid1.coords t) ((dat1 (F := Ideal) V c).after 2 t) = _
  rw [after1_2]
  unfold out1_2
  rw [View.canon_unit_zero zero_offsets1]
  simp only [View.ld_unit_zero (S := S400x10000) zero_offsets1, View.ld_unit_zero (S := S10000x64) zero_offsets1]
  funext y
  obtain ⟨p, q, rfl⟩ : ∃ (p : Fin 400) (q : Fin 64), y = ix2 p q := ⟨y 0, y 1, eq_ix2 y⟩
  have hrow : 400 * t.val + p.val < 10000 := by
    have ht : t.val < 25 := lt_of_lt_of_eq t.isLt (N_1 : cfg1.N = 25)
    have hp := p.isLt
    omega
  show k1_pay1 (F := Ideal) (iblk1 V c 0 t) (iblk1 V c 1 t) (ix2 p q)
    = Cert.MatProd.mm (V c main_arg1) (V c main_v1) (((cfg1.win 2).blk t).view.emb (ix2 p q))
  rw [oblk1_emb t p q hrow]
  refine (Pay.pay1_apply _ _ p q).trans ?_
  refine (Finset.sum_congr rfl fun r _ => ?_).trans (Cert.MatProd.mm_apply (V c main_arg1) (V c main_v1) ⟨400 * t.val + p.val, hrow⟩ q).symm
  rw [lblk1_apply V c t p r hrow, sblk1_apply V c t r q]

/-- An index of the output array is in point t's block iff each coordinate is in the block's range on its axis. -/
theorem mem_oblk1 (t : Fin cfg1.N) (i : S10000x64.Idx) :
    i ∈ ((cfg1.win 2).blk t).view.set ↔ ∀ a : Fin 2, win1_2.index t a * S400x64.size a ≤ (i a).val ∧ (i a).val < win1_2.index t a * S400x64.size a + S400x64.size a := by
  show i ∈ ((View.whole main_v2).slice (win1_2.rect t)).set ↔ _
  rw [View.set_slice_whole, Rect.mem_set_unit]
  exact Iff.rfl

/-- The blocks tile the output array: row r lies in the block of point r / 400. -/
theorem cover1 (i : S10000x64.Idx) :
    ∃ t : Fin cfg1.N, (cfg1.win 2).flush t = true ∧ i ∈ ((cfg1.win 2).blk t).view.set := by
  have hi0 : (i 0).val < 10000 := (i 0).isLt
  have hi1 : (i 1).val < 64 := (i 1).isLt
  obtain ⟨t, ht⟩ : ∃ t : Fin cfg1.N, t.val = (i 0).val / 400 :=
    ⟨⟨(i 0).val / 400, by rw [show cfg1.N = 25 from N_1]; omega⟩, rfl⟩
  obtain ⟨-, -, -, -, e4, e5⟩ := block_index1 t
  refine ⟨t, flush1_2 t, ?_⟩
  rw [mem_oblk1]
  intro a
  match a with
  | ⟨0, _⟩ => show win1_2.index t (0 : Fin 2) * 400 ≤ (i 0).val ∧ (i 0).val < win1_2.index t (0 : Fin 2) * 400 + 400; omega
  | ⟨1, _⟩ => show win1_2.index t (1 : Fin 2) * 64 ≤ (i 1).val ∧ (i 1).val < win1_2.index t (1 : Fin 2) * 64 + 64; omega

/-- After the run the output array of the second kernel is the product L · s0. -/
theorem final1 (c : Dev nD) :
    (dat1 (F := Ideal) V c).arrAt 2 cfg1.N = Cert.MatProd.mm (V c main_arg1) (V c main_v1) :=
  (dat1 (F := Ideal) V c).arrAt_eq_of_cover 2 _ (fun t _ => flushed1_eq V c t) cover1

end Cert.KernelIdeal.Hand

end
-- ==== Proof.Final2.lean ====
/-
  The array the third kernel's output window ends holding, as one whole-array function.

  The kernel sweeps the 10000 rows in twenty-five blocks of 400. At point t it reads rows 400·t … 400·t + 399 of L, of s0
  and of s1, and the whole of s1, of the 3 × 64 coefficient table and of the 1 × 64 bias row; it stores into rows
  400·t … 400·t + 399 of the output the row-wise log-softmax of the block's logits
      y (p, j) = ((c0 j · s0 (400·t + p, j) + c1 j · s1 (400·t + p, j)) + (2 · c2 j) · Σ_r L (400·t + p, r) · s1 (r, j)) + b j,
  c0, c1, c2 the table's rows and b the bias row. Row p of the block's logits is therefore row 400·t + p of the logits Y2
  of the whole arrays, and the log-softmax of a row depends on that row only: each point writes back block t of the
  log-softmax of Y2. The blocks tile the array (row r lies in the block of point r / 400), so the array ends holding
  the log-softmax of Y2 everywhere.
-/
import proofs.«106063_g16123307229541_cont_7to1_487_14_alg».proof.Proof.Body2
import proofs.«106063_g16123307229541_cont_7to1_487_14_alg».proof.Proof.Payloads
import proofs.«106063_g16123307229541_cont_7to1_487_14_alg».proof.Proof.Spec
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

/-- The logits from the five arrays the third kernel reads: with c0, c1, c2 the rows of the coefficient table,
    y = ((c0 · s0 + c1 · s1) + (2 · c2) · (L · s1)) + the bias row, the rows spread over all 10000 rows. -/
def Y2 (Lm : Cert.MatProd.Mat 10000 10000) (s1 : Cert.MatProd.Mat 10000 64) (s0 : Cert.MatProd.Mat 10000 64)
    (th : Cert.MatProd.Mat 3 64) (brow : Cert.MatProd.Mat 1 64) : Cert.MatProd.Mat 10000 64 := fun i =>
  ((th (ix2 (0 : Fin 3) (i 1)) * s0 i + th (ix2 (1 : Fin 3) (i 1)) * s1 i)
      + (Cert.Cheb.two * th (ix2 (2 : Fin 3) (i 1))) * Cert.MatProd.mm Lm s1 i) + brow (ix2 (0 : Fin 1) (i 1))

/-- Zero offsets on both axes, as the list and as the constant function. -/
theorem zero_offsets : (![0, 0] : Fin 2 → Nat) = fun _ => 0 := funext fun a => by
  match a with
  | ⟨0, _⟩ => rfl
  | ⟨1, _⟩ => rfl

/-- The block indices at grid point t, decided over the grid: the windows that move (L's stripe, the blocks of s0 and
    s1, the output) are at block row t, column block 0; the whole-array windows (s1, the coefficient table, the bias
    row) stay at block (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of block t is row 400·t + p of the array. -/
theorem row_lt (t : Fin cfg2.N) (p : Fin 400) : 400 * t.val + p.val < 10000 := by
  have ht : t.val < 25 := Nat.lt_of_lt_of_eq t.isLt N_2
  have hp := p.isLt
  omega

/-! ## Each input block, read off its array -/

/-- The stripe of L at point t: entry (p, r) is L's entry (400·t + p, r). -/
theorem stripe_apply (c : Dev nD) (t : Fin cfg2.N) (p : Fin 400) (r : Fin 10000) :
    (iblk2 V c 0 t : S400x10000.Idx → EReal) (ix2 p r)
      = (V c main_arg1 : S10000x10000.Idx → EReal) (ix2 (⟨400 * t.val + p.val, row_lt t p⟩ : Fin 10000) r) := by
  obtain ⟨e0, e1, -⟩ := block_indices t
  unfold iblk2
  rw [View.read_apply]
  show V c main_arg1 _ = V c main_arg1 _
  congr 1
  funext a
  apply Fin.ext
  match a with
  | ⟨0, _⟩ => show win2_0.index t (0 : Fin 2) * 400 + 1 * p.val = 400 * t.val + p.val; rw [e0]; omega
  | ⟨1, _⟩ => show win2_0.index t (1 : Fin 2) * 10000 + 1 * r.val = r.val; rw [e1]; omega

/-- The whole of s1 at any point: the array itself. -/
theorem whole_s1_apply (c : Dev nD) (t : Fin cfg2.N) (r : Fin 10000) (j : Fin 64) :
    (iblk2 V c 1 t : S10000x64.Idx → EReal) (ix2 r j) = (V c main_v2 : S10000x64.Idx → EReal) (ix2 r j) := by
  obtain ⟨-, -, e0, e1, -⟩ := block_indices t
  unfold iblk2
  rw [View.read_apply]
  show V c main_v2 _ = V c main_v2 _
  congr 1
  funext a
  apply Fin.ext
  match a with
  | ⟨0, _⟩ => show win2_1.index t (0 : Fin 2) * 10000 + 1 * r.val = r.val; rw [e0]; omega
  | ⟨1, _⟩ => show win2_1.index t (1 : Fin 2) * 64 + 1 * j.val = j.val; rw [e1]; omega

/-- The block of s0 at point t: entry (p, j) is s0's entry (400·t + p, j). -/
theorem s0_block_apply (c : Dev nD) (t : Fin cfg2.N) (p : Fin 400) (j : Fin 64) :
    (iblk2 V c 2 t : S400x64.Idx → EReal) (ix2 p j)
      = (V c main_v1 : S10000x64.Idx → EReal) (ix2 (⟨400 * t.val + p.val, row_lt t p⟩ : Fin 10000) j) := by
  obtain ⟨-, -, -, -, e0, e1, -⟩ := block_indices t
  unfold iblk2
  rw [View.read_apply]
  show V c main_v1 _ = V c main_v1 _
  congr 1
  funext a
  apply Fin.ext
  match a with
  | ⟨0, _⟩ => show win2_2.index t (0 : Fin 2) * 400 + 1 * p.val = 400 * t.val + p.val; rw [e0]; omega
  | ⟨1, _⟩ => show win2_2.index t (1 : Fin 2) * 64 + 1 * j.val = j.val; rw [e1]; omega

/-- The block of s1 at point t: entry (p, j) is s1's entry (400·t + p, j). -/
theorem s1_block_apply (c : Dev nD) (t : Fin cfg2.N) (p : Fin 400) (j : Fin 64) :
    (iblk2 V c 3 t : S400x64.Idx → EReal) (ix2 p j)
      = (V c main_v2 : S10000x64.Idx → EReal) (ix2 (⟨400 * t.val + p.val, row_lt t p⟩ : Fin 10000) j) := by
  obtain ⟨-, -, -, -, -, -, e0, e1, -⟩ := block_indices t
  unfold iblk2
  rw [View.read_apply]
  show V c main_v2 _ = V c main_v2 _
  congr 1
  funext a
  apply Fin.ext
  match a with
  | ⟨0, _⟩ => show win2_3.index t (0 : Fin 2) * 400 + 1 * p.val = 400 * t.val + p.val; rw [e0]; omega
  | ⟨1, _⟩ => show win2_3.index t (1 : Fin 2) * 64 + 1 * j.val = j.val; rw [e1]; omega

/-- The coefficient table at any point: the array itself. -/
theorem table_apply (c : Dev nD) (t : Fin cfg2.N) (k : Fin 3) (j : Fin 64) :
    (iblk2 V c 4 t : S3x64.Idx → EReal) (ix2 k j) = (V c main_v20 : S3x64.Idx → EReal) (ix2 k j) := by
  obtain ⟨-, -, -, -, -, -, -, -, e0, e1, -⟩ := block_indices t
  unfold iblk2
  rw [View.read_apply]
  show V c main_v20 _ = V c main_v20 _
  congr 1
  funext a
  apply Fin.ext
  match a with
  | ⟨0, _⟩ => show win2_4.index t (0 : Fin 2) * 3 + 1 * k.val = k.val; rw [e0]; omega
  | ⟨1, _⟩ => show win2_4.index t (1 : Fin 2) * 64 + 1 * j.val = j.val; rw [e1]; omega

/-- The bias row at any point: the array itself. -/
theorem bias_apply (c : Dev nD) (t : Fin cfg2.N) (j : Fin 64) :
    (iblk2 V c 5 t : S1x64.Idx → EReal) (ix2 (0 : Fin 1) j) = (V c main_v21 : S1x64.Idx → EReal) (ix2 (0 : Fin 1) j) := by
  obtain ⟨-, -, -, -, -, -, -, -, -, -, e0, e1, -⟩ := block_indices t
  unfold iblk2
  rw [View.read_apply]
  show V c main_v21 _ = V c main_v21 _
  congr 1
  funext a
  apply Fin.ext
  match a with
  | ⟨0, _⟩ => show win2_5.index t (0 : Fin 2) * 1 + 1 * 0 = 0; rw [e0]
  | ⟨1, _⟩ => show win2_5.index t (1 : Fin 2) * 64 + 1 * j.val = j.val; rw [e1]; omega

/-! ## The three coefficient rows, loaded through one-row rectangles -/

/-- The load of row 0 of the table reads entry (0, j) at (0, j). -/
theorem row0_load (x4 : Vec Ideal S3x64 .f32) (j : Fin 64) :
    View.ld x4 r2_t0 (ix2 (0 : Fin 1) j) = x4 (ix2 (0 : Fin 3) j) := by
  show x4 _ = x4 _
  congr 1
  funext a
  apply Fin.ext
  match a with
  | ⟨0, _⟩ => rfl
  | ⟨1, _⟩ => show 0 + 1 * j.val = j.val; omega

/-- The load of row 1 of the table reads entry (1, j) at (0, j). -/
theorem row1_load (x4 : Vec Ideal S3x64 .f32) (j : Fin 64) :
    View.ld x4 r2_t1 (ix2 (0 : Fin 1) j) = x4 (ix2 (1 : Fin 3) j) := by
  show x4 _ = x4 _
  congr 1
  funext a
  apply Fin.ext
  match a with
  | ⟨0, _⟩ => rfl
  | ⟨1, _⟩ => show 0 + 1 * j.val = j.val; omega

/-- The load of row 2 of the table reads entry (2, j) at (0, j). -/
theorem row2_load (x4 : Vec Ideal S3x64 .f32) (j : Fin 64) :
    View.ld x4 r2_t2 (ix2 (0 : Fin 1) j) = x4 (ix2 (2 : Fin 3) j) := by
  show x4 _ = x4 _
  congr 1
  funext a
  apply Fin.ext
  match a with
  | ⟨0, _⟩ => rfl
  | ⟨1, _⟩ => show 0 + 1 * j.val = j.val; omega

/-! ## A block's logits are rows of the whole array's -/

/-- If the block's loads agree, at row p and column j, with the five arrays at row P and column j, the block's logit
    at (p, j) is the whole array's at (P, j). -/
theorem logits_of_rows (v0 : Vec Ideal S400x10000 .f32) (v1 : Vec Ideal S10000x64 .f32) (v4 : Vec Ideal S1x64 .f32)
    (v6 : Vec Ideal S400x64 .f32) (v10 : Vec Ideal S1x64 .f32) (v12 : Vec Ideal S400x64 .f32) (v17 : Vec Ideal S1x64 .f32)
    (v24 : Vec Ideal S1x64 .f32)
    (Lm : Cert.MatProd.Mat 10000 10000) (s1 : Cert.MatProd.Mat 10000 64) (s0 : Cert.MatProd.Mat 10000 64)
    (th : Cert.MatProd.Mat 3 64) (brow : Cert.MatProd.Mat 1 64) (p : Fin 400) (P : Fin 10000) (j : Fin 64)
    (h0 : ∀ r : Fin 10000, v0 (ix2 p r) = Lm (ix2 P r)) (h1 : ∀ r : Fin 10000, v1 (ix2 r j) = s1 (ix2 r j))
    (h4 : v4 (ix2 (0 : Fin 1) j) = th (ix2 (0 : Fin 3) j)) (h6 : v6 (ix2 p j) = s0 (ix2 P j))
    (h10 : v10 (ix2 (0 : Fin 1) j) = th (ix2 (1 : Fin 3) j)) (h12 : v12 (ix2 p j) = s1 (ix2 P j))
    (h17 : v17 (ix2 (0 : Fin 1) j) = th (ix2 (2 : Fin 3) j)) (h24 : v24 (ix2 (0 : Fin 1) j) = brow (ix2 (0 : Fin 1) j)) :
    Pay.logits2 v0 v1 v4 v6 v10 v12 v17 v24 (ix2 p j) = Y2 Lm s1 s0 th brow (ix2 P j) := by
  have hs : (∑ r : Fin 10000, v0 (ix2 p r) * v1 (ix2 r j)) = ∑ l : Fin 10000, Lm (ix2 P l) * s1 (ix2 l j) :=
    Finset.sum_congr rfl fun r _ => by rw [h0 r, h1 r]
  show ((v4 (ix2 (0 : Fin 1) j) * v6 (ix2 p j) + v10 (ix2 (0 : Fin 1) j) * v12 (ix2 p j))
        + (Cert.Cheb.two * v17 (ix2 (0 : Fin 1) j)) * (∑ r : Fin 10000, v0 (ix2 p r) * v1 (ix2 r j))) + v24 (ix2 (0 : Fin 1) j)
      = ((th (ix2 (0 : Fin 3) j) * s0 (ix2 P j) + th (ix2 (1 : Fin 3) j) * s1 (ix2 P j))
        + (Cert.Cheb.two * th (ix2 (2 : Fin 3) j)) * (∑ l : Fin 10000, Lm (ix2 P l) * s1 (ix2 l j))) + brow (ix2 (0 : Fin 1) j)
  rw [h4, h6, h10, h12, h17, h24, hs]

/-! ## What each point writes back, and the whole array -/

/-- An element (p, q) of the output's block at point t sits at (400·t + p, q) in the array. -/
theorem out_emb (t : Fin cfg2.N) (p : Fin 400) (q : Fin 64) :
    ((cfg2.win 6).blk t).view.emb (ix2 p q) = (ix2 (⟨400 * t.val + p.val, row_lt t p⟩ : Fin 10000) q : S10000x64.Idx) := by
  obtain ⟨-, -, -, -, -, -, -, -, -, -, -, -, e0, e1⟩ := block_indices t
  funext a
  apply Fin.ext
  match a with
  | ⟨0, _⟩ => show win2_6.index t (0 : Fin 2) * 400 + 1 * p.val = 400 * t.val + p.val; rw [e0]; omega
  | ⟨1, _⟩ => show win2_6.index t (1 : Fin 2) * 64 + 1 * q.val = q.val; rw [e1]; omega

/-- WHAT POINT t WRITES BACK is block t of the log-softmax of the whole array's logits: row p of the block's logits is
    row 400·t + p of the whole array's, and the log-softmax of a row depends on that row only. -/
theorem flushed_eq (c : Dev nD) (t : Fin cfg2.N) :
    (dat2 (F := Ideal) V c).flushed 6 t = ((cfg2.win 6).blk t).view.read (Elt Ideal)
      (Cert.Cheb.lsmK (Y2 (V c main_arg1) (V c main_v2) (V c main_v1) (V c main_v20) (V c main_v21))) := by
  show (cfg2.win 6).cut (grid2.coords t) ((dat2 (F := Ideal) V c).after 6 t) = _
  rw [after2_6]
  unfold out2_6
  rw [View.canon_unit_zero zero_offsets]
  simp only [View.ld_unit_zero (S := S400x10000) zero_offsets, View.ld_unit_zero (S := S10000x64) zero_offsets,
    View.ld_unit_zero (S := S400x64) zero_offsets, View.ld_unit_zero (S := S1x64) zero_offsets]
  funext y
  obtain ⟨p, q, rfl⟩ : ∃ (p : Fin 400) (q : Fin 64), y = ix2 p q := ⟨y 0, y 1, eq_ix2 y⟩
  rw [View.read_apply, out_emb t p q]
  show Gen.k2_pay1 (F := Ideal) (iblk2 V c 0 t) (iblk2 V c 1 t) (View.ld (iblk2 V c 4 t) r2_t0) (iblk2 V c 2 t)
      (View.ld (iblk2 V c 4 t) r2_t1) (iblk2 V c 3 t) (View.ld (iblk2 V c 4 t) r2_t2) (iblk2 V c 5 t) (ix2 p q)
    = Cert.Cheb.lsmK (Y2 (V c main_arg1) (V c main_v2) (V c main_v1) (V c main_v20) (V c main_v21))
        (ix2 (⟨400 * t.val + p.val, row_lt t p⟩ : Fin 10000) q)
  refine (Pay.pay2_apply _ _ _ _ _ _ _ _ p q).trans ?_
  refine Cert.Cheb.lsmK_row_congr _ _ p (⟨400 * t.val + p.val, row_lt t p⟩ : Fin 10000) (fun j => ?_) q
  exact logits_of_rows _ _ _ _ _ _ _ _ _ _ _ _ _ p _ j
    (fun r => stripe_apply V c t p r) (fun r => whole_s1_apply V c t r j)
    ((row0_load _ j).trans (table_apply V c t 0 j)) (s0_block_apply V c t p j)
    ((row1_load _ j).trans (table_apply V c t 1 j)) (s1_block_apply V c t p j)
    ((row2_load _ j).trans (table_apply V c t 2 j)) (bias_apply V c t j)

/-- An index of the array is in point t's block iff each coordinate is in the block's range on its axis. -/
theorem mem_block (t : Fin cfg2.N) (i : S10000x64.Idx) :
    i ∈ ((cfg2.win 6).blk t).view.set ↔ ∀ a : Fin 2, win2_6.index t a * S400x64.size a ≤ (i a).val
      ∧ (i a).val < win2_6.index t a * S400x64.size a + S400x64.size a := by
  show i ∈ ((View.whole main_v22).slice (win2_6.rect t)).set ↔ _
  rw [View.set_slice_whole, Rect.mem_set_unit]
  exact Iff.rfl

/-- Every index of the array is in some point's block: row r is in the block of point r / 400. -/
theorem covered (i : S10000x64.Idx) : ∃ t : Fin cfg2.N, (cfg2.win 6).flush t = true ∧ i ∈ ((cfg2.win 6).blk t).view.set := by
  have hi0 : (i 0).val < 10000 := (i 0).isLt
  have hi1 : (i 1).val < 64 := (i 1).isLt
  have hN : cfg2.N = 25 := N_2
  let t : Fin cfg2.N := ⟨(i 0).val / 400, by rw [hN]; omega⟩
  obtain ⟨-, -, -, -, -, -, -, -, -, -, -, -, e0, e1⟩ := block_indices t
  have ht : t.val = (i 0).val / 400 := rfl
  refine ⟨t, flush2_6 t, ?_⟩
  rw [mem_block]
  intro a
  match a with
  | ⟨0, _⟩ =>
    show win2_6.index t (0 : Fin 2) * 400 ≤ (i 0).val ∧ (i 0).val < win2_6.index t (0 : Fin 2) * 400 + 400
    rw [e0, ht]; omega
  | ⟨1, _⟩ =>
    show win2_6.index t (1 : Fin 2) * 64 ≤ (i 1).val ∧ (i 1).val < win2_6.index t (1 : Fin 2) * 64 + 64
    rw [e1]; omega

/-- THE ARRAY after the run of the third kernel: the row-wise log-softmax of the logits of the five arrays it reads. -/
theorem final2 (c : Dev nD) :
    (dat2 (F := Ideal) V c).arrAt 6 cfg2.N
      = Cert.Cheb.lsmK (Y2 (V c main_arg1) (V c main_v2) (V c main_v1) (V c main_v20) (V c main_v21)) :=
  (dat2 (F := Ideal) V c).arrAt_eq_of_cover 6 _ (fun t _ => flushed_eq V c t) covered

end Cert.KernelIdeal.Hand

end
-- ==== Proof.KValue.lean ====
/-
  The kernel program's result is the projected form of the degree-3 Chebyshev graph filter.

  Between the items of the program every buffer holds a known valuation. Read backwards from the result:
    * the third kernel leaves, in its output array, the row-wise log-softmax of the logits it forms from the graph
      operator, its two input arrays, the coefficient array and a bias row, all as it found them at its entry;
    * of these the graph operator is the argument as launched (no host operation writes it and it is an input window
      of the second kernel, which ends as found); the two arrays are what the second and the first kernel left; the
      coefficient array's three rows are th0 − th3, th1 + th2 and th3, and the bias row holds b2, built by the second
      host stretch from the arguments as launched;
    * the second kernel leaves the product of the graph operator with the first kernel's output;
    * the first kernel leaves Σ_k relu (Σ_j x (p, j) · W1 (k, j) + b1 k) · W2 (q, k), its bias row built by the first
      host stretch from the argument as launched; exchanging the coordinates of W1 and W2 this is h · W2ᵀ.
  So the two arrays are s0 and s1 = L · s0, the third kernel's product is s2 = L · s1, and its logits are the
  projected form's.
-/
import proofs.«106063_g16123307229541_cont_7to1_487_14_alg».proof.Proof.Run
import proofs.«106063_g16123307229541_cont_7to1_487_14_alg».proof.Proof.HostVals
import proofs.«106063_g16123307229541_cont_7to1_487_14_alg».proof.Proof.Spec
import proofs.«106063_g16123307229541_cont_7to1_487_14_alg».proof.Proof.Final0
import proofs.«106063_g16123307229541_cont_7to1_487_14_alg».proof.Proof.Final1
import proofs.«106063_g16123307229541_cont_7to1_487_14_alg».proof.Proof.Final2

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.MatProd Cert.Cheb

/-! ## The kernels' closed forms are the projected form's stages -/

/-- With the bias row holding b1, the first kernel's closed form is the projected hidden layer h · W2ᵀ: the
    transposes only exchange the two coordinates of W1 and W2. -/
theorem G0_eq_s0 (x : Mat 10000 128) (W1 : Mat 128 128) (brow : Mat 1 128) (W2 : Mat 64 128) (b1 : Vc 128)
    (hb : ∀ k : Fin 128, brow (ix2 (0 : Fin 1) k) = b1 (ix1 k)) : G0 x W1 brow W2 = s0 x W1 b1 W2 := by
  funext i
  show (∑ k : Fin 128, max ((∑ j : Fin 128, x (ix2 (i 0) j) * W1 (ix2 k j)) + brow (ix2 (0 : Fin 1) k)) 0 * W2 (ix2 (i 1) k))
    = ∑ k : Fin 128, max ((∑ j : Fin 128, x (ix2 (i 0) j) * W1 (ix2 k j)) + b1 (ix1 k)) 0 * W2 (ix2 (i 1) k)
  exact Finset.sum_congr rfl fun k _ => by rw [hb k]

/-- With the coefficient rows holding th0 − th3, th1 + th2, th3 and the bias row holding b2, the third kernel's
    logits over s1 = L · s0 and s0 are the projected form's logits. -/
theorem Y2_eq_yK (x : Mat 10000 128) (L : Mat 10000 10000) (W1 : Mat 128 128) (b1 : Vc 128) (W2 : Mat 64 128) (b2 : Vc 64)
    (t : Vc 4) (th : Mat 3 64) (brow : Mat 1 64)
    (h0 : ∀ q : Fin 64, th (ix2 (0 : Fin 3) q) = t (ix1 0) - t (ix1 3))
    (h1 : ∀ q : Fin 64, th (ix2 (1 : Fin 3) q) = t (ix1 1) + t (ix1 2))
    (h2 : ∀ q : Fin 64, th (ix2 (2 : Fin 3) q) = t (ix1 3))
    (hb : ∀ q : Fin 64, brow (ix2 (0 : Fin 1) q) = b2 (ix1 q)) :
    Y2 L (s1 x L W1 b1 W2) (s0 x W1 b1 W2) th brow = yK x L W1 b1 W2 b2 t := by
  funext i
  obtain ⟨p, q, rfl⟩ : ∃ (p : Fin 10000) (q : Fin 64), i = ix2 p q := ⟨i 0, i 1, eq_ix2 i⟩
  show ((th (ix2 (0 : Fin 3) q) * s0 x W1 b1 W2 (ix2 p q) + th (ix2 (1 : Fin 3) q) * s1 x L W1 b1 W2 (ix2 p q))
      + (two * th (ix2 (2 : Fin 3) q)) * mm L (s1 x L W1 b1 W2) (ix2 p q)) + brow (ix2 (0 : Fin 1) q)
    = (((t (ix1 0) - t (ix1 3)) * s0 x W1 b1 W2 (ix2 p q) + (t (ix1 1) + t (ix1 2)) * s1 x L W1 b1 W2 (ix2 p q))
      + (two * t (ix1 3)) * mm L (s1 x L W1 b1 W2) (ix2 p q)) + b2 (ix1 q)
  rw [h0 q, h1 q, h2 q, hb q]

/-! ## The chain of buffer contents -/

section Chain

variable (m : (ℓ : Loc nD τ sig) → Buf (Elt Ideal) ℓ) (c : Dev nD)

/-- The first kernel is entered with the arguments as launched. -/
theorem E1_arg0 : E1 (F := Ideal) m c main_arg0 = (m ((c : Thread nD τ).loc main_arg0)) := (W1_of m c main_arg0 (by decide)).trans rfl
theorem E1_arg2 : E1 (F := Ideal) m c main_arg2 = (m ((c : Thread nD τ).loc main_arg2)) := (W1_of m c main_arg2 (by decide)).trans rfl
theorem E1_arg4 : E1 (F := Ideal) m c main_arg4 = (m ((c : Thread nD τ).loc main_arg4)) := (W1_of m c main_arg4 (by decide)).trans rfl

/-- … and with the bias row holding b1. -/
theorem E1_v0 (k : Fin 128) : (E1 (F := Ideal) m c main_v0 : S1x128.Idx → EReal) (ix2 (0 : Fin 1) k) = ((m ((c : Thread nD τ).loc main_arg3)) : S128.Idx → EReal) (ix1 k) :=
  Cert.KernelIdeal.HostVals.after0_v0 (W0 m c) k

/-- The first kernel leaves the projected hidden layer in its output array. -/
theorem W2_v1 : (W2 (F := Ideal) m c (Proc.devRef .tc main_v1) : S10000x64.Idx → EReal) = s0 (m ((c : Thread nD τ).loc main_arg0)) (m ((c : Thread nD τ).loc main_arg2)) (m ((c : Thread nD τ).loc main_arg3)) (m ((c : Thread nD τ).loc main_arg4)) := by
  refine (W2_arr m c 4).trans ((final0 (E1 m) c).trans ?_)
  rw [E1_arg0, E1_arg2, E1_arg4]
  exact G0_eq_s0 _ _ _ _ _ (E1_v0 m c)

/-- The graph operator reaches the second and third kernels as launched. -/
theorem W2_arg1 : W2 (F := Ideal) m c (Proc.devRef .tc main_arg1) = (m ((c : Thread nD τ).loc main_arg1)) :=
  (W2_of_ne m c main_arg1 (by decide)).trans ((W1_of m c main_arg1 (by decide)).trans rfl)
theorem W3_arg1 : W3 (F := Ideal) m c (Proc.devRef .tc main_arg1) = (m ((c : Thread nD τ).loc main_arg1)) :=
  (W3_in m c 0 rfl).trans (W2_arg1 m c)
theorem W3_v1 : (W3 (F := Ideal) m c (Proc.devRef .tc main_v1) : S10000x64.Idx → EReal) = s0 (m ((c : Thread nD τ).loc main_arg0)) (m ((c : Thread nD τ).loc main_arg2)) (m ((c : Thread nD τ).loc main_arg3)) (m ((c : Thread nD τ).loc main_arg4)) :=
  (W3_in m c 1 rfl).trans (W2_v1 m c)

/-- The second kernel leaves L · s0 in its output array. -/
theorem W3_v2 : (W3 (F := Ideal) m c (Proc.devRef .tc main_v2) : S10000x64.Idx → EReal) = s1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W3_arr m c 2).trans ((final1 (E2 m) c).trans ?_)
  show mm (W2 m c (Proc.devRef .tc main_arg1)) (W2 m c (Proc.devRef .tc main_v1)) = _
  rw [W2_arg1, W2_v1]
  rfl

/-- The coefficients and the second bias reach the second host stretch as launched. -/
theorem W3_arg6 : W3 (F := Ideal) m c (Proc.devRef .tc main_arg6) = (m ((c : Thread nD τ).loc main_arg6)) :=
  (W3_of_ne m c main_arg6 (by decide)).trans ((W2_of_ne m c main_arg6 (by decide)).trans ((W1_of m c main_arg6 (by decide)).trans rfl))
theorem W3_arg5 : W3 (F := Ideal) m c (Proc.devRef .tc main_arg5) = (m ((c : Thread nD τ).loc main_arg5)) :=
  (W3_of_ne m c main_arg5 (by decide)).trans ((W2_of_ne m c main_arg5 (by decide)).trans ((W1_of m c main_arg5 (by decide)).trans rfl))

/-- The third kernel's result is the projected form. -/
theorem kernel_value :
    (W5 (F := Ideal) m c (Proc.devRef .tc main_v22) : S10000x64.Idx → EReal) = Cert.Cheb.outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W5_out m c).trans ((final2 (E4 m) c).trans ?_)
  show lsmK (Y2 (W4 m c (Proc.devRef .tc main_arg1)) (W4 m c (Proc.devRef .tc main_v2)) (W4 m c (Proc.devRef .tc main_v1))
      (W4 m c (Proc.devRef .tc main_v20)) (W4 m c (Proc.devRef .tc main_v21))) = _
  rw [W4_of m c main_arg1 (by decide), W4_of m c main_v2 (by decide), W4_of m c main_v1 (by decide),
    W3_arg1, W3_v2, W3_v1]
  refine congrArg lsmK (Y2_eq_yK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ _ (fun q => ?_) (fun q => ?_) (fun q => ?_) (fun q => ?_))
  · exact (Cert.KernelIdeal.HostVals.after2_v20_0 (W3 m c) q).trans (by rw [W3_arg6])
  · exact (Cert.KernelIdeal.HostVals.after2_v20_1 (W3 m c) q).trans (by rw [W3_arg6])
  · exact (Cert.KernelIdeal.HostVals.after2_v20_2 (W3 m c) q).trans (by rw [W3_arg6])
  · exact (Cert.KernelIdeal.HostVals.after2_v21 (W3 m c) q).trans (by rw [W3_arg5])

end Chain

end Cert.KernelIdeal.Hand

end
-- ==== Proof.RefValue.lean ====
/-
  The reference program computes the recurrence form of the degree-3 Chebyshev graph filter.

  The program is read one operation at a time, from the inputs upwards, at an index (p, k):
    * the hidden layer: x · W1ᵀ is a transpose followed by a plain product, the bias is a row spread over all rows,
      and the relu is the maximum with a spread zero, so the stage is  relu (x · W1ᵀ + b1);
    * each filter coefficient is a one-entry slice of th, reshaped to a scalar and spread over the array, so at
      every index it reads th_n; the literal 2.0 is a spread constant;
    * T1 = L · h (computed twice by the program), T2 = 2 · (L · h) − T1, T3 = 2 · (L · T2) − h, and the filtered
      features ((th0 · h + th1 · T1) + th2 · T2) + th3 · T3, each elementwise on the previous stages;
    * the logits are the filtered features times W2ᵀ plus the spread row b2;
    * the log-softmax takes the row maximum as the maximum of −∞ and the fold of max from −∞ over the row, which is
      that fold; subtracts it; sums the exponentials of the row from 0, which is their sum; takes the logarithm;
      and subtracts it.
  Each stage equals the corresponding whole-array formula at every index, hence as a function.
-/
import proofs.«106063_g16123307229541_cont_7to1_487_14_alg».proof.Proof.RefReadP
import proofs.«106063_g16123307229541_cont_7to1_487_14_alg».proof.Proof.Spec
import proofs.«106063_g16123307229541_cont_7to1_487_14_alg».proof.Proof.LibRowOps
import proofs.«106063_g16123307229541_cont_7to1_487_14_alg».proof.Proof.LibRowSpread

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.MatProd Cert.Cheb

/-! ## Indices -/

/-- A rank-2 index is determined by the values of its two coordinates. -/
theorem idx_eq_ix2 {a b : Nat} (f : (⟨2, ![a, b]⟩ : Shape).Idx) (p : Fin a) (q : Fin b)
    (h0 : (f 0).val = p.val) (h1 : (f 1).val = q.val) : f = ix2 p q :=
  funext fun d => Fin.ext (by match d with | ⟨0, _⟩ => exact h0 | ⟨1, _⟩ => exact h1)

/-- A rank-1 index is determined by the value of its coordinate. -/
theorem idx_eq_ix1 {a : Nat} (f : (⟨1, ![a]⟩ : Shape).Idx) (p : Fin a) (h0 : (f 0).val = p.val) : f = ix1 p :=
  funext fun d => Fin.ext (by match d with | ⟨0, _⟩ => exact h0)

/-! ## Constants -/

/-- The f32 word of −∞ denotes the bottom element. -/
theorem ofBits_neg_inf_f32 : Ideal.ofBits .f32 0xFF800000#32 = (⊥ : EReal) := by
  simp [Ideal.ofBits, Ideal.ieee]

/-- A one-entry vector reshaped to a scalar reads its entry. -/
theorem scalarCast_apply {α : Type} (v : S1.Idx → α) (h : S1.ShapeCasts S_) (j : S_.Idx) :
    shapeCast S_ v h j = v (ix1 (0 : Fin 1)) :=
  shapeCast_apply v h j (ix1 (0 : Fin 1)) (by
    have a := (S1.rowMajor (ix1 (0 : Fin 1))).isLt
    have b := (S_.rowMajor j).isLt
    have e1 : S1.numel = 1 := by decide
    have e0 : S_.numel = 1 := by decide
    omega)

section
variable (x0 : (⟨S10000x128, .f32⟩ : BufTy).Contents (Elt Ideal)) (x1 : (⟨S10000x10000, .f32⟩ : BufTy).Contents (Elt Ideal)) (x2 : (⟨S128x128, .f32⟩ : BufTy).Contents (Elt Ideal))
    (x3 : (⟨S128, .f32⟩ : BufTy).Contents (Elt Ideal)) (x4 : (⟨S64x128, .f32⟩ : BufTy).Contents (Elt Ideal)) (x5 : (⟨S64, .f32⟩ : BufTy).Contents (Elt Ideal)) (x6 : (⟨S4, .f32⟩ : BufTy).Contents (Elt Ideal))

/-! ## The filter coefficients and the literal 2.0, spread over the array -/

theorem th0_apply (i : S10000x128.Idx) : val_main_v8 (F := Ideal) x6 i = x6 (ix1 (0 : Fin 4)) := by
  rw [val_main_v8_apply]
  unfold val_main_v7
  rw [scalarCast_apply, val_main_v6_apply]
  exact congrArg x6 (idx_eq_ix1 _ _ rfl)

theorem th1_apply (i : S10000x128.Idx) : val_main_v13 (F := Ideal) x6 i = x6 (ix1 (1 : Fin 4)) := by
  rw [val_main_v13_apply]
  unfold val_main_v12
  rw [scalarCast_apply, val_main_v11_apply]
  exact congrArg x6 (idx_eq_ix1 _ _ rfl)

theorem th2_apply (i : S10000x128.Idx) : val_main_v22 (F := Ideal) x6 i = x6 (ix1 (2 : Fin 4)) := by
  rw [val_main_v22_apply]
  unfold val_main_v21
  rw [scalarCast_apply, val_main_v20_apply]
  exact congrArg x6 (idx_eq_ix1 _ _ rfl)

theorem th3_apply (i : S10000x128.Idx) : val_main_v31 (F := Ideal) x6 i = x6 (ix1 (3 : Fin 4)) := by
  rw [val_main_v31_apply]
  unfold val_main_v30
  rw [scalarCast_apply, val_main_v29_apply]
  exact congrArg x6 (idx_eq_ix1 _ _ rfl)

theorem two_apply (i : S10000x128.Idx) : val_main_v17 (F := Ideal) i = two := by
  rw [val_main_v17_apply, val_main_cst_apply]; rfl

theorem two_apply' (i : S10000x128.Idx) : val_main_v26 (F := Ideal) i = two := by
  rw [val_main_v26_apply, val_main_cst_0_apply]; rfl

/-! ## The hidden layer -/

theorem hid_apply (p : Fin 10000) (k : Fin 128) :
    val_main_v5 (F := Ideal) x0 x2 x3 (ix2 p k) = hid x0 x2 x3 (ix2 p k) := by
  rw [val_main_v5_apply, val_main_v4_apply, val_main_v1_apply, val_main_v3_apply, val_main_v2_apply,
    val_main_call0_v0_apply, val_main_call0_cst_apply]
  simp only [val_main_v0_apply, Ideal.maximumf_def, Ideal.addf_def, Ideal.ofBits_def, Ideal.ofBits_zero_f32]
  show max ((∑ l : Fin 128, x0 (lidx_main_v1 (ix2 p k) l) * x2 (idx_main_v0 (ridx_main_v1 (ix2 p k) l)))
      + x3 (idx_main_v2 (idx_main_v3 (ix2 p k)))) 0
    = max ((∑ l : Fin 128, x0 (ix2 p l) * x2 (ix2 k l)) + x3 (ix1 k)) 0
  have e3 : idx_main_v2 (idx_main_v3 (ix2 p k)) = ix1 k := idx_eq_ix1 _ _ rfl
  rw [e3]
  refine congrArg (fun s => max (s + x3 (ix1 k)) 0) (Finset.sum_congr rfl fun l _ => ?_)
  have el : lidx_main_v1 (ix2 p k) l = ix2 p l := idx_eq_ix2 _ _ _ rfl rfl
  have er : idx_main_v0 (ridx_main_v1 (ix2 p k) l) = ix2 k l := idx_eq_ix2 _ _ _ rfl rfl
  rw [el, er]

/-! ## The three-term recurrence -/

theorem t1_apply (p : Fin 10000) (k : Fin 128) :
    val_main_v10 (F := Ideal) x0 x1 x2 x3 (ix2 p k) = t1 x0 x1 x2 x3 (ix2 p k) := by
  rw [val_main_v10_apply]
  show _ = ∑ l : Fin 10000, x1 (ix2 p l) * hid x0 x2 x3 (ix2 l k)
  refine Finset.sum_congr rfl fun l _ => ?_
  have el : lidx_main_v10 (ix2 p k) l = ix2 p l := idx_eq_ix2 _ _ _ rfl rfl
  have er : ridx_main_v10 (ix2 p k) l = ix2 l k := idx_eq_ix2 _ _ _ rfl rfl
  rw [el, er, hid_apply]

theorem t1_apply' (p : Fin 10000) (k : Fin 128) :
    val_main_v16 (F := Ideal) x0 x1 x2 x3 (ix2 p k) = t1 x0 x1 x2 x3 (ix2 p k) := by
  rw [val_main_v16_apply]
  show _ = ∑ l : Fin 10000, x1 (ix2 p l) * hid x0 x2 x3 (ix2 l k)
  refine Finset.sum_congr rfl fun l _ => ?_
  have el : lidx_main_v16 (ix2 p k) l = ix2 p l := idx_eq_ix2 _ _ _ rfl rfl
  have er : ridx_main_v16 (ix2 p k) l = ix2 l k := idx_eq_ix2 _ _ _ rfl rfl
  rw [el, er, hid_apply]

theorem t2_apply (p : Fin 10000) (k : Fin 128) :
    val_main_v19 (F := Ideal) x0 x1 x2 x3 (ix2 p k) = t2 x0 x1 x2 x3 (ix2 p k) := by
  rw [val_main_v19_apply, val_main_v18_apply, two_apply, t1_apply, t1_apply']
  rfl

theorem lt2_apply (p : Fin 10000) (k : Fin 128) :
    val_main_v25 (F := Ideal) x0 x1 x2 x3 (ix2 p k) = mm x1 (t2 x0 x1 x2 x3) (ix2 p k) := by
  rw [val_main_v25_apply, mm_apply]
  refine Finset.sum_congr rfl fun l _ => ?_
  have el : lidx_main_v25 (ix2 p k) l = ix2 p l := idx_eq_ix2 _ _ _ rfl rfl
  have er : ridx_main_v25 (ix2 p k) l = ix2 l k := idx_eq_ix2 _ _ _ rfl rfl
  rw [el, er, t2_apply]

theorem t3_apply (p : Fin 10000) (k : Fin 128) :
    val_main_v28 (F := Ideal) x0 x1 x2 x3 (ix2 p k) = t3 x0 x1 x2 x3 (ix2 p k) := by
  rw [val_main_v28_apply, val_main_v27_apply, two_apply', hid_apply, lt2_apply]
  rfl

theorem poly_apply (p : Fin 10000) (k : Fin 128) :
    val_main_v33 (F := Ideal) x0 x1 x2 x3 x6 (ix2 p k) = poly x0 x1 x2 x3 x6 (ix2 p k) := by
  rw [val_main_v33_apply, val_main_v24_apply, val_main_v15_apply, val_main_v9_apply, val_main_v14_apply,
    val_main_v23_apply, val_main_v32_apply, th0_apply, th1_apply, th2_apply, th3_apply,
    hid_apply, t1_apply, t2_apply, t3_apply]
  rfl

/-! ## The logits -/

theorem yR_apply (p : Fin 10000) (q : Fin 64) :
    val_main_v38 (F := Ideal) x0 x1 x2 x3 x4 x5 x6 (ix2 p q) = yR x0 x1 x2 x3 x4 x5 x6 (ix2 p q) := by
  rw [val_main_v38_apply, val_main_v35_apply, val_main_v37_apply, val_main_v36_apply]
  simp only [val_main_v34_apply, Ideal.addf_def]
  show (∑ l : Fin 128, val_main_v33 (F := Ideal) x0 x1 x2 x3 x6 (lidx_main_v35 (ix2 p q) l)
        * x4 (idx_main_v34 (ridx_main_v35 (ix2 p q) l))) + x5 (idx_main_v36 (idx_main_v37 (ix2 p q)))
    = (∑ l : Fin 128, poly x0 x1 x2 x3 x6 (ix2 p l) * x4 (ix2 q l)) + x5 (ix1 q)
  have e5 : idx_main_v36 (idx_main_v37 (ix2 p q)) = ix1 q := idx_eq_ix1 _ _ rfl
  rw [e5]
  refine congrArg (fun s => s + x5 (ix1 q)) (Finset.sum_congr rfl fun l _ => ?_)
  have el : lidx_main_v35 (ix2 p q) l = ix2 p l := idx_eq_ix2 _ _ _ rfl rfl
  have er : idx_main_v34 (ridx_main_v35 (ix2 p q) l) = ix2 q l := idx_eq_ix2 _ _ _ rfl rfl
  rw [el, er, poly_apply]

/-! ## The log-softmax -/

/-- The row maximum the program subtracts: max of −∞ and the fold of max from −∞ over the row. -/
theorem rowMax_apply (p : Fin 10000) :
    val_main_call1_v2 (F := Ideal) x0 x1 x2 x3 x4 x5 x6 (ix1 p) = rowMax (yR x0 x1 x2 x3 x4 x5 x6) p := by
  rw [val_main_call1_v2_apply, val_main_call1_v1_apply, val_main_call1_cst_0_apply]
  unfold val_main_call1_v0
  rw [RowOps.rowMax_host _ _ reducesTo_S10000x64_S10000_d1 (by decide) h_S_ p, val_main_call1_cst_apply]
  simp only [Ideal.maximumf_def, Ideal.ofBits_def, ofBits_neg_inf_f32]
  rw [bot_sup_eq]
  unfold rowMax
  exact congrArg (fun f => Finset.fold max (⊥ : EReal) f (Finset.univ : Finset (Fin 64)))
    (funext fun j => yR_apply x0 x1 x2 x3 x4 x5 x6 p j)

/-- The logits with the row maximum subtracted. -/
theorem shifted_apply (p : Fin 10000) (q : Fin 64) :
    val_main_call1_v5 (F := Ideal) x0 x1 x2 x3 x4 x5 x6 (ix2 p q)
      = yR x0 x1 x2 x3 x4 x5 x6 (ix2 p q) - rowMax (yR x0 x1 x2 x3 x4 x5 x6) p := by
  rw [val_main_call1_v5_apply, val_main_call1_v4_apply, val_main_call1_v3_apply, yR_apply]
  have e : idx_main_call1_v3 (idx_main_call1_v4 (ix2 p q)) = ix1 p := idx_eq_ix1 _ _ rfl
  rw [e, rowMax_apply]
  rfl

/-- The logarithm of the row's sum of exponentials, the sum started from the zero word. -/
theorem rowLse_apply (p : Fin 10000) :
    Ideal.log (val_main_call1_v7 (F := Ideal) x0 x1 x2 x3 x4 x5 x6 (ix1 p)) = rowLse (yR x0 x1 x2 x3 x4 x5 x6) p := by
  rw [val_main_call1_v7_apply, val_main_call1_cst_1_apply]
  simp only [Ideal.ofBits_def, Ideal.ofBits_zero_f32, zero_add]
  unfold rowLse
  refine congrArg Ideal.log (Finset.sum_congr rfl fun j _ => ?_)
  have e : idx_main_call1_v7 (ix1 p) j = ix2 p j := idx_eq_ix2 _ _ _ rfl rfl
  rw [e, val_main_call1_v6_apply, shifted_apply]
  rfl

/-- The program's result at an index. -/
theorem out_apply (p : Fin 10000) (q : Fin 64) :
    val_main_v39 (F := Ideal) x0 x1 x2 x3 x4 x5 x6 (ix2 p q) = outR x0 x1 x2 x3 x4 x5 x6 (ix2 p q) := by
  rw [val_main_v39_apply, val_main_call1_v10_apply, val_main_call1_v9_apply, val_main_call1_v8_apply, shifted_apply]
  have e : idx_main_call1_v8 (idx_main_call1_v10 (ix2 p q)) = ix1 p := idx_eq_ix1 _ _ rfl
  rw [e]
  simp only [Ideal.hostUnary_log_def, Ideal.subf_def]
  rw [rowLse_apply]
  rfl

/-- The reference program's result is the recurrence form of the filter followed by the row-wise log-softmax. -/
theorem val_eq_outR :
    val_main_v39 (F := Ideal) x0 x1 x2 x3 x4 x5 x6 = Cert.Cheb.outR x0 x1 x2 x3 x4 x5 x6 := by
  funext i
  obtain ⟨p, q, rfl⟩ : ∃ (p : Fin 10000) (q : Fin 64), i = ix2 p q := ⟨i 0, i 1, eq_ix2 i⟩
  exact out_apply x0 x1 x2 x3 x4 x5 x6 p q

end

end Cert.ReferenceIdeal.RefValue

end
-- ==== Proof.Law.lean ====
/-
  The algebraic law between the two formulas of the degree-3 Chebyshev graph filter (Spec.lean).

  All inputs are real numbers, so every intermediate matrix has real entries, and the comparison can be carried
  out in the real numbers, where the matrix product is bilinear and associative.

  LOGITS. With h the hidden layer and T1 = L · h, the recurrence gives T2 = 2 · T1 − T1 = T1 and
  T3 = 2 · (L · T1) − h, so
      poly = th0 · h + (th1 + th2) · T1 + th3 · (2 · (L · T1) − h).
  Multiplying on the right by W2ᵀ, using linearity of the product in its left factor and associativity
  (T1 · W2ᵀ = L · (h · W2ᵀ) = s1, (L · T1) · W2ᵀ = L · s1 = s2), gives
      poly · W2ᵀ = (th0 − th3) · s0 + (th1 + th2) · s1 + (2 · th3) · s2,
  which is the projected form. Adding b2 to every row, the two logit matrices agree.

  LOG-SOFTMAX. For a row of real numbers y with maximum m (a real number, the row being nonempty), the sum
  S = Σ exp (y − m) is a positive real, log S is a real, and  y − (log S + m) = (y − m) − log S  in the reals.
-/
import Mathlib.Tactic
import proofs.«106063_g16123307229541_cont_7to1_487_14_alg».proof.Proof.Spec

noncomputable section

open scoped BigOperators

namespace Cert.Cheb

open Idealize.ShloMosaic Idealize.ShloMosaic.ValueIdx Cert.MatProd Cert.RealSums

/-- The f32 literal 2.0 is the real number 2. -/
theorem two_eq : two = ((2 : ℝ) : EReal) := by
  unfold two
  simp [Ideal.ofBits, Ideal.ieee, -EReal.coe_mul]
  norm_num

/-! ### Real matrices -/

/-- A real a×b matrix: a real-valued function of the rank-2 index. -/
abbrev RMat (a b : Nat) : Type := (⟨2, ![a, b]⟩ : Shape).Idx → ℝ

/-- The product of real matrices. -/
def mmR {a k b : Nat} (A : RMat a k) (B : RMat k b) : RMat a b :=
  fun i => ∑ l : Fin k, A (ix2 (i 0) l) * B (ix2 l (i 1))

/-- A matrix of real entries is the image of a real matrix. -/
theorem exists_real {a b : Nat} {A : Mat a b} (h : IsReal A) : ∃ R : RMat a b, A = fun i => (R i : EReal) := by
  choose f hf using h
  exact ⟨f, funext hf⟩

/-- The product of the images of two real matrices is the image of their real product. -/
theorem mm_coe {a k b : Nat} (A : RMat a k) (B : RMat k b) :
    mm (fun i => (A i : EReal)) (fun i => (B i : EReal)) = fun i => ((mmR A B i : ℝ) : EReal) := by
  funext i
  simp only [mm, mmR, ← EReal.coe_mul, coe_finset_sum]

/-- Associativity of the real matrix product: both sides are the double sum of A (i, p) · X (p, j) · W (j, q). -/
theorem mmR_assoc {a k l b : Nat} (A : RMat a k) (X : RMat k l) (W : RMat l b) :
    mmR (mmR A X) W = mmR A (mmR X W) := by
  funext i
  simp only [mmR, Finset.sum_mul, Finset.mul_sum]
  rw [Finset.sum_comm]
  exact Finset.sum_congr rfl fun p _ => Finset.sum_congr rfl fun j _ => mul_assoc _ _ _

/-- Linearity of the product in its left factor, for the combination the recurrence produces. -/
theorem mmR_comb {n f c : Nat} (h T U : RMat n f) (Wt : RMat f c) (c0 c1 c2 c3 : ℝ)
    (i : (⟨2, ![n, c]⟩ : Shape).Idx) :
    mmR (fun i => ((c0 * h i + c1 * T i) + c2 * (2 * T i - T i)) + c3 * (2 * U i - h i)) Wt i
      = ((c0 - c3) * mmR h Wt i + (c1 + c2) * mmR T Wt i) + (2 * c3) * mmR U Wt i := by
  simp only [mmR, Finset.mul_sum, ← Finset.sum_add_distrib]
  exact Finset.sum_congr rfl fun l _ => by ring

/-- The recurrence form of the filtered and projected features equals the projected form, over the reals. -/
theorem real_law {n f c : Nat} (Lr : RMat n n) (h : RMat n f) (Wt : RMat f c) (c0 c1 c2 c3 : ℝ)
    (i : (⟨2, ![n, c]⟩ : Shape).Idx) :
    mmR (fun i => ((c0 * h i + c1 * mmR Lr h i) + c2 * (2 * mmR Lr h i - mmR Lr h i))
          + c3 * (2 * mmR Lr (fun i => 2 * mmR Lr h i - mmR Lr h i) i - h i)) Wt i
      = ((c0 - c3) * mmR h Wt i + (c1 + c2) * mmR Lr (mmR h Wt) i) + (2 * c3) * mmR Lr (mmR Lr (mmR h Wt)) i := by
  have hT2 : (fun i => 2 * mmR Lr h i - mmR Lr h i) = mmR Lr h := funext fun i => by ring
  rw [hT2, ← mmR_assoc Lr h Wt, ← mmR_assoc Lr (mmR Lr h) Wt]
  exact mmR_comb h (mmR Lr h) (mmR Lr (mmR Lr h)) Wt c0 c1 c2 c3 i

/-! ### The logits -/

/-- The product of two matrices of real entries has real entries. -/
theorem isReal_mm {a k b : Nat} {A : Mat a k} {B : Mat k b} (hA : IsReal A) (hB : IsReal B) : IsReal (mm A B) :=
  fun _ => isReal_sum _ fun _ => isReal_mul (hA _) (hB _)

/-- The transpose of a matrix of real entries has real entries. -/
theorem isReal_tr {a b : Nat} {A : Mat a b} (hA : IsReal A) : IsReal (tr A) := fun _ => hA _

section
variable (x : Mat 10000 128) (L : Mat 10000 10000) (W1 : Mat 128 128) (b1 : Vc 128) (W2 : Mat 64 128) (b2 : Vc 64) (th : Vc 4)

/-- The hidden layer has real entries. -/
theorem isReal_hid (hx : IsReal x) (hW1 : IsReal W1) (hb1 : ∀ i, ∃ r : ℝ, b1 i = (r : EReal)) :
    IsReal (hid x W1 b1) := fun i =>
  isReal_max (isReal_add (isReal_mm hx (isReal_tr hW1) i) (hb1 _)) isReal_zero

/-- The two logit matrices agree. -/
theorem yK_eq_yR (hx : IsReal x) (hL : IsReal L) (hW1 : IsReal W1) (hb1 : ∀ i, ∃ r : ℝ, b1 i = (r : EReal))
    (hW2 : IsReal W2) (hb2 : ∀ i, ∃ r : ℝ, b2 i = (r : EReal)) (hth : ∀ i, ∃ r : ℝ, th i = (r : EReal)) :
    yK x L W1 b1 W2 b2 th = yR x L W1 b1 W2 b2 th := by
  obtain ⟨h, hh⟩ := exists_real (isReal_hid x W1 b1 hx hW1 hb1)
  obtain ⟨Lr, rfl⟩ := exists_real hL
  obtain ⟨Wr, rfl⟩ := exists_real hW2
  choose t ht using hth
  choose b hb using hb2
  have htr : tr (fun i => (Wr i : EReal)) = fun i => ((Wr (ix2 (i 1) (i 0)) : ℝ) : EReal) := rfl
  have e1 : t1 x (fun i => (Lr i : EReal)) W1 b1 = fun i => ((mmR Lr h i : ℝ) : EReal) := by
    unfold t1
    rw [hh, mm_coe]
  have e2 : t2 x (fun i => (Lr i : EReal)) W1 b1
      = fun i => ((2 * mmR Lr h i - mmR Lr h i : ℝ) : EReal) := by
    funext j
    simp only [t2, e1, two_eq, ← EReal.coe_mul, ← EReal.coe_sub]
  have e3 : poly x (fun i => (Lr i : EReal)) W1 b1 th
      = fun i => ((((t (ix1 0) * h i + t (ix1 1) * mmR Lr h i) + t (ix1 2) * (2 * mmR Lr h i - mmR Lr h i))
          + t (ix1 3) * (2 * mmR Lr (fun i => 2 * mmR Lr h i - mmR Lr h i) i - h i) : ℝ) : EReal) := by
    funext j
    simp only [poly, t3, e2, e1, hh, mm_coe, ht, two_eq, ← EReal.coe_mul, ← EReal.coe_add, ← EReal.coe_sub]
  funext i
  simp only [yK, yR, s2, s1, s0, e3, addRow, hh, htr, mm_coe, ht, hb, two_eq,
    ← EReal.coe_mul, ← EReal.coe_add, ← EReal.coe_sub]
  rw [real_law]

/-- The projected logits have real entries. -/
theorem isReal_yK (hx : IsReal x) (hL : IsReal L) (hW1 : IsReal W1) (hb1 : ∀ i, ∃ r : ℝ, b1 i = (r : EReal))
    (hW2 : IsReal W2) (hb2 : ∀ i, ∃ r : ℝ, b2 i = (r : EReal)) (hth : ∀ i, ∃ r : ℝ, th i = (r : EReal)) :
    IsReal (yK x L W1 b1 W2 b2 th) := by
  have h0 : IsReal (s0 x W1 b1 W2) := isReal_mm (isReal_hid x W1 b1 hx hW1 hb1) (isReal_tr hW2)
  have h1 : IsReal (s1 x L W1 b1 W2) := isReal_mm hL h0
  have h2 : IsReal (s2 x L W1 b1 W2) := isReal_mm hL h1
  intro i
  exact isReal_add (isReal_add (isReal_add (isReal_mul (isReal_sub (hth _) (hth _)) (h0 i))
    (isReal_mul (isReal_add (hth _) (hth _)) (h1 i))) (isReal_mul (isReal_mul ⟨2, two_eq⟩ (hth _)) (h2 i))) (hb2 _)

end

/-! ### The log-softmax -/

/-- The fold of max from −∞ over a nonempty finite family of real numbers is a real number. -/
theorem fold_max_coe {ι : Type*} (s : Finset ι) (g : ι → ℝ) (hs : s.Nonempty) :
    ∃ r : ℝ, s.fold max ⊥ (fun j => (g j : EReal)) = (r : EReal) := by
  classical
  induction s using Finset.induction_on with
  | empty => exact absurd hs (by simp)
  | insert a s ha ih =>
    rw [Finset.fold_insert ha]
    rcases s.eq_empty_or_nonempty with rfl | hne
    · exact ⟨g a, by simp⟩
    · obtain ⟨r, hr⟩ := ih hne
      exact ⟨max (g a) r, by rw [hr, coe_max]⟩

/-- The two arrangements of the row-wise log-softmax agree on a matrix of real entries: with m the row's maximum
    and S = Σ exp (y − m), both are the real number y − m − log S. -/
theorem lsmK_eq_lsmR {a b : Nat} (Y : Mat a b) (hY : IsReal Y) : lsmK Y = lsmR Y := by
  obtain ⟨y, rfl⟩ := exists_real hY
  funext i
  have hne : (Finset.univ : Finset (Fin b)).Nonempty := ⟨i 1, Finset.mem_univ _⟩
  obtain ⟨m, hm⟩ := fold_max_coe Finset.univ (fun j : Fin b => y (ix2 (i 0) j)) hne
  have hmax : rowMax (fun i => (y i : EReal)) (i 0) = (m : EReal) := hm
  have hpos : 0 < ∑ j : Fin b, Real.exp (y (ix2 (i 0) j) - m) :=
    Finset.sum_pos (fun j _ => Real.exp_pos _) hne
  have hlse : rowLse (fun i => (y i : EReal)) (i 0)
      = ((Real.log (∑ j : Fin b, Real.exp (y (ix2 (i 0) j) - m)) : ℝ) : EReal) := by
    unfold rowLse
    rw [hmax]
    simp only [← EReal.coe_sub, Ideal.exp_coe, coe_finset_sum, Ideal.log_coe, if_neg (not_le.mpr hpos)]
  show (y i : EReal) - (rowLse (fun i => (y i : EReal)) (i 0) + rowMax (fun i => (y i : EReal)) (i 0))
    = ((y i : EReal) - rowMax (fun i => (y i : EReal)) (i 0)) - rowLse (fun i => (y i : EReal)) (i 0)
  rw [hlse, hmax, ← EReal.coe_add, ← EReal.coe_sub, ← EReal.coe_sub, ← EReal.coe_sub]
  exact congrArg _ (by ring)

/-! ### The two results -/

/-- The projected form and the recurrence form of the filter give the same result on real inputs. -/
theorem outK_eq_outR (x : Mat 10000 128) (L : Mat 10000 10000) (W1 : Mat 128 128) (b1 : Vc 128) (W2 : Mat 64 128)
    (b2 : Vc 64) (th : Vc 4)
    (hx : IsReal x) (hL : IsReal L) (hW1 : IsReal W1) (hb1 : ∀ i, ∃ r : ℝ, b1 i = (r : EReal)) (hW2 : IsReal W2)
    (hb2 : ∀ i, ∃ r : ℝ, b2 i = (r : EReal)) (hth : ∀ i, ∃ r : ℝ, th i = (r : EReal)) :
    outK x L W1 b1 W2 b2 th = outR x L W1 b1 W2 b2 th := by
  unfold outK outR
  rw [← yK_eq_yR x L W1 b1 W2 b2 th hx hL hW1 hb1 hW2 hb2 hth]
  exact lsmK_eq_lsmR _ (isReal_yK x L W1 b1 W2 b2 th hx hL hW1 hb1 hW2 hb2 hth)

end Cert.Cheb

end
-- ==== Proof.LibFiniteAll.lean ====
/-
  "Every entry is finite", written as a program, says every entry is a real number.

  A program tests finiteness of a float array x by comparing |x| with +inf entry by entry, and-reducing the
  resulting bits over all axes from the bit 1 into a single bit. On the extended reals |x| = max x (−x), the
  f32 word 0x7F800000 denotes +inf, and max x (−x) < +inf fails exactly at x = +inf and x = −inf (where the
  maximum is +inf). An and-reduction over all axes is 1 only when every bit is 1. So the single bit being 1
  says every entry of x is the image of a real number.
-/
import Idealize.ShloMosaic.PureOps.Ideal
import Idealize.ShloMosaic.Lib.ReduceAll
import Idealize.ShloMosaic.Lib.ValueIdx

noncomputable section

namespace Cert.FiniteAll

open Idealize.ShloMosaic Idealize.ShloMosaic.ValueIdx

/-- The f32 word with all exponent bits set and no fraction bit denotes +inf. -/
theorem ofBits_inf_f32 : Ideal.ofBits .f32 0x7F800000#32 = (⊤ : EReal) := by
  simp [Ideal.ofBits, Ideal.ieee]

/-- An extended real whose absolute value max x (−x) is strictly below +inf is a real number. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | coe r => exact ⟨r, rfl⟩
  | top => simp [Ideal.cmp] at h

/-- A rank-0 shape has one index. -/
instance subsingleton_idx0 : Subsingleton (⟨0, ![]⟩ : Shape).Idx := ⟨fun a b => funext fun d => d.elim0⟩

/-- The finiteness test of a float array of any shape: if the and-reduction over all axes of the bits
    |x| < +inf (the bound a broadcast rank-0 constant, the reduction started from the bit 1) is the bit 1,
    every entry of the array is a real number. -/
theorem all_real_of_test {s : Shape} {axes : List (Fin s.rank)}
    (bc : (⟨0, ![]⟩ : Shape).BroadcastsInDim s (![] : Fin 0 → Fin s.rank))
    (rd : s.ReducesTo axes (⟨0, ![]⟩ : Shape)) (hu : 0 < (⟨0, ![]⟩ : Shape).numel)
    (a : FVec Ideal s .f32)
    (h : Host.reduce IntOp.andi
          (cmpf .olt (Host.absf a)
            (broadcastInDim s ![] bc (constant (F := Ideal) (⟨0, ![]⟩ : Shape) .f32 0x7F800000#32)))
          (constantI (⟨0, ![]⟩ : Shape) 1 1#1) rd hu ix0 = 1#1) :
    ∀ i, ∃ r : ℝ, a i = (r : EReal) := by
  intro i
  exact real_of_abs_lt_inf (a i) (Host.reduce_andi_all _ _ rd hu ix0 h i)

end Cert.FiniteAll

end
-- ==== Proof.Finite.lean ====
/-
  The finiteness precondition, written as a program, says every entry of every input is a real number.

  The program tests each of the seven inputs separately (|x| < +inf entry by entry, and-reduced over all axes
  from the bit 1 into a single bit) and joins the seven bits by and. A conjunction of bits is 1 only when each
  bit is 1, and each single test being 1 says every entry of that input is the image of a real number.
-/
import proofs.«106063_g16123307229541_cont_7to1_487_14_alg».proof.Pre_finite_inputs
import proofs.«106063_g16123307229541_cont_7to1_487_14_alg».proof.Proof.Gen.Pre_finite_inputs
import proofs.«106063_g16123307229541_cont_7to1_487_14_alg».proof.Proof.LibFiniteAll
import Idealize.ShloMosaic.Lib.ReduceAll
import Idealize.ShloMosaic.Lib.Affine

noncomputable section

namespace Cert.FiniteInputs

open Idealize.ShloMosaic Idealize.ShloMosaic.ValueIdx

/-- If the finiteness program returns the bit 1, every entry of each of the seven inputs is a real number. -/
theorem real_of_pre [Cert.Pre_finite_inputs.Facts]
    (a0 : FVec Ideal Cert.Pre_finite_inputs.S10000x128 .f32) (a1 : FVec Ideal Cert.Pre_finite_inputs.S10000x10000 .f32)
    (a2 : FVec Ideal Cert.Pre_finite_inputs.S128x128 .f32) (a3 : FVec Ideal Cert.Pre_finite_inputs.S128 .f32)
    (a4 : FVec Ideal Cert.Pre_finite_inputs.S64x128 .f32) (a5 : FVec Ideal Cert.Pre_finite_inputs.S64 .f32)
    (a6 : FVec Ideal Cert.Pre_finite_inputs.S4 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) := by
  have e := congrFun h ix0
  dsimp only [Cert.Pre_finite_inputs.fn, Cert.Pre_finite_inputs.fn_part1, andi] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Cert.FiniteAll.all_real_of_test _ _ _ a0 e0, Cert.FiniteAll.all_real_of_test _ _ _ a1 e1,
    Cert.FiniteAll.all_real_of_test _ _ _ a2 e2, Cert.FiniteAll.all_real_of_test _ _ _ a3 e3,
    Cert.FiniteAll.all_real_of_test _ _ _ a4 e4, Cert.FiniteAll.all_real_of_test _ _ _ a5 e5,
    Cert.FiniteAll.all_real_of_test _ _ _ a6 e6⟩

end Cert.FiniteInputs

end
-- ==== Proof.lean ====
/-
  The certificate of the degree-3 Chebyshev graph filter kernel against its reference.

  The kernel program is three kernels among host operations. It first projects the hidden layer,
  s0 = relu (x · W1ᵀ + b1) · W2ᵀ, then sweeps L twice, s1 = L · s0 and u = L · s1, and in the second sweep combines
  y = ((th0 − th3) · s0 + (th1 + th2) · s1) + (2 · th3) · u + b2 and takes the row-wise log-softmax of y. The reference
  runs the three-term recurrence on the hidden layer h itself — T1 = L · h, T2 = 2 · (L · h) − T1, T3 = 2 · (L · T2) − h,
  poly = th0 · h + th1 · T1 + th2 · T2 + th3 · T3 — and projects at the end, y = poly · W2ᵀ + b2, before the same
  log-softmax. On real numbers T2 = L · h, the projection distributes over the sum, and (L · h) · W2ᵀ = L · (h · W2ᵀ) by
  associativity of the matrix product, so the two logits agree; the two arrangements of the log-softmax,
  y − (log Σ exp (y − m) + m) and (y − m) − log Σ exp (y − m), agree as well. Both steps move factors across sums and
  cancel, which fails at the infinities of the extended reals: the precondition (every input finite) is what makes every
  intermediate a real number.

  The frames: each program runs to the end, faults nowhere and leaves its arguments as launched. For the kernel program
  this is the run of its five items — two host stretches and three kernels — over the valuations of every unscoped
  buffer between them (Run.lean for the idealized program, KRun.lean the same text for the program as printed); the
  third kernel reads one array through two windows, which hold half of its share each. For the reference it is its run
  with the result dropped. No operation was rewritten by the idealization, so nothing is owed for it.

  The value: the kernel program's result array is read off the run's last valuation and walked back through the three
  kernels' whole-array functions and the host stretches to the arguments (KValue.lean); the reference's result is its
  stages read one operation at a time (RefValue.lean); the law joining them is Law.lean.
-/
import proofs.«106063_g16123307229541_cont_7to1_487_14_alg».proof.Defs
import proofs.«106063_g16123307229541_cont_7to1_487_14_alg».proof.Proof.Gen.Kernel
import proofs.«106063_g16123307229541_cont_7to1_487_14_alg».proof.Proof.Gen.KernelIdeal
import proofs.«106063_g16123307229541_cont_7to1_487_14_alg».proof.Proof.Gen.ReferenceIdeal
import proofs.«106063_g16123307229541_cont_7to1_487_14_alg».proof.Proof.Gen.Pre_finite_inputs
import proofs.«106063_g16123307229541_cont_7to1_487_14_alg».proof.Proof.KRun
import proofs.«106063_g16123307229541_cont_7to1_487_14_alg».proof.Proof.Run
import proofs.«106063_g16123307229541_cont_7to1_487_14_alg».proof.Proof.KValue
import proofs.«106063_g16123307229541_cont_7to1_487_14_alg».proof.Proof.RefValue
import proofs.«106063_g16123307229541_cont_7to1_487_14_alg».proof.Proof.Law
import proofs.«106063_g16123307229541_cont_7to1_487_14_alg».proof.Proof.Finite
import Idealize.ShloMosaic.Adequacy
import Idealize.ShloMosaic.Init

noncomputable section

namespace Cert.Proof

open Idealize.ShloMosaic Idealize.ShloMosaic.TcCoe Idealize.SL.Sem

/-- The program as printed runs to the end and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments, all finite, both idealized programs end with the projected form of the
    filter's log-softmax: the kernel program by its value chain, the reference by its stages and the algebraic law. -/
theorem algebraic : Cert.algebraic_KernelIdeal_ReferenceIdeal := by
  intro m ρ m' ρ' hpre hagree
  refine ⟨fun c => Cert.Cheb.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.kernel_value m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6⟩ := Cert.FiniteInputs.real_of_pre _ _ _ _ _ _ _ (hpre c)
    rw [Cert.ReferenceIdeal.ReadP.val_main_v39_eq, Cert.ReferenceIdeal.RefValue.val_eq_outR,
      (hagree c).1, (hagree c).2.1, (hagree c).2.2.1, (hagree c).2.2.2.1, (hagree c).2.2.2.2.1,
      (hagree c).2.2.2.2.2.1, (hagree c).2.2.2.2.2.2]
    exact (Cert.Cheb.outK_eq_outR _ _ _ _ _ _ _ h0 h1 h2 h3 h4 h5 h6).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
